-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v36)) (v5 : (c : Dev Cert.KernelIdeal.nD) → Buf (Elt Ideal) ((c.tc : Thread Cert.KernelIdeal.nD Cert.KernelIdeal.τ).loc Cert.KernelIdeal.main_v37)) (v6 : (c : Dev Cert.KernelIdeal.nD) → Buf (Elt Ideal) ((c.tc : Thread Cert.KernelIdeal.nD Cert.KernelIdeal.τ).loc Cert.KernelIdeal.main_v72_0)) (v7 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v36) = v4 c
          ∧ r.2.mem ((c.tc : Thread Cert.KernelIdeal.nD Cert.KernelIdeal.τ).loc Cert.KernelIdeal.main_v37) = v5 c
          ∧ r.2.mem ((c.tc : Thread Cert.KernelIdeal.nD Cert.KernelIdeal.τ).loc Cert.KernelIdeal.main_v72_0) = v6 c
          ∧ r.2.mem ((c.tc : Thread Cert.KernelIdeal.nD Cert.KernelIdeal.τ).loc Cert.KernelIdeal.main_v72_1) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v37) = v5 c
          ∧ r.2.mem ((c.tc : Thread Cert.ReferenceIdeal.nD Cert.ReferenceIdeal.τ).loc Cert.ReferenceIdeal.main_v55) = v6 c
          ∧ r.2.mem ((c.tc : Thread Cert.ReferenceIdeal.nD Cert.ReferenceIdeal.τ).loc Cert.ReferenceIdeal.main_v73) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S960000 : Shape := ⟨1, ![960000]⟩
abbrev S128x20000 : Shape := ⟨2, ![128, 20000]⟩
abbrev S128 : Shape := ⟨1, ![128]⟩
abbrev S128x30000 : Shape := ⟨2, ![128, 30000]⟩
abbrev S64x128 : Shape := ⟨2, ![64, 128]⟩
abbrev S64 : Shape := ⟨1, ![64]⟩
abbrev S1x64 : Shape := ⟨2, ![1, 64]⟩
abbrev S20000x64 : Shape := ⟨2, ![20000, 64]⟩
abbrev S20000 : Shape := ⟨1, ![20000]⟩
abbrev S30000x64 : Shape := ⟨2, ![30000, 64]⟩
abbrev S30000 : Shape := ⟨1, ![30000]⟩
abbrev S_ : Shape := ⟨0, ![]⟩

class Facts : Prop where
  bcast_S_S960000 : S_.BroadcastsInDim S960000 (![] : Fin 0 → Fin S960000.rank)
  reducesTo_S960000_S_d0 : S960000.ReducesTo [0] S_
  h_S_ : 0 < S_.numel
  bcast_S_S128x20000 : S_.BroadcastsInDim S128x20000 (![] : Fin 0 → Fin S128x20000.rank)
  reducesTo_S128x20000_S_d0_1 : S128x20000.ReducesTo [0, 1] S_
  bcast_S_S128 : S_.BroadcastsInDim S128 (![] : Fin 0 → Fin S128.rank)
  reducesTo_S128_S_d0 : S128.ReducesTo [0] S_
  bcast_S_S128x30000 : S_.BroadcastsInDim S128x30000 (![] : Fin 0 → Fin S128x30000.rank)
  reducesTo_S128x30000_S_d0_1 : S128x30000.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S20000x64 : S_.BroadcastsInDim S20000x64 (![] : Fin 0 → Fin S20000x64.rank)
  reducesTo_S20000x64_S_d0_1 : S20000x64.ReducesTo [0, 1] S_
  bcast_S_S20000 : S_.BroadcastsInDim S20000 (![] : Fin 0 → Fin S20000.rank)
  reducesTo_S20000_S_d0 : S20000.ReducesTo [0] S_
  bcast_S_S30000x64 : S_.BroadcastsInDim S30000x64 (![] : Fin 0 → Fin S30000x64.rank)
  reducesTo_S30000x64_S_d0_1 : S30000x64.ReducesTo [0, 1] S_
  bcast_S_S30000 : S_.BroadcastsInDim S30000 (![] : Fin 0 → Fin S30000.rank)
  reducesTo_S30000_S_d0 : S30000.ReducesTo [0] S_

variable [Facts]

def fn_part3 {F : FTy → Type} [FloatOps F] (main_arg16 : FVec F S30000x64 .f32) (main_arg17 : FVec F S30000 .f32) (main_v48 : IVec S_ 1) (main_v49 : FVec F S20000 .f32) (main_v50 : FVec F S20000 .f32) : IVec S_ 1 :=
  let main_v51 : IVec S20000 1 := cmpf .olt main_v49 main_v50
  let main_c_19 : IVec S_ 1 := constantI S_ 1 1#1
  let main_v52 : IVec S_ 1 := (fun x v => Host.reduce IntOp.andi x v reducesTo_S20000_S_d0 h_S_) main_v51 main_c_19
  let main_v53 : IVec S_ 1 := andi main_v48 main_v52
  let main_v54 : FVec F S30000x64 .f32 := Host.absf main_arg16
  let main_cst_20 : FVec F S_ .f32 := constant S_ .f32 0x7F800000#32
  let main_v55 : FVec F S30000x64 .f32 := broadcastInDim S30000x64 ![] bcast_S_S30000x64 main_cst_20
  let main_v56 : IVec S30000x64 1 := cmpf .olt main_v54 main_v55
  let main_c_21 : IVec S_ 1 := constantI S_ 1 1#1
  let main_v57 : IVec S_ 1 := (fun x v => Host.reduce IntOp.andi x v reducesTo_S30000x64_S_d0_1 h_S_) main_v56 main_c_21
  let main_v58 : IVec S_ 1 := andi main_v53 main_v57
  let main_v59 : FVec F S30000 .f32 := Host.absf main_arg17
  let main_cst_22 : FVec F S_ .f32 := constant S_ .f32 0x7F800000#32
  let main_v60 : FVec F S30000 .f32 := broadcastInDim S30000 ![] bcast_S_S30000 main_cst_22
  let main_v61 : IVec S30000 1 := cmpf .olt main_v59 main_v60
  let main_c_23 : IVec S_ 1 := constantI S_ 1 1#1
  let main_v62 : IVec S_ 1 := (fun x v => Host.reduce IntOp.andi x v reducesTo_S30000_S_d0 h_S_) main_v61 main_c_23
  let main_v63 : IVec S_ 1 := andi main_v58 main_v62
  main_v63

def fn_part2 {F : FTy → Type} [FloatOps F] (main_arg12 : FVec F S64 .f32) (main_arg13 : FVec F S1x64 .f32) (main_arg14 : FVec F S20000x64 .f32) (main_arg15 : FVec F S20000 .f32) (main_arg16 : FVec F S30000x64 .f32) (main_arg17 : FVec F S30000 .f32) (main_v33 : IVec S_ 1) : IVec S_ 1 :=
  let main_v34 : FVec F S64 .f32 := Host.absf main_arg12
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg13
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S20000x64 .f32 := Host.absf main_arg14
  let main_cst_16 : FVec F S_ .f32 := constant S_ .f32 0x7F800000#32
  let main_v45 : FVec F S20000x64 .f32 := broadcastInDim S20000x64 ![] bcast_S_S20000x64 main_cst_16
  let main_v46 : IVec S20000x64 1 := cmpf .olt main_v44 main_v45
  let main_c_17 : IVec S_ 1 := constantI S_ 1 1#1
  let main_v47 : IVec S_ 1 := (fun x v => Host.reduce IntOp.andi x v reducesTo_S20000x64_S_d0_1 h_S_) main_v46 main_c_17
  let main_v48 : IVec S_ 1 := andi main_v43 main_v47
  let main_v49 : FVec F S20000 .f32 := Host.absf main_arg15
  let main_cst_18 : FVec F S_ .f32 := constant S_ .f32 0x7F800000#32
  let main_v50 : FVec F S20000 .f32 := broadcastInDim S20000 ![] bcast_S_S20000 main_cst_18
  fn_part3 (F := F) main_arg16 main_arg17 main_v48 main_v49 main_v50

def fn_part1 {F : FTy → Type} [FloatOps F] (main_arg9 : FVec F S128x30000 .f32) (main_arg10 : FVec F S128 .f32) (main_arg11 : FVec F S64x128 .f32) (main_arg12 : FVec F S64 .f32) (main_arg13 : FVec F S1x64 .f32) (main_arg14 : FVec F S20000x64 .f32) (main_arg15 : FVec F S20000 .f32) (main_arg16 : FVec F S30000x64 .f32) (main_arg17 : FVec F S30000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x30000 .f32 := Host.absf main_arg9
  let main_cst_6 : FVec F S_ .f32 := constant S_ .f32 0x7F800000#32
  let main_v20 : FVec F S128x30000 .f32 := broadcastInDim S128x30000 ![] bcast_S_S128x30000 main_cst_6
  let main_v21 : IVec S128x30000 1 := cmpf .olt main_v19 main_v20
  let main_c_7 : IVec S_ 1 := constantI S_ 1 1#1
  let main_v22 : IVec S_ 1 := (fun x v => Host.reduce IntOp.andi x v reducesTo_S128x30000_S_d0_1 h_S_) main_v21 main_c_7
  let main_v23 : IVec S_ 1 := andi main_v18 main_v22
  let main_v24 : FVec F S128 .f32 := Host.absf main_arg10
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg11
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg12 main_arg13 main_arg14 main_arg15 main_arg16 main_arg17 main_v33

def fn {F : FTy → Type} [FloatOps F] (main_arg0 : IVec S4096 32) (main_arg1 : IVec S960000 32) (main_arg2 : IVec S960000 32) (main_arg3 : FVec F S960000 .f32) (main_arg4 : IVec S960000 32) (main_arg5 : IVec S960000 32) (main_arg6 : FVec F S960000 .f32) (main_arg7 : FVec F S128x20000 .f32) (main_arg8 : FVec F S128 .f32) (main_arg9 : FVec F S128x30000 .f32) (main_arg10 : FVec F S128 .f32) (main_arg11 : FVec F S64x128 .f32) (main_arg12 : FVec F S64 .f32) (main_arg13 : FVec F S1x64 .f32) (main_arg14 : FVec F S20000x64 .f32) (main_arg15 : FVec F S20000 .f32) (main_arg16 : FVec F S30000x64 .f32) (main_arg17 : FVec F S30000 .f32) : IVec S_ 1 :=
  let main_v0 : FVec F S960000 .f32 := Host.absf main_arg3
  let main_cst : FVec F S_ .f32 := constant S_ .f32 0x7F800000#32
  let main_v1 : FVec F S960000 .f32 := broadcastInDim S960000 ![] bcast_S_S960000 main_cst
  let main_v2 : IVec S960000 1 := cmpf .olt main_v0 main_v1
  let main_c : IVec S_ 1 := constantI S_ 1 1#1
  let main_v3 : IVec S_ 1 := (fun x v => Host.reduce IntOp.andi x v reducesTo_S960000_S_d0 h_S_) main_v2 main_c
  let main_v4 : FVec F S960000 .f32 := Host.absf main_arg6
  let main_cst_0 : FVec F S_ .f32 := constant S_ .f32 0x7F800000#32
  let main_v5 : FVec F S960000 .f32 := broadcastInDim S960000 ![] bcast_S_S960000 main_cst_0
  let main_v6 : IVec S960000 1 := cmpf .olt main_v4 main_v5
  let main_c_1 : IVec S_ 1 := constantI S_ 1 1#1
  let main_v7 : IVec S_ 1 := (fun x v => Host.reduce IntOp.andi x v reducesTo_S960000_S_d0 h_S_) main_v6 main_c_1
  let main_v8 : IVec S_ 1 := andi main_v3 main_v7
  let main_v9 : FVec F S128x20000 .f32 := Host.absf main_arg7
  let main_cst_2 : FVec F S_ .f32 := constant S_ .f32 0x7F800000#32
  let main_v10 : FVec F S128x20000 .f32 := broadcastInDim S128x20000 ![] bcast_S_S128x20000 main_cst_2
  let main_v11 : IVec S128x20000 1 := cmpf .olt main_v9 main_v10
  let main_c_3 : IVec S_ 1 := constantI S_ 1 1#1
  let main_v12 : IVec S_ 1 := (fun x v => Host.reduce IntOp.andi x v reducesTo_S128x20000_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg9 main_arg10 main_arg11 main_arg12 main_arg13 main_arg14 main_arg15 main_arg16 main_arg17 main_v13 main_v16
-- ==== Kernel.lean ====
abbrev S4096 : Shape := ⟨1, ![4096]⟩
abbrev S960000 : Shape := ⟨1, ![960000]⟩
abbrev S128x20000 : Shape := ⟨2, ![128, 20000]⟩
abbrev S128 : Shape := ⟨1, ![128]⟩
abbrev S128x30000 : Shape := ⟨2, ![128, 30000]⟩
abbrev S64x128 : Shape := ⟨2, ![64, 128]⟩
abbrev S64 : Shape := ⟨1, ![64]⟩
abbrev S1x64 : Shape := ⟨2, ![1, 64]⟩
abbrev S20000x64 : Shape := ⟨2, ![20000, 64]⟩
abbrev S20000 : Shape := ⟨1, ![20000]⟩
abbrev S30000x64 : Shape := ⟨2, ![30000, 64]⟩
abbrev S30000 : Shape := ⟨1, ![30000]⟩
abbrev S20000x128 : Shape := ⟨2, ![20000, 128]⟩
abbrev S_ : Shape := ⟨0, ![]⟩
abbrev S960000x1 : Shape := ⟨2, ![960000, 1]⟩
abbrev S960000x128 : Shape := ⟨2, ![960000, 128]⟩
abbrev S30000x128 : Shape := ⟨2, ![30000, 128]⟩
abbrev S1x128 : Shape := ⟨2, ![1, 128]⟩
abbrev S4096x1 : Shape := ⟨2, ![4096, 1]⟩
abbrev S4096x64 : Shape := ⟨2, ![4096, 64]⟩
abbrev S64x64 : Shape := ⟨2, ![64, 64]⟩
abbrev S64x1 : Shape := ⟨2, ![64, 1]⟩
abbrev S1x20000 : Shape := ⟨2, ![1, 20000]⟩
abbrev S4096x20000 : Shape := ⟨2, ![4096, 20000]⟩
abbrev S1024x64 : Shape := ⟨2, ![1024, 64]⟩
abbrev S1x1024 : Shape := ⟨2, ![1, 1024]⟩
abbrev S4096x1024 : Shape := ⟨2, ![4096, 1024]⟩
abbrev S1x30000 : Shape := ⟨2, ![1, 30000]⟩
abbrev S4096x30000 : Shape := ⟨2, ![4096, 30000]⟩

abbrev nBuf : Space → Nat
  | .hbm => 111
  | .vmem => 25
  | .smem => 0
  | _ => 0

abbrev bufTy : (tb : Table) → Fin (tcTables nBuf tb) → BufTy
  | .hbm, ⟨0, _⟩ => ⟨S4096, .i32⟩
  | .hbm, ⟨1, _⟩ => ⟨S960000, .i32⟩
  | .hbm, ⟨2, _⟩ => ⟨S960000, .i32⟩
  | .hbm, ⟨3, _⟩ => ⟨S960000, .f32⟩
  | .hbm, ⟨4, _⟩ => ⟨S960000, .i32⟩
  | .hbm, ⟨5, _⟩ => ⟨S960000, .i32⟩
  | .hbm, ⟨6, _⟩ => ⟨S960000, .f32⟩
  | .hbm, ⟨7, _⟩ => ⟨S128x20000, .f32⟩
  | .hbm, ⟨8, _⟩ => ⟨S128, .f32⟩
  | .hbm, ⟨9, _⟩ => ⟨S128x30000, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S1x64, .f32⟩
  | .hbm, ⟨14, _⟩ => ⟨S20000x64, .f32⟩
  | .hbm, ⟨15, _⟩ => ⟨S20000, .f32⟩
  | .hbm, ⟨16, _⟩ => ⟨S30000x64, .f32⟩
  | .hbm, ⟨17, _⟩ => ⟨S30000, .f32⟩
  | .hbm, ⟨18, _⟩ => ⟨S20000x128, .f32⟩
  | .hbm, ⟨19, _⟩ => ⟨S_, .i32⟩
  | .hbm, ⟨20, _⟩ => ⟨S960000, .i32⟩
  | .hbm, ⟨21, _⟩ => ⟨S960000, .i1⟩
  | .hbm, ⟨22, _⟩ => ⟨S_, .i32⟩
  | .hbm, ⟨23, _⟩ => ⟨S960000, .i32⟩
  | .hbm, ⟨24, _⟩ => ⟨S960000, .i32⟩
  | .hbm, ⟨25, _⟩ => ⟨S960000, .i32⟩
  | .hbm, ⟨26, _⟩ => ⟨S960000x1, .i32⟩
  | .hbm, ⟨27, _⟩ => ⟨S960000x128, .f32⟩
  | .hbm, ⟨28, _⟩ => ⟨S960000x1, .f32⟩
  | .hbm, ⟨29, _⟩ => ⟨S960000x128, .f32⟩
  | .hbm, ⟨30, _⟩ => ⟨S960000x128, .f32⟩
  | .hbm, ⟨31, _⟩ => ⟨S_, .f32⟩
  | .hbm, ⟨32, _⟩ => ⟨S30000x128, .f32⟩
  | .hbm, ⟨33, _⟩ => ⟨S960000x1, .i32⟩
  | .hbm, ⟨34, _⟩ => ⟨S30000x128, .f32⟩
  | .hbm, ⟨35, _⟩ => ⟨S1x128, .f32⟩
  | .hbm, ⟨36, _⟩ => ⟨S30000x128, .f32⟩
  | .hbm, ⟨37, _⟩ => ⟨S30000x128, .f32⟩
  | .hbm, ⟨38, _⟩ => ⟨S30000x64, .f32⟩
  | .hbm, ⟨39, _⟩ => ⟨S30000x64, .f32⟩
  | .hbm, ⟨40, _⟩ => ⟨S30000x128, .f32⟩
  | .hbm, ⟨41, _⟩ => ⟨S_, .i32⟩
  | .hbm, ⟨42, _⟩ => ⟨S960000, .i32⟩
  | .hbm, ⟨43, _⟩ => ⟨S960000, .i1⟩
  | .hbm, ⟨44, _⟩ => ⟨S_, .i32⟩
  | .hbm, ⟨45, _⟩ => ⟨S960000, .i32⟩
  | .hbm, ⟨46, _⟩ => ⟨S960000, .i32⟩
  | .hbm, ⟨47, _⟩ => ⟨S960000, .i32⟩
  | .hbm, ⟨48, _⟩ => ⟨S960000x1, .i32⟩
  | .hbm, ⟨49, _⟩ => ⟨S960000x128, .f32⟩
  | .hbm, ⟨50, _⟩ => ⟨S960000x1, .f32⟩
  | .hbm, ⟨51, _⟩ => ⟨S960000x128, .f32⟩
  | .hbm, ⟨52, _⟩ => ⟨S960000x128, .f32⟩
  | .hbm, ⟨53, _⟩ => ⟨S_, .f32⟩
  | .hbm, ⟨54, _⟩ => ⟨S30000x128, .f32⟩
  | .hbm, ⟨55, _⟩ => ⟨S960000x1, .i32⟩
  | .hbm, ⟨56, _⟩ => ⟨S30000x128, .f32⟩
  | .hbm, ⟨57, _⟩ => ⟨S1x128, .f32⟩
  | .hbm, ⟨58, _⟩ => ⟨S30000x128, .f32⟩
  | .hbm, ⟨59, _⟩ => ⟨S30000x128, .f32⟩
  | .hbm, ⟨60, _⟩ => ⟨S30000x64, .f32⟩
  | .hbm, ⟨61, _⟩ => ⟨S30000x64, .f32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x64, .f32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .i32⟩
  | .hbm, ⟨78, _⟩ => ⟨S4096x1, .i32⟩
  | .hbm, ⟨79, _⟩ => ⟨S4096x64, .f32⟩
  | .hbm, ⟨80, _⟩ => ⟨S_, .i32⟩
  | .hbm, ⟨81, _⟩ => ⟨S4096, .i32⟩
  | .hbm, ⟨82, _⟩ => ⟨S4096, .i1⟩
  | .hbm, ⟨83, _⟩ => ⟨S_, .i32⟩
  | .hbm, ⟨84, _⟩ => ⟨S4096, .i32⟩
  | .hbm, ⟨85, _⟩ => ⟨S4096, .i32⟩
  | .hbm, ⟨86, _⟩ => ⟨S4096, .i32⟩
  | .hbm, ⟨87, _⟩ => ⟨S4096x1, .i32⟩
  | .hbm, ⟨88, _⟩ => ⟨S4096x64, .f32⟩
  | .hbm, ⟨89, _⟩ => ⟨S_, .i32⟩
  | .hbm, ⟨90, _⟩ => ⟨S4096, .i32⟩
  | .hbm, ⟨91, _⟩ => ⟨S4096, .i1⟩
  | .hbm, ⟨92, _⟩ => ⟨S_, .i32⟩
  | .hbm, ⟨93, _⟩ => ⟨S4096, .i32⟩
  | .hbm, ⟨94, _⟩ => ⟨S4096, .i32⟩
  | .hbm, ⟨95, _⟩ => ⟨S4096, .i32⟩
  | .hbm, ⟨96, _⟩ => ⟨S4096x1, .i32⟩
  | .hbm, ⟨97, _⟩ => ⟨S4096x64, .f32⟩
  | .hbm, ⟨98, _⟩ => ⟨S64x64, .f32⟩
  | .hbm, ⟨99, _⟩ => ⟨S64x64, .f32⟩
  | .hbm, ⟨100, _⟩ => ⟨S64x64, .f32⟩
  | .hbm, ⟨101, _⟩ => ⟨S64x64, .f32⟩
  | .hbm, ⟨102, _⟩ => ⟨S1x64, .f32⟩
  | .hbm, ⟨103, _⟩ => ⟨S64x1, .f32⟩
  | .hbm, ⟨104, _⟩ => ⟨S4096x64, .f32⟩
  | .hbm, ⟨105, _⟩ => ⟨S4096x64, .f32⟩
  | .hbm, ⟨106, _⟩ => ⟨S4096x64, .f32⟩
  | .hbm, ⟨107, _⟩ => ⟨S1x20000, .f32⟩
  | .hbm, ⟨108, _⟩ => ⟨S4096x20000, .f32⟩
  | .hbm, ⟨109, _⟩ => ⟨S1x30000, .f32⟩
  | .hbm, ⟨110, _⟩ => ⟨S4096x30000, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x1, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S1024x64, .f32⟩
  | .local _ .vmem, ⟨13, _⟩ => ⟨S1024x64, .f32⟩
  | .local _ .vmem, ⟨14, _⟩ => ⟨S1x1024, .f32⟩
  | .local _ .vmem, ⟨15, _⟩ => ⟨S1x1024, .f32⟩
  | .local _ .vmem, ⟨16, _⟩ => ⟨S4096x1024, .f32⟩
  | .local _ .vmem, ⟨17, _⟩ => ⟨S4096x1024, .f32⟩
  | .local _ .vmem, ⟨18, _⟩ => ⟨S4096x64, .f32⟩
  | .local _ .vmem, ⟨19, _⟩ => ⟨S1024x64, .f32⟩
  | .local _ .vmem, ⟨20, _⟩ => ⟨S1024x64, .f32⟩
  | .local _ .vmem, ⟨21, _⟩ => ⟨S1x1024, .f32⟩
  | .local _ .vmem, ⟨22, _⟩ => ⟨S1x1024, .f32⟩
  | .local _ .vmem, ⟨23, _⟩ => ⟨S4096x1024, .f32⟩
  | .local _ .vmem, ⟨24, _⟩ => ⟨S4096x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_6 : Ref sig .tc := ⟨.hbm, 71, rfl⟩
abbrev main_v45 : Ref sig .tc := ⟨.hbm, 72, rfl⟩
abbrev main_v46 : Ref sig .tc := ⟨.hbm, 73, rfl⟩
abbrev main_c_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev main_v72_2 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S128x20000_S20000x128_1_0 : S128x20000.Transposes [1, 0] S20000x128
  bcast_S_S960000 : S_.BroadcastsInDim S960000 (![] : Fin 0 → Fin S960000.rank)
  bcast_S960000_S960000x1_0 : S960000.BroadcastsInDim S960000x1 (![0] : Fin 1 → Fin S960000x1.rank)
  bcast_S960000x1_S960000x128_0_1 : S960000x1.BroadcastsInDim S960000x128 (![0, 1] : Fin 2 → Fin S960000x128.rank)
  bcast_S_S30000x128 : S_.BroadcastsInDim S30000x128 (![] : Fin 0 → Fin S30000x128.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  slices_S30000x128_S30000x64_0_0 : S30000x128.Slices ![0, 0] S30000x64
  slices_S30000x128_S30000x64_0_64 : S30000x128.Slices ![0, 64] S30000x64
  transposes_S128x30000_S30000x128_1_0 : S128x30000.Transposes [1, 0] S30000x128
  bcast_S_S4096 : S_.BroadcastsInDim S4096 (![] : Fin 0 → Fin S4096.rank)
  bcast_S4096_S4096x1_0 : S4096.BroadcastsInDim S4096x1 (![0] : Fin 1 → Fin S4096x1.rank)
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  transposes_S1x64_S64x1_1_0 : S1x64.Transposes [1, 0] S64x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S4096x1_S4096x64 : S4096x1.Broadcasts S4096x64
  shapeCasts_S20000_S1x20000 : S20000.ShapeCasts S1x20000
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  inb_S4096x1024_S4096x1024_0_0 : ∀ a, (![0, 0] : Fin 2 → Nat) a + S4096x1024.size a ≤ S4096x1024.size a
  h_S4096x1024 : 0 < S4096x1024.numel
  shapeCasts_S30000_S1x30000 : S30000.ShapeCasts S1x30000
  gather_S20000x128_S960000x1_S960000x128_1_0_n_n_0_1_1128_wf : GatherDims.WF S20000x128 S960000x1 S960000x128 [1] [0] [] [0] [] 1 ![1, 128]
  scatter_S30000x128_S960000x1_S960000x128_1_0_0_1_wf : ScatterDims.WF S30000x128 S960000x1 S960000x128 [1] [0] [0] 1
  gather_S30000x128_S960000x1_S960000x128_1_0_n_n_0_1_1128_wf : GatherDims.WF S30000x128 S960000x1 S960000x128 [1] [0] [] [0] [] 1 ![1, 128]
  gather_S30000x64_S4096x1_S4096x64_1_0_n_n_0_1_164_wf : GatherDims.WF S30000x64 S4096x1 S4096x64 [1] [0] [] [0] [] 1 ![1, 64]
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  dot_S4096x64_S1024x64_S4096x1024_1_1_0_0_n_n_wf : DotDims.WF S4096x64 S1024x64 S4096x1024 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S4096x64.size a
  hwx1_0 : ∀ i : grid1.Coords, EltTy.bits .f32 = 32 ∨ (Rect.block (s := S4096x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x64.size a < S20000x64.size a
  hwx1_1 : ∀ i : grid1.Coords, EltTy.bits .f32 = 32 ∨ (Rect.unit (s := S20000x64) (fun a => cc1_transform_1 i a * S1024x64.size a) (fun a => (Pipeline.Clip.of (cc1_transform_1 i a) (S1024x64.size a) (S20000x64.size a)).extent (S1024x64.size a)) fun a => Pipeline.Clip.inb (Pipeline.Clip.ok_of (hstart1_1 i a))).WholeWords (EltTy.packing .f32)
  hwxs1_1 : ∀ i : grid1.Coords, EltTy.bits .f32 = 32 ∨ (Rect.unit (s := S1024x64) (fun _ => 0) (fun a => (Pipeline.Clip.of (cc1_transform_1 i a) (S1024x64.size a) (S20000x64.size a)).extent (S1024x64.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1024.size a < S1x20000.size a
  hwx1_2 : ∀ i : grid1.Coords, EltTy.bits .f32 = 32 ∨ (Rect.unit (s := S1x20000) (fun a => cc1_transform_2 i a * S1x1024.size a) (fun a => (Pipeline.Clip.of (cc1_transform_2 i a) (S1x1024.size a) (S1x20000.size a)).extent (S1x1024.size a)) fun a => Pipeline.Clip.inb (Pipeline.Clip.ok_of (hstart1_2 i a))).WholeWords (EltTy.packing .f32)
  hwxs1_2 : ∀ i : grid1.Coords, EltTy.bits .f32 = 32 ∨ (Rect.unit (s := S1x1024) (fun _ => 0) (fun a => (Pipeline.Clip.of (cc1_transform_2 i a) (S1x1024.size a) (S1x20000.size a)).extent (S1x1024.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x1024.size a < S4096x20000.size a
  hwx1_3 : ∀ i : grid1.Coords, EltTy.bits .f32 = 32 ∨ (Rect.unit (s := S4096x20000) (fun a => cc1_transform_3 i a * S4096x1024.size a) (fun a => (Pipeline.Clip.of (cc1_transform_3 i a) (S4096x1024.size a) (S4096x20000.size a)).extent (S4096x1024.size a)) fun a => Pipeline.Clip.inb (Pipeline.Clip.ok_of (hstart1_3 i a))).WholeWords (EltTy.packing .f32)
  hwxs1_3 : ∀ i : grid1.Coords, EltTy.bits .f32 = 32 ∨ (Rect.unit (s := S4096x1024) (fun _ => 0) (fun a => (Pipeline.Clip.of (cc1_transform_3 i a) (S4096x1024.size a) (S4096x20000.size a)).extent (S4096x1024.size a)) fun a => (Nat.zero_add _).trans_le (Pipeline.Clip.extent_le (Pipeline.Clip.ok_of (hstart1_3 i a)))).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S4096x64.size a
  hwx2_0 : ∀ i : grid2.Coords, EltTy.bits .f32 = 32 ∨ (Rect.block (s := S4096x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1024x64.size a < S30000x64.size a
  hwx2_1 : ∀ i : grid2.Coords, EltTy.bits .f32 = 32 ∨ (Rect.unit (s := S30000x64) (fun a => cc2_transform_1 i a * S1024x64.size a) (fun a => (Pipeline.Clip.of (cc2_transform_1 i a) (S1024x64.size a) (S30000x64.size a)).extent (S1024x64.size a)) fun a => Pipeline.Clip.inb (Pipeline.Clip.ok_of (hstart2_1 i a))).WholeWords (EltTy.packing .f32)
  hwxs2_1 : ∀ i : grid2.Coords, EltTy.bits .f32 = 32 ∨ (Rect.unit (s := S1024x64) (fun _ => 0) (fun a => (Pipeline.Clip.of (cc2_transform_1 i a) (S1024x64.size a) (S30000x64.size a)).extent (S1024x64.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x1024.size a < S1x30000.size a
  hwx2_2 : ∀ i : grid2.Coords, EltTy.bits .f32 = 32 ∨ (Rect.unit (s := S1x30000) (fun a => cc2_transform_2 i a * S1x1024.size a) (fun a => (Pipeline.Clip.of (cc2_transform_2 i a) (S1x1024.size a) (S1x30000.size a)).extent (S1x1024.size a)) fun a => Pipeline.Clip.inb (Pipeline.Clip.ok_of (hstart2_2 i a))).WholeWords (EltTy.packing .f32)
  hwxs2_2 : ∀ i : grid2.Coords, EltTy.bits .f32 = 32 ∨ (Rect.unit (s := S1x1024) (fun _ => 0) (fun a => (Pipeline.Clip.of (cc2_transform_2 i a) (S1x1024.size a) (S1x30000.size a)).extent (S1x1024.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S4096x1024.size a < S4096x30000.size a
  hwx2_3 : ∀ i : grid2.Coords, EltTy.bits .f32 = 32 ∨ (Rect.unit (s := S4096x30000) (fun a => cc2_transform_3 i a * S4096x1024.size a) (fun a => (Pipeline.Clip.of (cc2_transform_3 i a) (S4096x1024.size a) (S4096x30000.size a)).extent (S4096x1024.size a)) fun a => Pipeline.Clip.inb (Pipeline.Clip.ok_of (hstart2_3 i a))).WholeWords (EltTy.packing .f32)
  hwxs2_3 : ∀ i : grid2.Coords, EltTy.bits .f32 = 32 ∨ (Rect.unit (s := S4096x1024) (fun _ => 0) (fun a => (Pipeline.Clip.of (cc2_transform_3 i a) (S4096x1024.size a) (S4096x30000.size a)).extent (S4096x1024.size a)) fun a => (Nat.zero_add _).trans_le (Pipeline.Clip.extent_le (Pipeline.Clip.ok_of (hstart2_3 i a)))).WholeWords (EltTy.packing .f32)

variable [Facts₀]

def gather_S20000x128_S960000x1_S960000x128_1_0_n_n_0_1_1128 : GatherDims S20000x128 S960000x1 S960000x128 where
  offsetDims := [1]
  collapsedSliceDims := [0]
  operandBatchingDims := []
  startIndicesBatchingDims := []
  startIndexMap := [0]
  indexVectorDim := 1
  sliceSizes := ![1, 128]
  wf := gather_S20000x128_S960000x1_S960000x128_1_0_n_n_0_1_1128_wf
def scatter_S30000x128_S960000x1_S960000x128_1_0_0_1 : ScatterDims S30000x128 S960000x1 S960000x128 where
  updateWindowDims := [1]
  insertedWindowDims := [0]
  scatterDimsToOperandDims := [0]
  indexVectorDim := 1
  wf := scatter_S30000x128_S960000x1_S960000x128_1_0_0_1_wf
def gather_S30000x128_S960000x1_S960000x128_1_0_n_n_0_1_1128 : GatherDims S30000x128 S960000x1 S960000x128 where
  offsetDims := [1]
  collapsedSliceDims := [0]
  operandBatchingDims := []
  startIndicesBatchingDims := []
  startIndexMap := [0]
  indexVectorDim := 1
  sliceSizes := ![1, 128]
  wf := gather_S30000x128_S960000x1_S960000x128_1_0_n_n_0_1_1128_wf
def gather_S30000x64_S4096x1_S4096x64_1_0_n_n_0_1_164 : GatherDims S30000x64 S4096x1 S4096x64 where
  offsetDims := [1]
  collapsedSliceDims := [0]
  operandBatchingDims := []
  startIndicesBatchingDims := []
  startIndexMap := [0]
  indexVectorDim := 1
  sliceSizes := ![1, 64]
  wf := gather_S30000x64_S4096x1_S4096x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x64_S1024x64_S4096x1024_1_1_0_0_n_n : DotDims S4096x64 S1024x64 S4096x1024 where
  lhsContracting := [1]
  rhsContracting := [1]
  lhsNonContracting := [0]
  rhsNonContracting := [0]
  lhsBatch := []
  rhsBatch := []
  wf := dot_S4096x64_S1024x64_S4096x1024_1_1_0_0_n_n_wf

abbrev win0_0 : Pipeline.Window sig grid0 :=
  Pipeline.Window.whole (Memref.whole main_v44) false false (stage0_0 0) (sem0_0 0) (Memref.isWhole_whole _) (hstage0_0 0)

abbrev win0_1 : Pipeline.Window sig grid0 :=
  Pipeline.Window.whole (Memref.whole main_v51) false false (stage0_1 0) (sem0_1 0) (Memref.isWhole_whole _) (hstage0_1 0)

abbrev win0_2 : Pipeline.Window sig grid0 :=
  Pipeline.Window.whole (Memref.whole main_v58) false false (stage0_2 0) (sem0_2 0) (Memref.isWhole_whole _) (hstage0_2 0)

abbrev win0_3 : Pipeline.Window sig grid0 :=
  Pipeline.Window.whole (Memref.whole main_v65) false false (stage0_3 0) (sem0_3 0) (Memref.isWhole_whole _) (hstage0_3 0)

abbrev win0_4 : Pipeline.Window sig grid0 :=
  Pipeline.Window.whole (Memref.whole main_v67) false false (stage0_4 0) (sem0_4 0) (Memref.isWhole_whole _) (hstage0_4 0)

abbrev win0_5 : Pipeline.Window sig grid0 :=
  Pipeline.Window.whole (Memref.whole main_v69) false false (stage0_5 0) (sem0_5 0) (Memref.isWhole_whole _) (hstage0_5 0)

abbrev win0_6 : Pipeline.Window sig grid0 :=
  Pipeline.Window.whole (Memref.whole main_v70) false false (stage0_6 0) (sem0_6 0) (Memref.isWhole_whole _) (hstage0_6 0)

abbrev win0_7 : Pipeline.Window sig grid0 :=
  Pipeline.Window.whole (Memref.whole main_v71) false false (stage0_7 0) (sem0_7 0) (Memref.isWhole_whole _) (hstage0_7 0)

abbrev win0_8 : Pipeline.Window sig grid0 :=
  Pipeline.Window.whole (Memref.whole main_v72_0) true false (stage0_8 0) (sem0_8 0) (Memref.isWhole_whole _) (hstage0_8 0)

abbrev win0_9 : Pipeline.Window sig grid0 :=
  Pipeline.Window.whole (Memref.whole main_v72_1) true false (stage0_9 0) (sem0_9 0) (Memref.isWhole_whole _) (hstage0_9 0)

abbrev win0_10 : Pipeline.Window sig grid0 :=
  Pipeline.Window.whole (Memref.whole main_v72_2) true false (stage0_10 0) (sem0_10 0) (Memref.isWhole_whole _) (hstage0_10 0)

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v72_2) S4096x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg14) S1024x64.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v73) S1x1024.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v74) S4096x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72_1) S4096x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg16) S1024x64.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v75) S1x1024.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v76) S4096x1024.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096 : Shape := ⟨1, ![4096]⟩
abbrev S960000 : Shape := ⟨1, ![960000]⟩
abbrev S128x20000 : Shape := ⟨2, ![128, 20000]⟩
abbrev S128 : Shape := ⟨1, ![128]⟩
abbrev S128x30000 : Shape := ⟨2, ![128, 30000]⟩
abbrev S64x128 : Shape := ⟨2, ![64, 128]⟩
abbrev S64 : Shape := ⟨1, ![64]⟩
abbrev S1x64 : Shape := ⟨2, ![1, 64]⟩
abbrev S20000x64 : Shape := ⟨2, ![20000, 64]⟩
abbrev S20000 : Shape := ⟨1, ![20000]⟩
abbrev S30000x64 : Shape := ⟨2, ![30000, 64]⟩
abbrev S30000 : Shape := ⟨1, ![30000]⟩
abbrev S960000x1 : Shape := ⟨2, ![960000, 1]⟩
abbrev S20000x128 : Shape := ⟨2, ![20000, 128]⟩
abbrev S_ : Shape := ⟨0, ![]⟩
abbrev S960000x128 : Shape := ⟨2, ![960000, 128]⟩
abbrev S30000x128 : Shape := ⟨2, ![30000, 128]⟩
abbrev S1x128 : Shape := ⟨2, ![1, 128]⟩
abbrev S4096x1 : Shape := ⟨2, ![4096, 1]⟩
abbrev S4096x64 : Shape := ⟨2, ![4096, 64]⟩
abbrev S4096x128 : Shape := ⟨2, ![4096, 128]⟩
abbrev S128x64 : Shape := ⟨2, ![128, 64]⟩
abbrev S64x1 : Shape := ⟨2, ![64, 1]⟩
abbrev S64x20000 : Shape := ⟨2, ![64, 20000]⟩
abbrev S4096x20000 : Shape := ⟨2, ![4096, 20000]⟩
abbrev S1x20000 : Shape := ⟨2, ![1, 20000]⟩
abbrev S64x30000 : Shape := ⟨2, ![64, 30000]⟩
abbrev S4096x30000 : Shape := ⟨2, ![4096, 30000]⟩
abbrev S1x30000 : Shape := ⟨2, ![1, 30000]⟩

abbrev nBuf : Space → Nat
  | .hbm => 135
  | .vmem => 0
  | .smem => 0
  | _ => 0

abbrev hbmTy0_0 (i : Nat) : BufTy := match i % 128 with
  | 0 => ⟨S4096, .i32⟩
  | 1 => ⟨S960000, .i32⟩
  | 2 => ⟨S960000, .i32⟩
  | 3 => ⟨S960000, .f32⟩
  | 4 => ⟨S960000, .i32⟩
  | 5 => ⟨S960000, .i32⟩
  | 6 => ⟨S960000, .f32⟩
  | 7 => ⟨S128x20000, .f32⟩
  | 8 => ⟨S128, .f32⟩
  | 9 => ⟨S128x30000, .f32⟩
  | 10 => ⟨S128, .f32⟩
  | 11 => ⟨S64x128, .f32⟩
  | 12 => ⟨S64, .f32⟩
  | 13 => ⟨S1x64, .f32⟩
  | 14 => ⟨S20000x64, .f32⟩
  | 15 => ⟨S20000, .f32⟩
  | 16 => ⟨S30000x64, .f32⟩
  | 17 => ⟨S30000, .f32⟩
  | 18 => ⟨S960000x1, .f32⟩
  | 19 => ⟨S20000x128, .f32⟩
  | 20 => ⟨S_, .i32⟩
  | 21 => ⟨S960000, .i32⟩
  | 22 => ⟨S960000, .i1⟩
  | 23 => ⟨S_, .i32⟩
  | 24 => ⟨S960000, .i32⟩
  | 25 => ⟨S960000, .i32⟩
  | 26 => ⟨S960000, .i32⟩
  | 27 => ⟨S960000x1, .i32⟩
  | 28 => ⟨S960000x128, .f32⟩
  | 29 => ⟨S960000x128, .f32⟩
  | 30 => ⟨S960000x128, .f32⟩
  | 31 => ⟨S_, .f32⟩
  | 32 => ⟨S30000x128, .f32⟩
  | 33 => ⟨S960000x1, .i32⟩
  | 34 => ⟨S30000x128, .f32⟩
  | 35 => ⟨S1x128, .f32⟩
  | 36 => ⟨S30000x128, .f32⟩
  | 37 => ⟨S30000x128, .f32⟩
  | 38 => ⟨S30000x64, .f32⟩
  | 39 => ⟨S30000x64, .f32⟩
  | 40 => ⟨S960000x1, .f32⟩
  | 41 => ⟨S30000x128, .f32⟩
  | 42 => ⟨S_, .i32⟩
  | 43 => ⟨S960000, .i32⟩
  | 44 => ⟨S960000, .i1⟩
  | 45 => ⟨S_, .i32⟩
  | 46 => ⟨S960000, .i32⟩
  | 47 => ⟨S960000, .i32⟩
  | 48 => ⟨S960000, .i32⟩
  | 49 => ⟨S960000x1, .i32⟩
  | 50 => ⟨S960000x128, .f32⟩
  | 51 => ⟨S960000x128, .f32⟩
  | 52 => ⟨S960000x128, .f32⟩
  | 53 => ⟨S_, .f32⟩
  | 54 => ⟨S30000x128, .f32⟩
  | 55 => ⟨S960000x1, .i32⟩
  | 56 => ⟨S30000x128, .f32⟩
  | 57 => ⟨S1x128, .f32⟩
  | 58 => ⟨S30000x128, .f32⟩
  | 59 => ⟨S30000x128, .f32⟩
  | 60 => ⟨S30000x64, .f32⟩
  | 61 => ⟨S30000x64, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x64, .f32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x64, .f32⟩
  | 80 => ⟨S_, .f32⟩
  | 81 => ⟨S4096x64, .f32⟩
  | 82 => ⟨S4096x64, .f32⟩
  | 83 => ⟨S4096x64, .f32⟩
  | 84 => ⟨S4096x64, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x64, .f32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096x64, .f32⟩
  | 103 => ⟨S_, .f32⟩
  | 104 => ⟨S4096x64, .f32⟩
  | 105 => ⟨S4096x64, .f32⟩
  | 106 => ⟨S4096x64, .f32⟩
  | 107 => ⟨S4096x64, .f32⟩
  | 108 => ⟨S4096x128, .f32⟩
  | 109 => ⟨S128x64, .f32⟩
  | 110 => ⟨S4096x64, .f32⟩
  | 111 => ⟨S1x64, .f32⟩
  | 112 => ⟨S4096x64, .f32⟩
  | 113 => ⟨S4096x64, .f32⟩
  | 114 => ⟨S4096x64, .f32⟩
  | 115 => ⟨S64x1, .f32⟩
  | 116 => ⟨S4096x1, .f32⟩
  | 117 => ⟨S4096x64, .f32⟩
  | 118 => ⟨S4096x64, .f32⟩
  | 119 => ⟨S_, .f32⟩
  | 120 => ⟨S4096x1, .f32⟩
  | 121 => ⟨S4096x1, .f32⟩
  | 122 => ⟨S4096x64, .f32⟩
  | 123 => ⟨S4096x64, .f32⟩
  | 124 => ⟨S4096x64, .f32⟩
  | 125 => ⟨S64x20000, .f32⟩
  | 126 => ⟨S4096x20000, .f32⟩
  | 127 => ⟨S1x20000, .f32⟩
  | _ => ⟨S4096, .i32⟩

abbrev hbmTy0_1 (i : Nat) : BufTy := match i % 128 with
  | 0 => ⟨S4096x20000, .f32⟩
  | 1 => ⟨S4096x20000, .f32⟩
  | 2 => ⟨S64x30000, .f32⟩
  | 3 => ⟨S4096x30000, .f32⟩
  | 4 => ⟨S1x30000, .f32⟩
  | 5 => ⟨S4096x30000, .f32⟩
  | 6 => ⟨S4096x30000, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_6 : Ref sig .tc := ⟨.hbm, 71, rfl⟩
abbrev main_v45 : Ref sig .tc := ⟨.hbm, 72, rfl⟩
abbrev main_v46 : Ref sig .tc := ⟨.hbm, 73, rfl⟩
abbrev main_c_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_9 : Ref sig .tc := ⟨.hbm, 85, rfl⟩
abbrev main_v56 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]

class Facts₀ : Prop where
  bcast_S960000_S960000x1_0 : S960000.BroadcastsInDim S960000x1 (![0] : Fin 1 → Fin S960000x1.rank)
  transposes_S128x20000_S20000x128_1_0 : S128x20000.Transposes [1, 0] S20000x128
  bcast_S_S960000 : S_.BroadcastsInDim S960000 (![] : Fin 0 → Fin S960000.rank)
  bcast_S960000x1_S960000x128_0_1 : S960000x1.BroadcastsInDim S960000x128 (![0, 1] : Fin 2 → Fin S960000x128.rank)
  bcast_S_S30000x128 : S_.BroadcastsInDim S30000x128 (![] : Fin 0 → Fin S30000x128.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  slices_S30000x128_S30000x64_0_0 : S30000x128.Slices ![0, 0] S30000x64
  slices_S30000x128_S30000x64_0_64 : S30000x128.Slices ![0, 64] S30000x64
  transposes_S128x30000_S30000x128_1_0 : S128x30000.Transposes [1, 0] S30000x128
  bcast_S_S4096 : S_.BroadcastsInDim S4096 (![] : Fin 0 → Fin S4096.rank)
  bcast_S4096_S4096x1_0 : S4096.BroadcastsInDim S4096x1 (![0] : Fin 1 → Fin S4096x1.rank)
  bcast_S_S4096x64 : S_.BroadcastsInDim S4096x64 (![] : Fin 0 → Fin S4096x64.rank)
  concatenates_S4096x64_S4096x64_S4096x128_d1 : Shape.Concatenates [S4096x64, S4096x64] S4096x128 1
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S1x64_S64x1_1_0 : S1x64.Transposes [1, 0] S64x1
  bcast_S4096x1_S4096x64_0_1 : S4096x1.BroadcastsInDim S4096x64 (![0, 1] : Fin 2 → Fin S4096x64.rank)
  bcast_S_S4096x1 : S_.BroadcastsInDim S4096x1 (![] : Fin 0 → Fin S4096x1.rank)
  transposes_S20000x64_S64x20000_1_0 : S20000x64.Transposes [1, 0] S64x20000
  bcast_S20000_S1x20000_1 : S20000.BroadcastsInDim S1x20000 (![1] : Fin 1 → Fin S1x20000.rank)
  bcast_S1x20000_S4096x20000_0_1 : S1x20000.BroadcastsInDim S4096x20000 (![0, 1] : Fin 2 → Fin S4096x20000.rank)
  transposes_S30000x64_S64x30000_1_0 : S30000x64.Transposes [1, 0] S64x30000
  bcast_S30000_S1x30000_1 : S30000.BroadcastsInDim S1x30000 (![1] : Fin 1 → Fin S1x30000.rank)
  bcast_S1x30000_S4096x30000_0_1 : S1x30000.BroadcastsInDim S4096x30000 (![0, 1] : Fin 2 → Fin S4096x30000.rank)
  gather_S20000x128_S960000x1_S960000x128_1_0_n_n_0_1_1128_wf : GatherDims.WF S20000x128 S960000x1 S960000x128 [1] [0] [] [0] [] 1 ![1, 128]
  scatter_S30000x128_S960000x1_S960000x128_1_0_0_1_wf : ScatterDims.WF S30000x128 S960000x1 S960000x128 [1] [0] [0] 1
  gather_S30000x128_S960000x1_S960000x128_1_0_n_n_0_1_1128_wf : GatherDims.WF S30000x128 S960000x1 S960000x128 [1] [0] [] [0] [] 1 ![1, 128]
  gather_S30000x64_S4096x1_S4096x64_1_0_n_n_0_1_164_wf : GatherDims.WF S30000x64 S4096x1 S4096x64 [1] [0] [] [0] [] 1 ![1, 64]
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  dot_S4096x64_S64x20000_S4096x20000_1_0_0_1_n_n_wf : DotDims.WF S4096x64 S64x20000 S4096x20000 [1] [0] [0] [1] [] []
  dot_S4096x64_S64x30000_S4096x30000_1_0_0_1_n_n_wf : DotDims.WF S4096x64 S64x30000 S4096x30000 [1] [0] [0] [1] [] []

variable [Facts₀]

def gather_S20000x128_S960000x1_S960000x128_1_0_n_n_0_1_1128 : GatherDims S20000x128 S960000x1 S960000x128 where
  offsetDims := [1]
  collapsedSliceDims := [0]
  operandBatchingDims := []
  startIndicesBatchingDims := []
  startIndexMap := [0]
  indexVectorDim := 1
  sliceSizes := ![1, 128]
  wf := gather_S20000x128_S960000x1_S960000x128_1_0_n_n_0_1_1128_wf
def scatter_S30000x128_S960000x1_S960000x128_1_0_0_1 : ScatterDims S30000x128 S960000x1 S960000x128 where
  updateWindowDims := [1]
  insertedWindowDims := [0]
  scatterDimsToOperandDims := [0]
  indexVectorDim := 1
  wf := scatter_S30000x128_S960000x1_S960000x128_1_0_0_1_wf
def gather_S30000x128_S960000x1_S960000x128_1_0_n_n_0_1_1128 : GatherDims S30000x128 S960000x1 S960000x128 where
  offsetDims := [1]
  collapsedSliceDims := [0]
  operandBatchingDims := []
  startIndicesBatchingDims := []
  startIndexMap := [0]
  indexVectorDim := 1
  sliceSizes := ![1, 128]
  wf := gather_S30000x128_S960000x1_S960000x128_1_0_n_n_0_1_1128_wf
def gather_S30000x64_S4096x1_S4096x64_1_0_n_n_0_1_164 : GatherDims S30000x64 S4096x1 S4096x64 where
  offsetDims := [1]
  collapsedSliceDims := [0]
  operandBatchingDims := []
  startIndicesBatchingDims := []
  startIndexMap := [0]
  indexVectorDim := 1
  sliceSizes := ![1, 64]
  wf := gather_S30000x64_S4096x1_S4096x64_1_0_n_n_0_1_164_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x64_S64x20000_S4096x20000_1_0_0_1_n_n : DotDims S4096x64 S64x20000 S4096x20000 where
  lhsContracting := [1]
  rhsContracting := [0]
  lhsNonContracting := [0]
  rhsNonContracting := [1]
  lhsBatch := []
  rhsBatch := []
  wf := dot_S4096x64_S64x20000_S4096x20000_1_0_0_1_n_n_wf
def dot_S4096x64_S64x30000_S4096x30000_1_0_0_1_n_n : DotDims S4096x64 S64x30000 S4096x30000 where
  lhsContracting := [1]
  rhsContracting := [0]
  lhsNonContracting := [0]
  rhsNonContracting := [1]
  lhsBatch := []
  rhsBatch := []
  wf := dot_S4096x64_S64x30000_S4096x30000_1_0_0_1_n_n_wf

class Facts : Prop extends Facts₀ where

variable [Facts]
-- ==== Proof.K.Region0.lean ====
/- Region 0 of @main (custom_call 0, one point, every window the whole of its array): the blocks, what the body leaves in the three output buffers, the body's triple, the pipeline's proof data, the body obligation, and the three output arrays after the run. -/
import proofs.«151948_j17755394802209_2_alg».proof.Proof.Gen.Kernel.Launch
import proofs.«151948_j17755394802209_2_alg».proof.Proof.Gen.Kernel.Skeleton
import proofs.«151948_j17755394802209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: the windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rA : Rect S4096x64 := Rect.unit (s := S4096x64) ![0, 0] S4096x64.size inb_S4096x64_S4096x64_0_0
abbrev rB : Rect S64x64 := Rect.unit (s := S64x64) ![0, 0] S64x64.size inb_S64x64_S64x64_0_0
abbrev rC : Rect S1x64 := Rect.unit (s := S1x64) ![0, 0] S1x64.size inb_S1x64_S1x64_0_0
abbrev rD : Rect S64x1 := Rect.unit (s := S64x1) ![0, 0] S64x1.size inb_S64x1_S64x1_0_0

/-! ## What the body leaves in each output window's buffer -/

/-- Window 8's buffer after the body: one store of the first payload over the whole buffer. -/
def out0_8 (x0 x1 : Vec F S4096x64 .f32) : Vec F S4096x64 .f32 :=
  View.canon [⟨rA, k0_pay1 (View.ld x0 rA) (View.ld x1 rA)⟩]
/-- Window 9's buffer after the body: one store of the second payload over the whole buffer. -/
def out0_9 (x2 x3 : Vec F S4096x64 .f32) : Vec F S4096x64 .f32 :=
  View.canon [⟨rA, k0_pay2 (View.ld x2 rA) (View.ld x3 rA)⟩]
/-- Window 10's buffer after the body: one store of the third payload over the whole buffer. -/
def out0_10 (x0 x1 x2 x3 : Vec F S4096x64 .f32) (x4 x5 : Vec F S64x64 .f32) (x6 : Vec F S1x64 .f32) (x7 : Vec F S64x1 .f32) : Vec F S4096x64 .f32 :=
  View.canon [⟨rA, k0_pay3 (View.ld x0 rA) (View.ld x1 rA) (View.ld x2 rA) (View.ld x3 rA) (View.ld x4 rB) (View.ld x5 rB) (View.ld x6 rC) (View.ld x7 rD)⟩]

/-- The one store covers the buffer. -/
theorem coverA (p0 : Vec F S4096x64 .f32) (y : S4096x64.Idx) :
    ∃ pc ∈ ([⟨rA, p0⟩] : List (View.Piece (Elt F) S4096x64 .f32)), y ∈ pc.1.set :=
  ⟨_, List.mem_singleton_self _, View.mem_set_unit_zero (by funext a; fin_cases a <;> rfl) inb_S4096x64_S4096x64_0_0 y⟩

/-! ## The body's triple -/

set_option maxHeartbeats 4000000 in
/-- The kernel body on whole staging memrefs, the inputs' at read contents and the outputs' at anything, runs to the
    continuation holding the inputs' as they were and each output's at `out0_W` of the inputs'. -/
theorem sound_kernel0 (c : Dev nD) (E : Set ℕ)
    (arg0 : Memref sig .tc .vmem S4096x64 .f32) (harg0 : arg0.IsWhole) (arg1 : Memref sig .tc .vmem S4096x64 .f32) (harg1 : arg1.IsWhole)
    (arg2 : Memref sig .tc .vmem S4096x64 .f32) (harg2 : arg2.IsWhole) (arg3 : Memref sig .tc .vmem S4096x64 .f32) (harg3 : arg3.IsWhole)
    (arg4 : Memref sig .tc .vmem S64x64 .f32) (harg4 : arg4.IsWhole) (arg5 : Memref sig .tc .vmem S64x64 .f32) (harg5 : arg5.IsWhole)
    (arg6 : Memref sig .tc .vmem S1x64 .f32) (harg6 : arg6.IsWhole) (arg7 : Memref sig .tc .vmem S64x1 .f32) (harg7 : arg7.IsWhole)
    (arg8 : Memref sig .tc .vmem S4096x64 .f32) (harg8 : arg8.IsWhole) (arg9 : Memref sig .tc .vmem S4096x64 .f32) (harg9 : arg9.IsWhole)
    (arg10 : Memref sig .tc .vmem S4096x64 .f32) (harg10 : arg10.IsWhole)
    (x0 x1 x2 x3 : Vec F S4096x64 .f32) (x4 x5 : Vec F S64x64 .f32) (x6 : Vec F S1x64 .f32) (x7 : Vec F S64x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out0_8 x0 x1) ∗ owns (c : Thread nD τ) arg9 fullShare (out0_9 x2 x3)
            ∗ owns (c : Thread nD τ) arg10 fullShare (out0_10 x0 x1 x2 x3 x4 x5 x6 x7)) -∗ K ⟨⟩))
      ⊢ wp frame (wpE (defs₀ (F := F)) Variants.none c none) E (cc0__attn_kernel arg0 harg0 arg1 harg1 arg2 harg2 arg3 harg3 arg4 harg4 arg5 harg5 arg6 harg6 arg7 harg7 arg8 harg8 arg9 harg9 arg10 harg10) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  isplitl [H9]
  · iexists _; isplitr
    swap; · iexact H9
    ipureintro
    exact View.read_writes_eq_canon _ _ _ (coverA _)
  iexists _; isplitr
  swap; · iexact H10
  ipureintro
  exact View.read_writes_eq_canon _ _ _ (coverA _)

/-! ## The pipeline's proof data -/

/-- The proof data of pipeline 0 on core `c`: the arrays as the region finds them (`V`); after the body each input's
    buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t)
    | ⟨9, _⟩ => out0_9 (iblk0 V c 2 t) (iblk0 V c 3 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) := by dsimp only [dat0]
theorem after0_9 (c : Dev nD) (t : Fin cfg0.N) : (dat0 V c).after 9 t = out0_9 (iblk0 V c 2 t) (iblk0 V c 3 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output arrays after the run

The region has one point, and every window's block there is the whole of its array at block index zero: reading an
array through the block reads the array, and the one write-back writes the whole array. -/

theorem hz0 : (![0, 0] : Fin 2 → Nat) = fun _ => 0 := funext fun a => by fin_cases a <;> rfl

/-- Reading an array through window 0's block reads the array. -/
theorem read_blk0_0 (t : Fin cfg0.N) (X : S4096x64.Idx → Elt F .f32) : ((cfg0.win 0).blk t).view.read (Elt F) X = X := by
  funext j
  show X (((cfg0.win 0).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 1's block reads the array. -/
theorem read_blk0_1 (t : Fin cfg0.N) (X : S4096x64.Idx → Elt F .f32) : ((cfg0.win 1).blk t).view.read (Elt F) X = X := by
  funext j
  show X (((cfg0.win 1).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 2's block reads the array. -/
theorem read_blk0_2 (t : Fin cfg0.N) (X : S4096x64.Idx → Elt F .f32) : ((cfg0.win 2).blk t).view.read (Elt F) X = X := by
  funext j
  show X (((cfg0.win 2).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 3's block reads the array. -/
theorem read_blk0_3 (t : Fin cfg0.N) (X : S4096x64.Idx → Elt F .f32) : ((cfg0.win 3).blk t).view.read (Elt F) X = X := by
  funext j
  show X (((cfg0.win 3).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 4's block reads the array. -/
theorem read_blk0_4 (t : Fin cfg0.N) (X : S64x64.Idx → Elt F .f32) : ((cfg0.win 4).blk t).view.read (Elt F) X = X := by
  funext j
  show X (((cfg0.win 4).blk t).view.emb j) = X j
  refine congrArg X ?_
  funext a; apply Fin.ext
  match a with
  | ⟨0, _⟩ => show 0 * 64 + 1 * (j 0).val = (j 0).val; omega
  | ⟨1, _⟩ => show 0 * 64 + 1 * (j 1).val = (j 1).val; omega

/-- Reading an array through window 5's block reads the array. -/
theorem read_blk0_5 (t : Fin cfg0.N) (X : S64x64.Idx → Elt F .f32) : ((cfg0.win 5).blk t).view.read (Elt F) X = X := by
  funext j
  show X (((cfg0.win 5).blk t).view.emb j) = X j
  refine congrArg X ?_
  funext a; apply Fin.ext
  match a with
  | ⟨0, _⟩ => show 0 * 64 + 1 * (j 0).val = (j 0).val; omega
  | ⟨1, _⟩ => show 0 * 64 + 1 * (j 1).val = (j 1).val; omega

/-- Reading an array through window 6's block reads the array. -/
theorem read_blk0_6 (t : Fin cfg0.N) (X : S1x64.Idx → Elt F .f32) : ((cfg0.win 6).blk t).view.read (Elt F) X = X := by
  funext j
  show X (((cfg0.win 6).blk t).view.emb j) = X j
  refine congrArg X ?_
  funext a; apply Fin.ext
  match a with
  | ⟨0, _⟩ => show 0 * 1 + 1 * (j 0).val = (j 0).val; omega
  | ⟨1, _⟩ => show 0 * 64 + 1 * (j 1).val = (j 1).val; omega

/-- Reading an array through window 7's block reads the array. -/
theorem read_blk0_7 (t : Fin cfg0.N) (X : S64x1.Idx → Elt F .f32) : ((cfg0.win 7).blk t).view.read (Elt F) X = X := by
  funext j
  show X (((cfg0.win 7).blk t).view.emb j) = X j
  refine congrArg X ?_
  funext a; apply Fin.ext
  match a with
  | ⟨0, _⟩ => show 0 * 64 + 1 * (j 0).val = (j 0).val; omega
  | ⟨1, _⟩ => show 0 * 1 + 1 * (j 1).val = (j 1).val; omega

/-- Reading an array through window 8's block reads the array. -/
theorem read_blk0_8 (t : Fin cfg0.N) (X : S4096x64.Idx → Elt F .f32) : ((cfg0.win 8).blk t).view.read (Elt F) X = X := by
  funext j
  show X (((cfg0.win 8).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 9's block reads the array. -/
theorem read_blk0_9 (t : Fin cfg0.N) (X : S4096x64.Idx → Elt F .f32) : ((cfg0.win 9).blk t).view.read (Elt F) X = X := by
  funext j
  show X (((cfg0.win 9).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 10's block reads the array. -/
theorem read_blk0_10 (t : Fin cfg0.N) (X : S4096x64.Idx → Elt F .f32) : ((cfg0.win 10).blk t).view.read (Elt F) X = X := by
  funext j
  show X (((cfg0.win 10).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Input window 0's block is its array as the region finds it. -/
theorem iblk0_0 (c : Dev nD) (t : Fin cfg0.N) : iblk0 V c 0 t = V c (Pipeline.arrRef spec0 0) := read_blk0_0 t _
/-- Input window 1's block is its array as the region finds it. -/
theorem iblk0_1 (c : Dev nD) (t : Fin cfg0.N) : iblk0 V c 1 t = V c (Pipeline.arrRef spec0 1) := read_blk0_1 t _
/-- Input window 2's block is its array as the region finds it. -/
theorem iblk0_2 (c : Dev nD) (t : Fin cfg0.N) : iblk0 V c 2 t = V c (Pipeline.arrRef spec0 2) := read_blk0_2 t _
/-- Input window 3's block is its array as the region finds it. -/
theorem iblk0_3 (c : Dev nD) (t : Fin cfg0.N) : iblk0 V c 3 t = V c (Pipeline.arrRef spec0 3) := read_blk0_3 t _
/-- Input window 4's block is its array as the region finds it. -/
theorem iblk0_4 (c : Dev nD) (t : Fin cfg0.N) : iblk0 V c 4 t = V c (Pipeline.arrRef spec0 4) := read_blk0_4 t _
/-- Input window 5's block is its array as the region finds it. -/
theorem iblk0_5 (c : Dev nD) (t : Fin cfg0.N) : iblk0 V c 5 t = V c (Pipeline.arrRef spec0 5) := read_blk0_5 t _
/-- Input window 6's block is its array as the region finds it. -/
theorem iblk0_6 (c : Dev nD) (t : Fin cfg0.N) : iblk0 V c 6 t = V c (Pipeline.arrRef spec0 6) := read_blk0_6 t _
/-- Input window 7's block is its array as the region finds it. -/
theorem iblk0_7 (c : Dev nD) (t : Fin cfg0.N) : iblk0 V c 7 t = V c (Pipeline.arrRef spec0 7) := read_blk0_7 t _

/-- One store of a payload over the whole buffer leaves the payload, and a load of the whole buffer reads it. -/
theorem out0_8_eq (x0 x1 : Vec F S4096x64 .f32) : out0_8 x0 x1 = k0_pay1 x0 x1 := by
  unfold out0_8
  rw [View.canon_unit_zero hz0]
  simp only [View.ld_unit_zero (S := S4096x64) hz0]
theorem out0_9_eq (x2 x3 : Vec F S4096x64 .f32) : out0_9 x2 x3 = k0_pay2 x2 x3 := by
  unfold out0_9
  rw [View.canon_unit_zero hz0]
  simp only [View.ld_unit_zero (S := S4096x64) hz0]
theorem out0_10_eq (x0 x1 x2 x3 : Vec F S4096x64 .f32) (x4 x5 : Vec F S64x64 .f32) (x6 : Vec F S1x64 .f32) (x7 : Vec F S64x1 .f32) :
    out0_10 x0 x1 x2 x3 x4 x5 x6 x7 = k0_pay3 x0 x1 x2 x3 x4 x5 x6 x7 := by
  unfold out0_10
  rw [View.canon_unit_zero hz0]
  simp only [View.ld_unit_zero (S := S4096x64) hz0, View.ld_unit_zero (S := S64x64) hz0, View.ld_unit_zero (S := S1x64) hz0, View.ld_unit_zero (S := S64x1) hz0]

/-- The write-back moves the whole staging buffer. -/
theorem cut0_8 (t : Fin cfg0.N) (X : S4096x64.Idx → Elt F .f32) : (cfg0.win 8).cut (cfg0.grid.coords t) X = X := rfl

/-- Every index of window 8's array is in its block. -/
theorem mem_blk0_8 (t : Fin cfg0.N) (i : S4096x64.Idx) : i ∈ ((cfg0.win 8).blk t).view.set := by
  show i ∈ ((View.whole main_v72_0).slice (win0_8.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 64 ≤ (i 1).val ∧ (i 1).val < 0 * 64 + 64; have h : (i 1).val < 64 := (i 1).isLt; omega

/-- The write-back moves the whole staging buffer. -/
theorem cut0_9 (t : Fin cfg0.N) (X : S4096x64.Idx → Elt F .f32) : (cfg0.win 9).cut (cfg0.grid.coords t) X = X := rfl

/-- Every index of window 9's array is in its block. -/
theorem mem_blk0_9 (t : Fin cfg0.N) (i : S4096x64.Idx) : i ∈ ((cfg0.win 9).blk t).view.set := by
  show i ∈ ((View.whole main_v72_1).slice (win0_9.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 64 ≤ (i 1).val ∧ (i 1).val < 0 * 64 + 64; have h : (i 1).val < 64 := (i 1).isLt; omega

/-- The write-back moves the whole staging buffer. -/
theorem cut0_10 (t : Fin cfg0.N) (X : S4096x64.Idx → Elt F .f32) : (cfg0.win 10).cut (cfg0.grid.coords t) X = X := rfl

/-- Every index of window 10's array is in its block. -/
theorem mem_blk0_10 (t : Fin cfg0.N) (i : S4096x64.Idx) : i ∈ ((cfg0.win 10).blk t).view.set := by
  show i ∈ ((View.whole main_v72_2).slice (win0_10.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 64 ≤ (i 1).val ∧ (i 1).val < 0 * 64 + 64; have h : (i 1).val < 64 := (i 1).isLt; omega

/-- What the point writes back to window 8's array is the payload of the input arrays, read through the block. -/
theorem flushed0_8 (c : Dev nD) (t : Fin cfg0.N) :
    (dat0 V c).flushed 8 t = ((cfg0.win 8).blk t).view.read (Elt F) (k0_pay1 (V c (Pipeline.arrRef spec0 0)) (V c (Pipeline.arrRef spec0 1))) :=
  calc (dat0 V c).flushed 8 t = (dat0 V c).after 8 t := cut0_8 t _
    _ = out0_8 (iblk0 V c 0 t) (iblk0 V c 1 t) := after0_8 V c t
    _ = out0_8 (V c (Pipeline.arrRef spec0 0)) (V c (Pipeline.arrRef spec0 1)) := by rw [iblk0_0, iblk0_1]
    _ = k0_pay1 (V c (Pipeline.arrRef spec0 0)) (V c (Pipeline.arrRef spec0 1)) := out0_8_eq ..
    _ = _ := (read_blk0_8 t _).symm

/-- Window 8's array after the run: the payload of the input arrays as the region finds them. -/
theorem arrAt0_8 (c : Dev nD) : (dat0 V c).arrAt 8 cfg0.N = k0_pay1 (V c (Pipeline.arrRef spec0 0)) (V c (Pipeline.arrRef spec0 1)) :=
  (dat0 V c).arrAt_eq_of_cover 8 _ (fun t _ => flushed0_8 V c t) fun i => ⟨t0_0, flush0_8 _, mem_blk0_8 _ i⟩

/-- What the point writes back to window 9's array is the payload of the input arrays, read through the block. -/
theorem flushed0_9 (c : Dev nD) (t : Fin cfg0.N) :
    (dat0 V c).flushed 9 t = ((cfg0.win 9).blk t).view.read (Elt F) (k0_pay2 (V c (Pipeline.arrRef spec0 2)) (V c (Pipeline.arrRef spec0 3))) :=
  calc (dat0 V c).flushed 9 t = (dat0 V c).after 9 t := cut0_9 t _
    _ = out0_9 (iblk0 V c 2 t) (iblk0 V c 3 t) := after0_9 V c t
    _ = out0_9 (V c (Pipeline.arrRef spec0 2)) (V c (Pipeline.arrRef spec0 3)) := by rw [iblk0_2, iblk0_3]
    _ = k0_pay2 (V c (Pipeline.arrRef spec0 2)) (V c (Pipeline.arrRef spec0 3)) := out0_9_eq ..
    _ = _ := (read_blk0_9 t _).symm

/-- Window 9's array after the run: the payload of the input arrays as the region finds them. -/
theorem arrAt0_9 (c : Dev nD) : (dat0 V c).arrAt 9 cfg0.N = k0_pay2 (V c (Pipeline.arrRef spec0 2)) (V c (Pipeline.arrRef spec0 3)) :=
  (dat0 V c).arrAt_eq_of_cover 9 _ (fun t _ => flushed0_9 V c t) fun i => ⟨t0_0, flush0_9 _, mem_blk0_9 _ i⟩

set_option maxHeartbeats 4000000 in
/-- What the point writes back to window 10's array, for any function `P` the buffer's contents after the body are of
    the input blocks: `P` of the input arrays, read through the block. -/
theorem flushed0_10_of (P : Vec F S4096x64 .f32 → Vec F S4096x64 .f32 → Vec F S4096x64 .f32 → Vec F S4096x64 .f32 → Vec F S64x64 .f32 → Vec F S64x64 .f32 → Vec F S1x64 .f32 → Vec F S64x1 .f32 → Vec F S4096x64 .f32)
    (hP : ∀ x0 x1 x2 x3 x4 x5 x6 x7, out0_10 x0 x1 x2 x3 x4 x5 x6 x7 = P x0 x1 x2 x3 x4 x5 x6 x7) (c : Dev nD) (t : Fin cfg0.N) :
    (dat0 V c).flushed 10 t = ((cfg0.win 10).blk t).view.read (Elt F) (P (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) :=
  calc (dat0 V c).flushed 10 t = (dat0 V c).after 10 t := cut0_10 t _
    _ = out0_10 (iblk0 V c 0 t) (iblk0 V c 1 t) (iblk0 V c 2 t) (iblk0 V c 3 t) (iblk0 V c 4 t) (iblk0 V c 5 t) (iblk0 V c 6 t) (iblk0 V c 7 t) := after0_10 V c t
    _ = out0_10 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) := by rw [iblk0_0, iblk0_1, iblk0_2, iblk0_3, iblk0_4, iblk0_5, iblk0_6, iblk0_7]
    _ = P (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) := hP ..
    _ = _ := (read_blk0_10 t _).symm

set_option maxHeartbeats 2000000 in
/-- What the point writes back to window 10's array is the payload of the input arrays, read through the block. -/
theorem flushed0_10 (c : Dev nD) (t : Fin cfg0.N) :
    (dat0 V c).flushed 10 t = ((cfg0.win 10).blk t).view.read (Elt F) (k0_pay3 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) :=
  flushed0_10_of V k0_pay3 out0_10_eq c t

set_option maxHeartbeats 2000000 in
/-- Window 10's array after the run: the payload of the input arrays as the region finds them. -/
theorem arrAt0_10 (c : Dev nD) : (dat0 V c).arrAt 10 cfg0.N = k0_pay3 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) :=
  (dat0 V c).arrAt_eq_of_cover 10 _ (fun t _ => flushed0_10 V c t) fun i => ⟨t0_0, flush0_10 _, mem_blk0_10 _ i⟩

end Regions

end Cert.Kernel.Hand

end
-- ==== Proof.K.Region1.lean ====
/- Region 1 of @main (custom_call 1: x[4096,64] against W[20000,64] in blocks of 1024 rows, plus the bias, into the output's blocks of 1024 columns), with the OUTPUT WINDOW FORGOTTEN: the last block of W, of the bias and of the output overhangs its array, so the staging buffers' tails past the arrays' end hold words nothing names and what the body computes from them is not stated; the body terminates and leaves its three input buffers as it found them. -/
import proofs.«151948_j17755394802209_2_alg».proof.Proof.Gen.Kernel.Launch
import proofs.«151948_j17755394802209_2_alg».proof.Proof.Gen.Kernel.Skeleton
import proofs.«151948_j17755394802209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 1: the windows' blocks -/

/-- Window `w`'s block at point `t`, read off its array as the region finds it (`V`): its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the whole of `x`, fetched at the first point only) holds its block at every point, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The window the claim does not read: the output's. -/
def fgt1 : Fin cfg1.W → Bool := fun w => decide (w = 3)

/-! ## The body's triple -/

set_option maxHeartbeats 4000000 in
/-- The kernel body on whole staging memrefs, the inputs' at read contents and the output's at anything, runs to the
    continuation holding the inputs' as they were and the output's at some contents. -/
theorem sound_kernel1 (c : Dev nD) (E : Set ℕ) (i : grid1.Coords)
    (arg1 : Memref sig .tc .vmem S4096x64 .f32) (harg1 : arg1.IsWhole) (arg2 : Memref sig .tc .vmem S1024x64 .f32) (harg2 : arg2.IsWhole)
    (arg3 : Memref sig .tc .vmem S1x1024 .f32) (harg3 : arg3.IsWhole) (arg4 : Memref sig .tc .vmem S4096x1024 .f32) (harg4 : arg4.IsWhole)
    (x0 : Vec F S4096x64 .f32) (x1 : Vec F S1024x64 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ (∃ X, owns (c : Thread nD τ) arg4 fullShare X)) -∗ K ⟨⟩))
      ⊢ wp frame (wpE (defs₀ (F := F)) Variants.none c none) E (cc1__decode_kernel i arg1 harg1 arg2 harg2 arg3 harg3 arg4 harg4) K := by
  simp only [cc1__decode_kernel_eq_skeleton]; unfold cc1__decode_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The pipeline's proof data -/

/-- The proof data of pipeline 1 on core `c`: the arrays as the region finds them (`V`); after the body `x`'s buffer at
    its block, W's and the bias's at their blocks on the part inside the array (filled out past the array's end with a
    word nothing reads), the output's at a word nothing reads (the window is forgotten); the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (cfg1.win 1).fill (cfg1.grid.coords t) (fun _ => Scalar.ofBits .f32 0#32) (iblk1 V c 1 t)
    | ⟨2, _⟩ => (cfg1.win 2).fill (cfg1.grid.coords t) (fun _ => Scalar.ofBits .f32 0#32) (iblk1 V c 2 t)
    | ⟨3, _⟩ => fun _ => Scalar.ofBits .f32 0#32
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (cfg1.win 1).fill (cfg1.grid.coords t) (fun _ => Scalar.ofBits .f32 0#32) (iblk1 V c 1 t) := by dsimp only [dat1]
theorem after1_2 (c : Dev nD) (t : Fin cfg1.N) : (dat1 V c).after 2 t = (cfg1.win 2).fill (cfg1.grid.coords t) (fun _ => Scalar.ofBits .f32 0#32) (iblk1 V c 2 t) := by dsimp only [dat1]

/-- `x`'s staging buffer holds its block at every point, fetched there or not; -/
theorem before1_0 (c : Dev nD) (t : Fin cfg1.N) (d) : (dat1 V c).before 0 t d = iblk1 V c 0 t :=
  before1_0_of V (dat1 V c) (A_eq1 V c 0) (after1_0 V c) t d
/-- W's and the bias's, fetched at every point, hold their blocks on the part inside the array and `d` elsewhere. -/
theorem before1_1 (c : Dev nD) (t : Fin cfg1.N) (d) :
    (dat1 V c).before 1 t d = (cfg1.win 1).fill (cfg1.grid.coords t) d (iblk1 V c 1 t) := by
  unfold Dat.before; rw [if_pos (fetch1_1 t)]; rfl
theorem before1_2 (c : Dev nD) (t : Fin cfg1.N) (d) :
    (dat1 V c).before 2 t d = (cfg1.win 2).fill (cfg1.grid.coords t) d (iblk1 V c 2 t) := by
  unfold Dat.before; rw [if_pos (fetch1_2 t)]; rfl

/-! ## The body obligation, at a generic point -/

/-- What the body is called with at point `t`: the three inputs' buffers at what they then hold, the output's at anything, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

/-- and what it returns: `x`'s buffer at its block, W's and the bias's stated on the part inside the array, the output's at anything. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ X, owns (c : Thread nD τ) (st1_3 t) fullShare X))

set_option maxHeartbeats 4000000 in
/-- The body at any point: the inputs' memrefs hold their blocks (filled out past the arrays' end with what the buffers
    held), so `sound_kernel1` applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) _ _ _ _ _ _ _ _ (iblk1 V c 0 t)
    ((cfg1.win 1).fill (cfg1.grid.coords t) d1 (iblk1 V c 1 t)) ((cfg1.win 2).fill (cfg1.grid.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; rw [(cfg1.win 1).cut_fill]; iexact H1
  isplitl [H2]
  · iexists d2; rw [(cfg1.win 2).cut_fill]; iexact H2
  iexact H3

/-- The library's body obligation with the output window forgotten, at every point. -/
theorem body_obligation1 (c : Dev nD) : BodyObligationLoose (dat1 (F := F) V c) (defs₀ (F := F)) Variants.none () Set.univ fgt1 := fun t => by
  rw [bigSep_W1, bigSep_W1]
  exact sound_body1 V c t

end Regions

end Cert.Kernel.Hand

end
-- ==== Proof.K.Region2.lean ====
/- Region 2 of @main (custom_call 2: x[4096,64] against W[30000,64] in blocks of 1024 rows, plus the bias, into the output's blocks of 1024 columns), with the OUTPUT WINDOW FORGOTTEN: the last block of W, of the bias and of the output overhangs its array, so the staging buffers' tails past the arrays' end hold words nothing names and what the body computes from them is not stated; the body terminates and leaves its three input buffers as it found them. -/
import proofs.«151948_j17755394802209_2_alg».proof.Proof.Gen.Kernel.Launch
import proofs.«151948_j17755394802209_2_alg».proof.Proof.Gen.Kernel.Skeleton
import proofs.«151948_j17755394802209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 2: the windows' blocks -/

/-- Window `w`'s block at point `t`, read off its array as the region finds it (`V`): its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the whole of `x`, fetched at the first point only) holds its block at every point, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The window the claim does not read: the output's. -/
def fgt2 : Fin cfg2.W → Bool := fun w => decide (w = 3)

/-! ## The body's triple -/

set_option maxHeartbeats 4000000 in
/-- The kernel body on whole staging memrefs, the inputs' at read contents and the output's at anything, runs to the
    continuation holding the inputs' as they were and the output's at some contents. -/
theorem sound_kernel2 (c : Dev nD) (E : Set ℕ) (i : grid2.Coords)
    (arg1 : Memref sig .tc .vmem S4096x64 .f32) (harg1 : arg1.IsWhole) (arg2 : Memref sig .tc .vmem S1024x64 .f32) (harg2 : arg2.IsWhole)
    (arg3 : Memref sig .tc .vmem S1x1024 .f32) (harg3 : arg3.IsWhole) (arg4 : Memref sig .tc .vmem S4096x1024 .f32) (harg4 : arg4.IsWhole)
    (x0 : Vec F S4096x64 .f32) (x1 : Vec F S1024x64 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ (∃ X, owns (c : Thread nD τ) arg4 fullShare X)) -∗ K ⟨⟩))
      ⊢ wp frame (wpE (defs₀ (F := F)) Variants.none c none) E (cc2__decode_kernel i arg1 harg1 arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The pipeline's proof data -/

/-- The proof data of pipeline 2 on core `c`: the arrays as the region finds them (`V`); after the body `x`'s buffer at
    its block, W's and the bias's at their blocks on the part inside the array (filled out past the array's end with a
    word nothing reads), the output's at a word nothing reads (the window is forgotten); the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (cfg2.win 1).fill (cfg2.grid.coords t) (fun _ => Scalar.ofBits .f32 0#32) (iblk2 V c 1 t)
    | ⟨2, _⟩ => (cfg2.win 2).fill (cfg2.grid.coords t) (fun _ => Scalar.ofBits .f32 0#32) (iblk2 V c 2 t)
    | ⟨3, _⟩ => fun _ => Scalar.ofBits .f32 0#32
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = (cfg2.win 1).fill (cfg2.grid.coords t) (fun _ => Scalar.ofBits .f32 0#32) (iblk2 V c 1 t) := by dsimp only [dat2]
theorem after2_2 (c : Dev nD) (t : Fin cfg2.N) : (dat2 V c).after 2 t = (cfg2.win 2).fill (cfg2.grid.coords t) (fun _ => Scalar.ofBits .f32 0#32) (iblk2 V c 2 t) := by dsimp only [dat2]

/-- `x`'s staging buffer holds its block at every point, fetched there or not; -/
theorem before2_0 (c : Dev nD) (t : Fin cfg2.N) (d) : (dat2 V c).before 0 t d = iblk2 V c 0 t :=
  before2_0_of V (dat2 V c) (A_eq2 V c 0) (after2_0 V c) t d
/-- W's and the bias's, fetched at every point, hold their blocks on the part inside the array and `d` elsewhere. -/
theorem before2_1 (c : Dev nD) (t : Fin cfg2.N) (d) :
    (dat2 V c).before 1 t d = (cfg2.win 1).fill (cfg2.grid.coords t) d (iblk2 V c 1 t) := by
  unfold Dat.before; rw [if_pos (fetch2_1 t)]; rfl
theorem before2_2 (c : Dev nD) (t : Fin cfg2.N) (d) :
    (dat2 V c).before 2 t d = (cfg2.win 2).fill (cfg2.grid.coords t) d (iblk2 V c 2 t) := by
  unfold Dat.before; rw [if_pos (fetch2_2 t)]; rfl

/-! ## The body obligation, at a generic point -/

/-- What the body is called with at point `t`: the three inputs' buffers at what they then hold, the output's at anything, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

/-- and what it returns: `x`'s buffer at its block, W's and the bias's stated on the part inside the array, the output's at anything. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ X, owns (c : Thread nD τ) (st2_3 t) fullShare X))

set_option maxHeartbeats 4000000 in
/-- The body at any point: the inputs' memrefs hold their blocks (filled out past the arrays' end with what the buffers
    held), so `sound_kernel2` applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 c Set.univ (grid2.coords t) _ _ _ _ _ _ _ _ (iblk2 V c 0 t)
    ((cfg2.win 1).fill (cfg2.grid.coords t) d1 (iblk2 V c 1 t)) ((cfg2.win 2).fill (cfg2.grid.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; rw [(cfg2.win 1).cut_fill]; iexact H1
  isplitl [H2]
  · iexists d2; rw [(cfg2.win 2).cut_fill]; iexact H2
  iexact H3

/-- The library's body obligation with the output window forgotten, at every point. -/
theorem body_obligation2 (c : Dev nD) : BodyObligationLoose (dat2 (F := F) V c) (defs₀ (F := F)) Variants.none () Set.univ fgt2 := fun t => by
  rw [bigSep_W2, bigSep_W2]
  exact sound_body2 V c t

end Regions

end Cert.Kernel.Hand

end
-- ==== Proof.K.Run.lean ====
import proofs.«151948_j17755394802209_2_alg».proof.Proof.Gen.Kernel.Launch
import proofs.«151948_j17755394802209_2_alg».proof.Proof.Gen.Kernel.Skeleton
import proofs.«151948_j17755394802209_2_alg».proof.Proof.Gen.Kernel.Points
import proofs.«151948_j17755394802209_2_alg».proof.Proof.K.Region0
import proofs.«151948_j17755394802209_2_alg».proof.Proof.K.Region1
import proofs.«151948_j17755394802209_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The run of the three-region program with the argument arrays unchanged, at any float instance.

  Between its host stretches the program launches a gridless attention kernel and two column-tiled decode
  products. The last tile of each decode overhangs its arrays: past the array's end the staged weight rows and
  bias entries are words nothing names, and what the product leaves in the output tile there cannot be named
  either. So the decode regions are run with relational proof data that forget the output window: each region's
  inputs are found unchanged and its output array ends at SOME contents. Along @main the thread state therefore
  holds every unscoped buffer at named contents except the decode outputs, which are held at contents not named
  (`held` over the set with those references erased, beside `∃ f, ↦ f`); no later host operation or region reads
  them. At the end every argument array is read at its launch contents: no host operation and no region writes one.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)
abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b
abbrev W5 : Dev nD → Valuation τ sig (Elt F) := fun c => StableHlo.after main_part1_ops2 (W4 m ρ c)
abbrev V5 : (c : Dev nD) → (b : Ref sig .tc) → Buf (Elt F) ((c : Thread nD τ).loc b) := fun c b => W5 m ρ c b

/-! ## The proof data family -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V5 m ρ) c
def rdats : (p : Fin 3) → (c : Dev nD) → RDat τ (Elt F) Unit ℕ (UR sig nD τ) ℕ (Pipeline.pin (pcfgs (F := F)) adm p) c
  | ⟨0, _⟩ => fun c => (dat0 (V2 m ρ) c).toR
  | ⟨1, _⟩ => fun c => (dat1 (V4 m ρ) c).toRForget fgt1
  | ⟨2, _⟩ => fun c => (dat2 (V5 m ρ) c).toRForget fgt2
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hsegS (S : Finset (DevRef τ sig)) (ops : List (HloOp τ sig (Elt F))) (hS : ∀ op ∈ ops, op.bufs ⊆ S)
    (hfresh : ops.Forall fun op => op.fresh = ∅) (W : Dev nD → Valuation τ sig (Elt F)) (R' : Dev nD → sProp 𝕄) :
    Pipeline.HostSeg (Name := ℕ) (U := UR sig nD τ) (pcfgs (F := F)) defs₀ 𝒱₀ L lv :=
  Pipeline.HostSeg.ofOps _ _ _ _ _ S ops hS
    (fun op h => (List.forall_iff_forall_mem.mp hfresh) op h) W R'

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  hsegS (Pipeline.ucRefs τ sig) ops (fun op h => Pipeline.sub_ucRefs op ((List.forall_iff_forall_mem.mp hsub) op h)) hfresh W R

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem ops1_fresh : (main_part1_ops1 : List (HloOp τ sig (Elt F))).Forall fun op => op.fresh = ∅ := by
  simp only [List.Forall]; repeat' constructor
theorem ops2_fresh : (main_part1_ops2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

set_option backward.isDefEq.respectTransparency.types false in
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).toR
  hwaits := Pipeline.RDat.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    rw [show (rdats m ρ 0 c).arraysAt (Pipeline.pin (pcfgs (F := F)) adm 0).N = (pdats m ρ 0 c).arrays ((pdats m ρ 0 c).arrAt · cfg0.N)
      from (dat0 (V2 m ρ) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## Region 1: the output array's contents are not named afterwards -/

abbrev r74 : DevRef τ sig := Proc.devRef .tc main_v74
abbrev r76 : DevRef τ sig := Proc.devRef .tc main_v76
abbrev S1 : Finset (DevRef τ sig) := (Pipeline.ucRefs τ sig).erase r74
abbrev S2 : Finset (DevRef τ sig) := (S1).erase r76
abbrev some74 (c : Dev nD) : sProp 𝕄 := iprop(∃ f : (r74 : DevRef τ sig).ty.Contents (Elt F), (((c : Thread nD τ).1, r74) ↦{fullShare} f))
abbrev some76 (c : Dev nD) : sProp 𝕄 := iprop(∃ f : (r76 : DevRef τ sig).ty.Contents (Elt F), (((c : Thread nD τ).1, r76) ↦{fullShare} f))
abbrev R1 (c : Dev nD) : sProp 𝕄 := iprop(some74 (F := F) c ∗ R c)

theorem r74_mem : (r74 : DevRef τ sig) ∈ Pipeline.ucRefs τ sig := mem_uc main_v74 (by decide)
theorem r76_mem : (r76 : DevRef τ sig) ∈ S1 := Finset.mem_erase.mpr ⟨StableHlo.devRef_ne_of_ne (by decide), mem_uc main_v76 (by decide)⟩

section
variable (V : (c : Dev nD) → (b : Ref sig .tc) → Buf (Elt F) ((c : Thread nD τ).loc b))
/-- The arrays of region 1 after the run, the output's at contents `f`. -/
def Ff1 (c : Dev nD) (f : Buf (Elt F) ((cfg1.win 3).arr.view.loc (c : Thread nD τ))) : (w : Fin cfg1.W) → Buf (Elt F) ((cfg1.win w).arr.view.loc (c : Thread nD τ))
  | ⟨0, _⟩ => (dat1 V c).arrAt 0 cfg1.N
  | ⟨1, _⟩ => (dat1 V c).arrAt 1 cfg1.N
  | ⟨2, _⟩ => (dat1 V c).arrAt 2 cfg1.N
  | ⟨3, _⟩ => f

set_option maxHeartbeats 2000000 in
theorem arraysAt1_elim (c : Dev nD) :
    (((dat1 V c).toRForget fgt1).arraysAt cfg1.N : sProp 𝕄) ⊢ iprop(∃ f, (dat1 V c).arrays (Ff1 V c f)) := by
  unfold Pipeline.RDat.arraysAt
  rw [bigSep_W1]
  iintro ⟨⟨%F0, %h0, H0⟩, ⟨%F1, %h1, H1⟩, ⟨%F2, %h2, H2⟩, ⟨%F3, -, H3⟩⟩
  have e0 := ((dat1 V c).toRForget_arrAt_iff (fgt := fgt1) (w := 0) (by decide) cfg1.N F0).mp h0
  have e1 := ((dat1 V c).toRForget_arrAt_iff (fgt := fgt1) (w := 1) (by decide) cfg1.N F1).mp h1
  have e2 := ((dat1 V c).toRForget_arrAt_iff (fgt := fgt1) (w := 2) (by decide) cfg1.N F2).mp h2
  subst e0 e1 e2
  iexists F3
  unfold Pipeline.Dat.arrays
  rw [bigSep_W1]
  dsimp only [Ff1]
  isplitl [H0]; · iexact H0
  isplitl [H1]; · iexact H1
  isplitl [H2]; · iexact H2
  iexact H3
end

theorem held_update_split (c : Dev nD) (S : Finset (DevRef τ sig)) (r : DevRef τ sig) (hr : r ∈ S)
    (W : Valuation τ sig (Elt F)) (f : r.ty.Contents (Elt F)) :
    (StableHlo.held (c : Thread nD τ) S (Function.update W r f) : sProp 𝕄)
      = iprop((((c : Thread nD τ).1, r) ↦{fullShare} f) ∗ StableHlo.held (c : Thread nD τ) (S.erase r) W) := by
  unfold StableHlo.held
  rw [bigSep_erase hr, Function.update_self,
    show bigSep (S.erase r) (fun b => ((((c : Thread nD τ).1, b) ↦{fullShare} Function.update W r f b : sProp 𝕄)))
       = bigSep (S.erase r) (fun b => (((c : Thread nD τ).1, b) ↦{fullShare} W b : sProp 𝕄)) from
      bigSep_congr fun b hb => by rw [Function.update_of_ne (Finset.ne_of_mem_erase hb)]]
  rfl

/-- The contents at region 1's exit: as at its entry but for the output array, at `f`. -/
abbrev V4u (c : Dev nD) (f : (r74 : DevRef τ sig).ty.Contents (Elt F)) : (b : Ref sig .tc) → Buf (Elt F) ((c : Thread nD τ).loc b) :=
  fun b => Function.update (W4 m ρ c) r74 f b

set_option maxHeartbeats 2000000 in
theorem hF1 (c : Dev nD) (f : (r74 : DevRef τ sig).ty.Contents (Elt F)) :
    ∀ w, Ff1 (V4 m ρ) c f w = V4u m ρ c f (Pipeline.arrRef spec1 w)
  | ⟨0, _⟩ => by
    dsimp only [Ff1, V4u]
    rw [Function.update_of_ne (StableHlo.devRef_ne_of_ne (show Pipeline.arrRef spec1 (0 : Fin cfg1.W) ≠ main_v74 by decide))]
    exact (dat1 (V4 m ρ) c).arrAt_in 0 rfl _
  | ⟨1, _⟩ => by
    dsimp only [Ff1, V4u]
    rw [Function.update_of_ne (StableHlo.devRef_ne_of_ne (show Pipeline.arrRef spec1 (1 : Fin cfg1.W) ≠ main_v74 by decide))]
    exact (dat1 (V4 m ρ) c).arrAt_in 1 rfl _
  | ⟨2, _⟩ => by
    dsimp only [Ff1, V4u]
    rw [Function.update_of_ne (StableHlo.devRef_ne_of_ne (show Pipeline.arrRef spec1 (2 : Fin cfg1.W) ≠ main_v74 by decide))]
    exact (dat1 (V4 m ρ) c).arrAt_in 2 rfl _
  | ⟨3, _⟩ => by
    dsimp only [Ff1, V4u]
    exact (Function.update_self (f := W4 m ρ c) r74 f).symm

theorem hrest1 (c : Dev nD) (f : (r74 : DevRef τ sig).ty.Contents (Elt F)) :
    ∀ b, b ∉ Finset.univ.image (Pipeline.arrRef spec1) → V4u m ρ c f b = V4 m ρ c b := fun b hb =>
  Function.update_of_ne (StableHlo.devRef_ne_of_ne fun e => hb (Finset.mem_image.mpr ⟨3, Finset.mem_univ _, e.symm⟩)) _ _

set_option backward.isDefEq.respectTransparency.types false in
set_option maxHeartbeats 2000000 in
theorem exit1 (c : Dev nD) (f : (r74 : DevRef τ sig).ty.Contents (Elt F)) :
    iprop((dat1 (V4 m ρ) c).arrays (Ff1 (V4 m ρ) c f)
        ∗ Pipeline.unscopedRest (Ix := Unit) (Name := ℕ) (U := UR sig nD τ) (Lvl := ℕ) spec1 c (V4 m ρ c))
      ⊢ (iprop((((c : Thread nD τ).1, r74) ↦{fullShare} f) ∗ StableHlo.held (c : Thread nD τ) S1 (W4 m ρ c)) : sProp 𝕄) := by
  have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V4u m ρ c f) (Ff1 (V4 m ρ) c f) (hF1 m ρ c f) (hrest1 m ρ c f)
  rw [Pipeline.unscopedBufs_held, held_update_split c _ r74 r74_mem] at hjoin
  exact hjoin

set_option backward.isDefEq.respectTransparency.types false in
set_option maxHeartbeats 2000000 in
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).toRForget
  hwaits := Pipeline.RDat.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) S1 (W4 m ρ c) ∗ R1 c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [show (rdats m ρ 1 c).arraysAt (Pipeline.pin (pcfgs (F := F)) adm 1).N = ((dat1 (V4 m ρ) c).toRForget fgt1).arraysAt cfg1.N from rfl]
    iintro ⟨Ha, HO, HY, Hrest⟩
    ihave Ha' := (arraysAt1_elim (V4 m ρ) c) $$ Ha
    icases Ha' with ⟨%f, Ha⟩
    ihave H := (exit1 m ρ c f) $$ [Ha Hrest]
    · isplitl [Ha] <;> iassumption
    icases H with ⟨H74, Hh⟩
    imodintro
    isplitl [Hh]; · iexact Hh
    isplitl [H74]; · iexists f; iexact H74
    isplitl [HY]; · iexact HY
    unfold Pipeline.RDat.owesAt Pipeline.owesWithin
    icases HO with ⟨%W, -, HO⟩; iexists W; iexact HO

/-! ## Region 2: likewise -/

abbrev S76 : Finset (DevRef τ sig) := (Pipeline.ucRefs τ sig).erase r76
abbrev S2' : Finset (DevRef τ sig) := (S76).erase r74
theorem r76_mem_uc : (r76 : DevRef τ sig) ∈ Pipeline.ucRefs τ sig := mem_uc main_v76 (by decide)
theorem r74_mem_S76 : (r74 : DevRef τ sig) ∈ S76 := Finset.mem_erase.mpr ⟨StableHlo.devRef_ne_of_ne (by decide), r74_mem⟩

section
variable (V : (c : Dev nD) → (b : Ref sig .tc) → Buf (Elt F) ((c : Thread nD τ).loc b))
def Ff2 (c : Dev nD) (g : Buf (Elt F) ((cfg2.win 3).arr.view.loc (c : Thread nD τ))) : (w : Fin cfg2.W) → Buf (Elt F) ((cfg2.win w).arr.view.loc (c : Thread nD τ))
  | ⟨0, _⟩ => (dat2 V c).arrAt 0 cfg2.N
  | ⟨1, _⟩ => (dat2 V c).arrAt 1 cfg2.N
  | ⟨2, _⟩ => (dat2 V c).arrAt 2 cfg2.N
  | ⟨3, _⟩ => g

set_option maxHeartbeats 2000000 in
theorem arraysAt2_elim (c : Dev nD) :
    (((dat2 V c).toRForget fgt2).arraysAt cfg2.N : sProp 𝕄) ⊢ iprop(∃ g, (dat2 V c).arrays (Ff2 V c g)) := by
  unfold Pipeline.RDat.arraysAt
  rw [bigSep_W2]
  iintro ⟨⟨%F0, %h0, H0⟩, ⟨%F1, %h1, H1⟩, ⟨%F2, %h2, H2⟩, ⟨%F3, -, H3⟩⟩
  have e0 := ((dat2 V c).toRForget_arrAt_iff (fgt := fgt2) (w := 0) (by decide) cfg2.N F0).mp h0
  have e1 := ((dat2 V c).toRForget_arrAt_iff (fgt := fgt2) (w := 1) (by decide) cfg2.N F1).mp h1
  have e2 := ((dat2 V c).toRForget_arrAt_iff (fgt := fgt2) (w := 2) (by decide) cfg2.N F2).mp h2
  subst e0 e1 e2
  iexists F3
  unfold Pipeline.Dat.arrays
  rw [bigSep_W2]
  dsimp only [Ff2]
  isplitl [H0]; · iexact H0
  isplitl [H1]; · iexact H1
  isplitl [H2]; · iexact H2
  iexact H3
end

abbrev V5u (c : Dev nD) (f : (r74 : DevRef τ sig).ty.Contents (Elt F)) : (b : Ref sig .tc) → Buf (Elt F) ((c : Thread nD τ).loc b) :=
  fun b => Function.update (W5 m ρ c) r74 f b
abbrev V5uu (c : Dev nD) (f : (r74 : DevRef τ sig).ty.Contents (Elt F)) (g : (r76 : DevRef τ sig).ty.Contents (Elt F)) :
    (b : Ref sig .tc) → Buf (Elt F) ((c : Thread nD τ).loc b) :=
  fun b => Function.update (Function.update (W5 m ρ c) r74 f) r76 g b

theorem arr2_ne74 : ∀ w : Fin cfg2.W, Pipeline.arrRef spec2 w ≠ main_v74 := by decide

theorem hA2 (c : Dev nD) (f : (r74 : DevRef τ sig).ty.Contents (Elt F)) :
    ∀ w, (dat2 (V5 m ρ) c).A w = V5u m ρ c f (Pipeline.arrRef spec2 w) := fun w => by
  show W5 m ρ c (Proc.devRef .tc (Pipeline.arrRef spec2 w)) = _
  exact (Function.update_of_ne (StableHlo.devRef_ne_of_ne (arr2_ne74 w)) _ _).symm

set_option maxHeartbeats 2000000 in
theorem hF2 (c : Dev nD) (f : (r74 : DevRef τ sig).ty.Contents (Elt F)) (g : (r76 : DevRef τ sig).ty.Contents (Elt F)) :
    ∀ w, Ff2 (V5 m ρ) c g w = V5uu m ρ c f g (Pipeline.arrRef spec2 w)
  | ⟨0, _⟩ => by
    dsimp only [Ff2, V5uu]
    rw [Function.update_of_ne (StableHlo.devRef_ne_of_ne (show Pipeline.arrRef spec2 (0 : Fin cfg2.W) ≠ main_v76 by decide)),
      Function.update_of_ne (StableHlo.devRef_ne_of_ne (arr2_ne74 0))]
    exact (dat2 (V5 m ρ) c).arrAt_in 0 rfl _
  | ⟨1, _⟩ => by
    dsimp only [Ff2, V5uu]
    rw [Function.update_of_ne (StableHlo.devRef_ne_of_ne (show Pipeline.arrRef spec2 (1 : Fin cfg2.W) ≠ main_v76 by decide)),
      Function.update_of_ne (StableHlo.devRef_ne_of_ne (arr2_ne74 1))]
    exact (dat2 (V5 m ρ) c).arrAt_in 1 rfl _
  | ⟨2, _⟩ => by
    dsimp only [Ff2, V5uu]
    rw [Function.update_of_ne (StableHlo.devRef_ne_of_ne (show Pipeline.arrRef spec2 (2 : Fin cfg2.W) ≠ main_v76 by decide)),
      Function.update_of_ne (StableHlo.devRef_ne_of_ne (arr2_ne74 2))]
    exact (dat2 (V5 m ρ) c).arrAt_in 2 rfl _
  | ⟨3, _⟩ => by
    dsimp only [Ff2, V5uu]
    exact (Function.update_self (f := Function.update (W5 m ρ c) r74 f) r76 g).symm

theorem hrest2 (c : Dev nD) (f : (r74 : DevRef τ sig).ty.Contents (Elt F)) (g : (r76 : DevRef τ sig).ty.Contents (Elt F)) :
    ∀ b, b ∉ Finset.univ.image (Pipeline.arrRef spec2) → V5uu m ρ c f g b = V5u m ρ c f b := fun b hb =>
  Function.update_of_ne (StableHlo.devRef_ne_of_ne fun e => hb (Finset.mem_image.mpr ⟨3, Finset.mem_univ _, e.symm⟩)) _ _

/-- The last thread state: every unscoped buffer but the two decode outputs at the last boundary's contents, those
    two at some contents, the generator register at some state. -/
abbrev Tₙ (c : Dev nD) : sProp 𝕄 :=
  iprop(StableHlo.held (c : Thread nD τ) S2' (W5 m ρ c) ∗ some74 (F := F) c ∗ some76 (F := F) c ∗ ∃ r, prngReg c r)

set_option backward.isDefEq.respectTransparency.types false in
set_option maxHeartbeats 2000000 in
theorem entry2 (c : Dev nD) (f : (r74 : DevRef τ sig).ty.Contents (Elt F)) :
    (iprop((((c : Thread nD τ).1, r74) ↦{fullShare} f) ∗ StableHlo.held (c : Thread nD τ) S1 (W5 m ρ c)) : sProp 𝕄)
      ⊢ iprop((rdats m ρ 2 c).arrays (rdats m ρ 2 c).A
        ∗ Pipeline.unscopedRest (Ix := Unit) (Name := ℕ) (U := UR sig nD τ) (Lvl := ℕ) spec2 c (V5u m ρ c f)) := by
  have hsplit := Pipeline.RDat.arrays_of_unscopedBufs (p := 2) (pcfgs (F := F)) adm (rdats m ρ) launch2.win launch2.arr_whole c
      ((pdats m ρ 2 c).share_full fun _ => rfl) (V5u m ρ c f) (hA2 m ρ c f)
  rw [Pipeline.unscopedBufs_held, held_update_split c _ r74 r74_mem] at hsplit
  exact hsplit

set_option backward.isDefEq.respectTransparency.types false in
set_option maxHeartbeats 2000000 in
theorem exit2 (c : Dev nD) (f : (r74 : DevRef τ sig).ty.Contents (Elt F)) (g : (r76 : DevRef τ sig).ty.Contents (Elt F)) :
    iprop((dat2 (V5 m ρ) c).arrays (Ff2 (V5 m ρ) c g)
        ∗ Pipeline.unscopedRest (Ix := Unit) (Name := ℕ) (U := UR sig nD τ) (Lvl := ℕ) spec2 c (V5u m ρ c f))
      ⊢ (iprop((((c : Thread nD τ).1, r76) ↦{fullShare} g) ∗ (((c : Thread nD τ).1, r74) ↦{fullShare} f)
          ∗ StableHlo.held (c : Thread nD τ) S2' (W5 m ρ c)) : sProp 𝕄) := by
  have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5u m ρ c f) (V5uu m ρ c f g) (Ff2 (V5 m ρ) c g) (hF2 m ρ c f g) (hrest2 m ρ c f g)
  rw [Pipeline.unscopedBufs_held, held_update_split c _ r76 r76_mem_uc, held_update_split c _ r74 r74_mem_S76] at hjoin
  exact hjoin

set_option backward.isDefEq.respectTransparency.types false in
set_option maxHeartbeats 2000000 in
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).toRForget
  hwaits := Pipeline.RDat.hwaits_of_owed_zero _ _ _ _ L lv 2 fun _ _ => rfl
  pre c := iprop(StableHlo.held (c : Thread nD τ) S1 (W5 m ρ c) ∗ R1 c)
  post c := iprop(Tₙ m ρ c ∗ ∃ W, owes (c : Thread nD τ) (0 : CellTallies nD τ sig Unit) W)
  X c := iprop(∃ r, prngReg c r)
  Y c := iprop(∃ r, prngReg c r)
  Z c := iprop(∃ f, Pipeline.unscopedRest (Ix := Unit) (Name := ℕ) (U := UR sig nD τ) (Lvl := ℕ) spec2 c (V5u m ρ c f))
  hentry c := by
    rw [Pipeline.ownSems0_none]
    iintro ⟨⟨Hh, ⟨⟨%f, H74⟩, Hp, HO⟩⟩, -, -⟩
    ihave H := (entry2 m ρ c f) $$ [H74 Hh]
    · isplitl [H74] <;> iassumption
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists f; iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    rw [show (rdats m ρ 2 c).arraysAt (Pipeline.pin (pcfgs (F := F)) adm 2).N = ((dat2 (V5 m ρ) c).toRForget fgt2).arraysAt cfg2.N from rfl]
    iintro ⟨Ha, HO, HY, ⟨%f, Hrest⟩⟩
    ihave Ha' := (arraysAt2_elim (V5 m ρ) c) $$ Ha
    icases Ha' with ⟨%g, Ha⟩
    ihave H := (exit2 m ρ c f g) $$ [Ha Hrest]
    · isplitl [Ha] <;> iassumption
    icases H with ⟨H76, H74, Hh⟩
    imodintro
    isplitr [HO]
    · isplitl [Hh]; · iexact Hh
      isplitl [H74]; · iexists f; iexact H74
      isplitl [H76]; · iexists g; iexact H76
      iexact HY
    unfold Pipeline.RDat.owesAt Pipeline.owesWithin
    icases HO with ⟨%W, -, HO⟩; iexists W; iexact HO

/-! ## @main as segments, and the launch -/

theorem ops2_S1 : ∀ op ∈ (main_part1_ops2 : List (HloOp τ sig (Elt F))), op.bufs ⊆ S1 := by
  intro op hop b hb
  refine Finset.mem_erase.mpr ⟨?_, Pipeline.sub_ucRefs op ((List.forall_iff_forall_mem.mp main_part1_ops2_sub) op hop) hb⟩
  simp only [main_part1_ops2, List.mem_singleton] at hop
  subst hop
  rw [StableHlo.reshape_bufs, Finset.mem_insert, Finset.mem_singleton] at hb
  rcases hb with rfl | rfl
  · exact StableHlo.devRef_ne_of_ne (by decide)
  · exact StableHlo.devRef_ne_of_ne (by decide)

abbrev segs : List (Pipeline.RDat.Seg (pcfgs (F := F)) adm (rdats m ρ) () defs₀ 𝒱₀ L lv) :=
  [ .host (hseg main_part0_ops0 main_part0_ops0_sub part0_fresh (W0 m ρ)),
    .host (hseg main_part1_ops0 main_part1_ops0_sub part1_fresh (W1 m ρ)),
    .region (reg0 m ρ),
    .host (hseg main_part1_ops1 main_part1_ops1_sub ops1_fresh (W3 m ρ)),
    .region (reg1 m ρ),
    .host (hsegS S1 main_part1_ops2 ops2_S1 ops2_fresh (W4 m ρ) R1),
    .region (reg2 m ρ) ]
theorem main_run (c : Dev nD) : main (F := F) c = Pipeline.RDat.Seg.run (segs m ρ) := (main_chain_windows c).trans (by chain_rfl)

set_option backward.isDefEq.respectTransparency.types false in
set_option maxHeartbeats 2000000 in
theorem run_main : θ_run defs (onTc (τ := τ) (main (F := F))) ⟨m, fun _ => 0, ρ⟩ (fun r => ∀ c : Dev nD,
      ∀ b ∈ S2', r.2.mem (((c : Thread nD τ)).1, b) = W5 m ρ c b) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ S2', s.mem (((c : Thread nD τ)).1, b) = W5 m ρ c b)
    (hfin := fun c s' => by
      iintro ⟨⟨Hh, -⟩, HSI⟩
      unfold StableHlo.held
      imodintro
      iapply (pointsTo_read_all S2' (fun b => (((c : Thread nD τ)).1, b)) (W5 m ρ c) s')
      isplitl [Hh] <;> iassumption)
    (hQ := fun s h => h)

/-! ## The arguments end as launched -/
/-- The buffers the operations of the stretch write, in order. -/
abbrev wr0 : List (Ref sig .tc) := [main_v0, main_c, main_v1, main_v2, main_c_0, main_v3, main_v4, main_v5, main_v6, main_v7, main_v8, main_v9, main_v10, main_cst, main_v11, main_v12, main_v13, main_v14, main_v15, main_v16, main_v17, main_v18, main_v19, main_c_1, main_v20, main_v21, main_c_2, main_v22, main_v23, main_v24, main_v25, main_v26, main_v27, main_v28, main_v29, main_cst_3, main_v30, main_v31, main_v32, main_v33, main_v34, main_v35, main_v36, main_v37, main_c_4, main_v38, main_v39, main_c_5, main_v40, main_v41, main_v42, main_v43, main_v44, main_c_6, main_v45, main_v46, main_c_7, main_v47, main_v48, main_v49]
/-- A buffer the stretch does not write is as before it. -/
theorem W1_of_not_mem (c : Dev nD) (b : Ref sig .tc) (hb : b ∉ wr0) :
    W1 m ρ c (Proc.devRef .tc b) = W0 m ρ c (Proc.devRef .tc b) := by
  refine StableHlo.after_of_forall_not_mem (b := Proc.devRef .tc b) _ _ (List.forall_iff_forall_mem.mp ?_)
  simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

/-- The buffers the operations of the stretch write, in order. -/
abbrev wr1 : List (Ref sig .tc) := [main_v50, main_v51, main_c_8, main_v52, main_v53, main_c_9, main_v54, main_v55, main_v56, main_v57, main_v58, main_c_10, main_v59, main_v60, main_c_11, main_v61, main_v62, main_v63, main_v64, main_v65, main_v66, main_v67, main_v68, main_v69, main_v70, main_v71]
/-- A buffer the stretch does not write is as before it. -/
theorem W2_of_not_mem (c : Dev nD) (b : Ref sig .tc) (hb : b ∉ wr1) :
    W2 m ρ c (Proc.devRef .tc b) = W1 m ρ c (Proc.devRef .tc b) := by
  refine StableHlo.after_of_forall_not_mem (b := Proc.devRef .tc b) _ _ (List.forall_iff_forall_mem.mp ?_)
  simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

/-- The buffers the operations of the stretch write, in order. -/
abbrev wr2 : List (Ref sig .tc) := [main_v73]
/-- A buffer the stretch does not write is as before it. -/
theorem W4_of_not_mem (c : Dev nD) (b : Ref sig .tc) (hb : b ∉ wr2) :
    W4 m ρ c (Proc.devRef .tc b) = W3 m ρ c (Proc.devRef .tc b) := by
  refine StableHlo.after_of_forall_not_mem (b := Proc.devRef .tc b) _ _ (List.forall_iff_forall_mem.mp ?_)
  simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

/-- The buffers the operations of the stretch write, in order. -/
abbrev wr3 : List (Ref sig .tc) := [main_v75]
/-- A buffer the stretch does not write is as before it. -/
theorem W5_of_not_mem (c : Dev nD) (b : Ref sig .tc) (hb : b ∉ wr3) :
    W5 m ρ c (Proc.devRef .tc b) = W4 m ρ c (Proc.devRef .tc b) := by
  refine StableHlo.after_of_forall_not_mem (b := Proc.devRef .tc b) _ _ (List.forall_iff_forall_mem.mp ?_)
  simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

theorem W5_arg (c : Dev nD) (b : Ref sig .tc) (h0 : b ∉ wr0) (h1 : b ∉ wr1) (h2 : b ∉ wr2) (h3 : b ∉ wr3)
    (ha : ∀ w, Pipeline.arrRef spec0 w ≠ b) : W5 m ρ c (Proc.devRef .tc b) = m ((c : Thread nD τ).loc b) :=
  (W5_of_not_mem m ρ c b h3).trans <| (W4_of_not_mem m ρ c b h2).trans <| (W3_of_ne m ρ c b ha).trans <|
    (W2_of_not_mem m ρ c b h1).trans <| (W1_of_not_mem m ρ c b h0).trans rfl

theorem mem_S2' (b : Ref sig .tc) (hs : ¬ (Proc.devRef .tc b : DevRef τ sig).isScoped) (h74 : b ≠ main_v74) (h76 : b ≠ main_v76) :
    Proc.devRef .tc b ∈ (S2' : Finset (DevRef τ sig)) :=
  Finset.mem_erase.mpr ⟨StableHlo.devRef_ne_of_ne h74, Finset.mem_erase.mpr ⟨StableHlo.devRef_ne_of_ne h76, mem_uc b hs⟩⟩

/-- The frame, at any `F`: every weakly fair execution of @main terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_S2' main_arg0 (by decide) (by decide) (by decide))).trans (W5_arg m ρ c main_arg0 (by decide) (by decide) (by decide) (by decide) (by decide)),
      (h c _ (mem_S2' main_arg1 (by decide) (by decide) (by decide))).trans (W5_arg m ρ c main_arg1 (by decide) (by decide) (by decide) (by decide) (by decide)),
      (h c _ (mem_S2' main_arg2 (by decide) (by decide) (by decide))).trans (W5_arg m ρ c main_arg2 (by decide) (by decide) (by decide) (by decide) (by decide)),
      (h c _ (mem_S2' main_arg3 (by decide) (by decide) (by decide))).trans (W5_arg m ρ c main_arg3 (by decide) (by decide) (by decide) (by decide) (by decide)),
      (h c _ (mem_S2' main_arg4 (by decide) (by decide) (by decide))).trans (W5_arg m ρ c main_arg4 (by decide) (by decide) (by decide) (by decide) (by decide)),
      (h c _ (mem_S2' main_arg5 (by decide) (by decide) (by decide))).trans (W5_arg m ρ c main_arg5 (by decide) (by decide) (by decide) (by decide) (by decide)),
      (h c _ (mem_S2' main_arg6 (by decide) (by decide) (by decide))).trans (W5_arg m ρ c main_arg6 (by decide) (by decide) (by decide) (by decide) (by decide)),
      (h c _ (mem_S2' main_arg7 (by decide) (by decide) (by decide))).trans (W5_arg m ρ c main_arg7 (by decide) (by decide) (by decide) (by decide) (by decide)),
      (h c _ (mem_S2' main_arg8 (by decide) (by decide) (by decide))).trans (W5_arg m ρ c main_arg8 (by decide) (by decide) (by decide) (by decide) (by decide)),
      (h c _ (mem_S2' main_arg9 (by decide) (by decide) (by decide))).trans (W5_arg m ρ c main_arg9 (by decide) (by decide) (by decide) (by decide) (by decide)),
      (h c _ (mem_S2' main_arg10 (by decide) (by decide) (by decide))).trans (W5_arg m ρ c main_arg10 (by decide) (by decide) (by decide) (by decide) (by decide)),
      (h c _ (mem_S2' main_arg11 (by decide) (by decide) (by decide))).trans (W5_arg m ρ c main_arg11 (by decide) (by decide) (by decide) (by decide) (by decide)),
      (h c _ (mem_S2' main_arg12 (by decide) (by decide) (by decide))).trans (W5_arg m ρ c main_arg12 (by decide) (by decide) (by decide) (by decide) (by decide)),
      (h c _ (mem_S2' main_arg13 (by decide) (by decide) (by decide))).trans (W5_arg m ρ c main_arg13 (by decide) (by decide) (by decide) (by decide) (by decide)),
      (h c _ (mem_S2' main_arg14 (by decide) (by decide) (by decide))).trans (W5_arg m ρ c main_arg14 (by decide) (by decide) (by decide) (by decide) (by decide)),
      (h c _ (mem_S2' main_arg15 (by decide) (by decide) (by decide))).trans (W5_arg m ρ c main_arg15 (by decide) (by decide) (by decide) (by decide) (by decide)),
      (h c _ (mem_S2' main_arg16 (by decide) (by decide) (by decide))).trans (W5_arg m ρ c main_arg16 (by decide) (by decide) (by decide) (by decide) (by decide)),
      (h c _ (mem_S2' main_arg17 (by decide) (by decide) (by decide))).trans (W5_arg m ρ c main_arg17 (by decide) (by decide) (by decide) (by decide) (by decide))⟩) (run_main m ρ)

end Cert.Kernel.Hand

end
-- ==== Proof.KI.Region0.lean ====
/- Region 0 of @main (custom_call 0, one point, every window the whole of its array): the blocks, what the body leaves in the three output buffers, the body's triple, the pipeline's proof data, the body obligation, and the three output arrays after the run. -/
import proofs.«151948_j17755394802209_2_alg».proof.Proof.Gen.KernelIdeal.Launch
import proofs.«151948_j17755394802209_2_alg».proof.Proof.Gen.KernelIdeal.Skeleton
import proofs.«151948_j17755394802209_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: the windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rA : Rect S4096x64 := Rect.unit (s := S4096x64) ![0, 0] S4096x64.size inb_S4096x64_S4096x64_0_0
abbrev rB : Rect S64x64 := Rect.unit (s := S64x64) ![0, 0] S64x64.size inb_S64x64_S64x64_0_0
abbrev rC : Rect S1x64 := Rect.unit (s := S1x64) ![0, 0] S1x64.size inb_S1x64_S1x64_0_0
abbrev rD : Rect S64x1 := Rect.unit (s := S64x1) ![0, 0] S64x1.size inb_S64x1_S64x1_0_0

/-! ## What the body leaves in each output window's buffer -/

/-- Window 8's buffer after the body: one store of the first payload over the whole buffer. -/
def out0_8 (x0 x1 : Vec F S4096x64 .f32) : Vec F S4096x64 .f32 :=
  View.canon [⟨rA, k0_pay1 (View.ld x0 rA) (View.ld x1 rA)⟩]
/-- Window 9's buffer after the body: one store of the second payload over the whole buffer. -/
def out0_9 (x2 x3 : Vec F S4096x64 .f32) : Vec F S4096x64 .f32 :=
  View.canon [⟨rA, k0_pay2 (View.ld x2 rA) (View.ld x3 rA)⟩]
/-- Window 10's buffer after the body: one store of the third payload over the whole buffer. -/
def out0_10 (x0 x1 x2 x3 : Vec F S4096x64 .f32) (x4 x5 : Vec F S64x64 .f32) (x6 : Vec F S1x64 .f32) (x7 : Vec F S64x1 .f32) : Vec F S4096x64 .f32 :=
  View.canon [⟨rA, k0_pay3 (View.ld x0 rA) (View.ld x1 rA) (View.ld x2 rA) (View.ld x3 rA) (View.ld x4 rB) (View.ld x5 rB) (View.ld x6 rC) (View.ld x7 rD)⟩]

/-- The one store covers the buffer. -/
theorem coverA (p0 : Vec F S4096x64 .f32) (y : S4096x64.Idx) :
    ∃ pc ∈ ([⟨rA, p0⟩] : List (View.Piece (Elt F) S4096x64 .f32)), y ∈ pc.1.set :=
  ⟨_, List.mem_singleton_self _, View.mem_set_unit_zero (by funext a; fin_cases a <;> rfl) inb_S4096x64_S4096x64_0_0 y⟩

/-! ## The body's triple -/

set_option maxHeartbeats 4000000 in
/-- The kernel body on whole staging memrefs, the inputs' at read contents and the outputs' at anything, runs to the
    continuation holding the inputs' as they were and each output's at `out0_W` of the inputs'. -/
theorem sound_kernel0 (c : Dev nD) (E : Set ℕ)
    (arg0 : Memref sig .tc .vmem S4096x64 .f32) (harg0 : arg0.IsWhole) (arg1 : Memref sig .tc .vmem S4096x64 .f32) (harg1 : arg1.IsWhole)
    (arg2 : Memref sig .tc .vmem S4096x64 .f32) (harg2 : arg2.IsWhole) (arg3 : Memref sig .tc .vmem S4096x64 .f32) (harg3 : arg3.IsWhole)
    (arg4 : Memref sig .tc .vmem S64x64 .f32) (harg4 : arg4.IsWhole) (arg5 : Memref sig .tc .vmem S64x64 .f32) (harg5 : arg5.IsWhole)
    (arg6 : Memref sig .tc .vmem S1x64 .f32) (harg6 : arg6.IsWhole) (arg7 : Memref sig .tc .vmem S64x1 .f32) (harg7 : arg7.IsWhole)
    (arg8 : Memref sig .tc .vmem S4096x64 .f32) (harg8 : arg8.IsWhole) (arg9 : Memref sig .tc .vmem S4096x64 .f32) (harg9 : arg9.IsWhole)
    (arg10 : Memref sig .tc .vmem S4096x64 .f32) (harg10 : arg10.IsWhole)
    (x0 x1 x2 x3 : Vec F S4096x64 .f32) (x4 x5 : Vec F S64x64 .f32) (x6 : Vec F S1x64 .f32) (x7 : Vec F S64x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out0_8 x0 x1) ∗ owns (c : Thread nD τ) arg9 fullShare (out0_9 x2 x3)
            ∗ owns (c : Thread nD τ) arg10 fullShare (out0_10 x0 x1 x2 x3 x4 x5 x6 x7)) -∗ K ⟨⟩))
      ⊢ wp frame (wpE (defs₀ (F := F)) Variants.none c none) E (cc0__attn_kernel arg0 harg0 arg1 harg1 arg2 harg2 arg3 harg3 arg4 harg4 arg5 harg5 arg6 harg6 arg7 harg7 arg8 harg8 arg9 harg9 arg10 harg10) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  isplitl [H9]
  · iexists _; isplitr
    swap; · iexact H9
    ipureintro
    exact View.read_writes_eq_canon _ _ _ (coverA _)
  iexists _; isplitr
  swap; · iexact H10
  ipureintro
  exact View.read_writes_eq_canon _ _ _ (coverA _)

/-! ## The pipeline's proof data -/

/-- The proof data of pipeline 0 on core `c`: the arrays as the region finds them (`V`); after the body each input's
    buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t)
    | ⟨9, _⟩ => out0_9 (iblk0 V c 2 t) (iblk0 V c 3 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) := by dsimp only [dat0]
theorem after0_9 (c : Dev nD) (t : Fin cfg0.N) : (dat0 V c).after 9 t = out0_9 (iblk0 V c 2 t) (iblk0 V c 3 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output arrays after the run

The region has one point, and every window's block there is the whole of its array at block index zero: reading an
array through the block reads the array, and the one write-back writes the whole array. -/

theorem hz0 : (![0, 0] : Fin 2 → Nat) = fun _ => 0 := funext fun a => by fin_cases a <;> rfl

/-- Reading an array through window 0's block reads the array. -/
theorem read_blk0_0 (t : Fin cfg0.N) (X : S4096x64.Idx → Elt F .f32) : ((cfg0.win 0).blk t).view.read (Elt F) X = X := by
  funext j
  show X (((cfg0.win 0).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 1's block reads the array. -/
theorem read_blk0_1 (t : Fin cfg0.N) (X : S4096x64.Idx → Elt F .f32) : ((cfg0.win 1).blk t).view.read (Elt F) X = X := by
  funext j
  show X (((cfg0.win 1).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 2's block reads the array. -/
theorem read_blk0_2 (t : Fin cfg0.N) (X : S4096x64.Idx → Elt F .f32) : ((cfg0.win 2).blk t).view.read (Elt F) X = X := by
  funext j
  show X (((cfg0.win 2).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 3's block reads the array. -/
theorem read_blk0_3 (t : Fin cfg0.N) (X : S4096x64.Idx → Elt F .f32) : ((cfg0.win 3).blk t).view.read (Elt F) X = X := by
  funext j
  show X (((cfg0.win 3).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 4's block reads the array. -/
theorem read_blk0_4 (t : Fin cfg0.N) (X : S64x64.Idx → Elt F .f32) : ((cfg0.win 4).blk t).view.read (Elt F) X = X := by
  funext j
  show X (((cfg0.win 4).blk t).view.emb j) = X j
  refine congrArg X ?_
  funext a; apply Fin.ext
  match a with
  | ⟨0, _⟩ => show 0 * 64 + 1 * (j 0).val = (j 0).val; omega
  | ⟨1, _⟩ => show 0 * 64 + 1 * (j 1).val = (j 1).val; omega

/-- Reading an array through window 5's block reads the array. -/
theorem read_blk0_5 (t : Fin cfg0.N) (X : S64x64.Idx → Elt F .f32) : ((cfg0.win 5).blk t).view.read (Elt F) X = X := by
  funext j
  show X (((cfg0.win 5).blk t).view.emb j) = X j
  refine congrArg X ?_
  funext a; apply Fin.ext
  match a with
  | ⟨0, _⟩ => show 0 * 64 + 1 * (j 0).val = (j 0).val; omega
  | ⟨1, _⟩ => show 0 * 64 + 1 * (j 1).val = (j 1).val; omega

/-- Reading an array through window 6's block reads the array. -/
theorem read_blk0_6 (t : Fin cfg0.N) (X : S1x64.Idx → Elt F .f32) : ((cfg0.win 6).blk t).view.read (Elt F) X = X := by
  funext j
  show X (((cfg0.win 6).blk t).view.emb j) = X j
  refine congrArg X ?_
  funext a; apply Fin.ext
  match a with
  | ⟨0, _⟩ => show 0 * 1 + 1 * (j 0).val = (j 0).val; omega
  | ⟨1, _⟩ => show 0 * 64 + 1 * (j 1).val = (j 1).val; omega

/-- Reading an array through window 7's block reads the array. -/
theorem read_blk0_7 (t : Fin cfg0.N) (X : S64x1.Idx → Elt F .f32) : ((cfg0.win 7).blk t).view.read (Elt F) X = X := by
  funext j
  show X (((cfg0.win 7).blk t).view.emb j) = X j
  refine congrArg X ?_
  funext a; apply Fin.ext
  match a with
  | ⟨0, _⟩ => show 0 * 64 + 1 * (j 0).val = (j 0).val; omega
  | ⟨1, _⟩ => show 0 * 1 + 1 * (j 1).val = (j 1).val; omega

/-- Reading an array through window 8's block reads the array. -/
theorem read_blk0_8 (t : Fin cfg0.N) (X : S4096x64.Idx → Elt F .f32) : ((cfg0.win 8).blk t).view.read (Elt F) X = X := by
  funext j
  show X (((cfg0.win 8).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 9's block reads the array. -/
theorem read_blk0_9 (t : Fin cfg0.N) (X : S4096x64.Idx → Elt F .f32) : ((cfg0.win 9).blk t).view.read (Elt F) X = X := by
  funext j
  show X (((cfg0.win 9).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Reading an array through window 10's block reads the array. -/
theorem read_blk0_10 (t : Fin cfg0.N) (X : S4096x64.Idx → Elt F .f32) : ((cfg0.win 10).blk t).view.read (Elt F) X = X := by
  funext j
  show X (((cfg0.win 10).blk t).view.emb j) = X j
  refine congrArg X ?_
  funext a; apply Fin.ext
  match a with
  | ⟨0, _⟩ => show 0 * 4096 + 1 * (j 0).val = (j 0).val; omega
  | ⟨1, _⟩ => show 0 * 64 + 1 * (j 1).val = (j 1).val; omega

/-- Input window 0's block is its array as the region finds it. -/
theorem iblk0_0 (c : Dev nD) (t : Fin cfg0.N) : iblk0 V c 0 t = V c (Pipeline.arrRef spec0 0) := read_blk0_0 t _
/-- Input window 1's block is its array as the region finds it. -/
theorem iblk0_1 (c : Dev nD) (t : Fin cfg0.N) : iblk0 V c 1 t = V c (Pipeline.arrRef spec0 1) := read_blk0_1 t _
/-- Input window 2's block is its array as the region finds it. -/
theorem iblk0_2 (c : Dev nD) (t : Fin cfg0.N) : iblk0 V c 2 t = V c (Pipeline.arrRef spec0 2) := read_blk0_2 t _
/-- Input window 3's block is its array as the region finds it. -/
theorem iblk0_3 (c : Dev nD) (t : Fin cfg0.N) : iblk0 V c 3 t = V c (Pipeline.arrRef spec0 3) := read_blk0_3 t _
/-- Input window 4's block is its array as the region finds it. -/
theorem iblk0_4 (c : Dev nD) (t : Fin cfg0.N) : iblk0 V c 4 t = V c (Pipeline.arrRef spec0 4) := read_blk0_4 t _
/-- Input window 5's block is its array as the region finds it. -/
theorem iblk0_5 (c : Dev nD) (t : Fin cfg0.N) : iblk0 V c 5 t = V c (Pipeline.arrRef spec0 5) := read_blk0_5 t _
/-- Input window 6's block is its array as the region finds it. -/
theorem iblk0_6 (c : Dev nD) (t : Fin cfg0.N) : iblk0 V c 6 t = V c (Pipeline.arrRef spec0 6) := read_blk0_6 t _
/-- Input window 7's block is its array as the region finds it. -/
theorem iblk0_7 (c : Dev nD) (t : Fin cfg0.N) : iblk0 V c 7 t = V c (Pipeline.arrRef spec0 7) := read_blk0_7 t _

/-- One store of a payload over the whole buffer leaves the payload, and a load of the whole buffer reads it. -/
theorem out0_8_eq (x0 x1 : Vec F S4096x64 .f32) : out0_8 x0 x1 = k0_pay1 x0 x1 := by
  unfold out0_8
  rw [View.canon_unit_zero hz0]
  simp only [View.ld_unit_zero (S := S4096x64) hz0]
theorem out0_9_eq (x2 x3 : Vec F S4096x64 .f32) : out0_9 x2 x3 = k0_pay2 x2 x3 := by
  unfold out0_9
  rw [View.canon_unit_zero hz0]
  simp only [View.ld_unit_zero (S := S4096x64) hz0]
theorem out0_10_eq (x0 x1 x2 x3 : Vec F S4096x64 .f32) (x4 x5 : Vec F S64x64 .f32) (x6 : Vec F S1x64 .f32) (x7 : Vec F S64x1 .f32) :
    out0_10 x0 x1 x2 x3 x4 x5 x6 x7 = k0_pay3 x0 x1 x2 x3 x4 x5 x6 x7 := by
  unfold out0_10
  rw [View.canon_unit_zero hz0]
  simp only [View.ld_unit_zero (S := S4096x64) hz0, View.ld_unit_zero (S := S64x64) hz0, View.ld_unit_zero (S := S1x64) hz0, View.ld_unit_zero (S := S64x1) hz0]

/-- The write-back moves the whole staging buffer. -/
theorem cut0_8 (t : Fin cfg0.N) (X : S4096x64.Idx → Elt F .f32) : (cfg0.win 8).cut (cfg0.grid.coords t) X = X := rfl

/-- Every index of window 8's array is in its block. -/
theorem mem_blk0_8 (t : Fin cfg0.N) (i : S4096x64.Idx) : i ∈ ((cfg0.win 8).blk t).view.set := by
  show i ∈ ((View.whole main_v72_0).slice (win0_8.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 64 ≤ (i 1).val ∧ (i 1).val < 0 * 64 + 64; have h : (i 1).val < 64 := (i 1).isLt; omega

/-- The write-back moves the whole staging buffer. -/
theorem cut0_9 (t : Fin cfg0.N) (X : S4096x64.Idx → Elt F .f32) : (cfg0.win 9).cut (cfg0.grid.coords t) X = X := rfl

/-- Every index of window 9's array is in its block. -/
theorem mem_blk0_9 (t : Fin cfg0.N) (i : S4096x64.Idx) : i ∈ ((cfg0.win 9).blk t).view.set := by
  show i ∈ ((View.whole main_v72_1).slice (win0_9.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 64 ≤ (i 1).val ∧ (i 1).val < 0 * 64 + 64; have h : (i 1).val < 64 := (i 1).isLt; omega

/-- The write-back moves the whole staging buffer. -/
theorem cut0_10 (t : Fin cfg0.N) (X : S4096x64.Idx → Elt F .f32) : (cfg0.win 10).cut (cfg0.grid.coords t) X = X := rfl

/-- Every index of window 10's array is in its block. -/
theorem mem_blk0_10 (t : Fin cfg0.N) (i : S4096x64.Idx) : i ∈ ((cfg0.win 10).blk t).view.set := by
  show i ∈ ((View.whole main_v72_2).slice (win0_10.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 64 ≤ (i 1).val ∧ (i 1).val < 0 * 64 + 64; have h : (i 1).val < 64 := (i 1).isLt; omega

/-- What the point writes back to window 8's array is the payload of the input arrays, read through the block. -/
theorem flushed0_8 (c : Dev nD) (t : Fin cfg0.N) :
    (dat0 V c).flushed 8 t = ((cfg0.win 8).blk t).view.read (Elt F) (k0_pay1 (V c (Pipeline.arrRef spec0 0)) (V c (Pipeline.arrRef spec0 1))) :=
  calc (dat0 V c).flushed 8 t = (dat0 V c).after 8 t := cut0_8 t _
    _ = out0_8 (iblk0 V c 0 t) (iblk0 V c 1 t) := after0_8 V c t
    _ = out0_8 (V c (Pipeline.arrRef spec0 0)) (V c (Pipeline.arrRef spec0 1)) := by rw [iblk0_0, iblk0_1]
    _ = k0_pay1 (V c (Pipeline.arrRef spec0 0)) (V c (Pipeline.arrRef spec0 1)) := out0_8_eq ..
    _ = _ := (read_blk0_8 t _).symm

/-- Window 8's array after the run: the payload of the input arrays as the region finds them. -/
theorem arrAt0_8 (c : Dev nD) : (dat0 V c).arrAt 8 cfg0.N = k0_pay1 (V c (Pipeline.arrRef spec0 0)) (V c (Pipeline.arrRef spec0 1)) :=
  (dat0 V c).arrAt_eq_of_cover 8 _ (fun t _ => flushed0_8 V c t) fun i => ⟨t0_0, flush0_8 _, mem_blk0_8 _ i⟩

/-- What the point writes back to window 9's array is the payload of the input arrays, read through the block. -/
theorem flushed0_9 (c : Dev nD) (t : Fin cfg0.N) :
    (dat0 V c).flushed 9 t = ((cfg0.win 9).blk t).view.read (Elt F) (k0_pay2 (V c (Pipeline.arrRef spec0 2)) (V c (Pipeline.arrRef spec0 3))) :=
  calc (dat0 V c).flushed 9 t = (dat0 V c).after 9 t := cut0_9 t _
    _ = out0_9 (iblk0 V c 2 t) (iblk0 V c 3 t) := after0_9 V c t
    _ = out0_9 (V c (Pipeline.arrRef spec0 2)) (V c (Pipeline.arrRef spec0 3)) := by rw [iblk0_2, iblk0_3]
    _ = k0_pay2 (V c (Pipeline.arrRef spec0 2)) (V c (Pipeline.arrRef spec0 3)) := out0_9_eq ..
    _ = _ := (read_blk0_9 t _).symm

/-- Window 9's array after the run: the payload of the input arrays as the region finds them. -/
theorem arrAt0_9 (c : Dev nD) : (dat0 V c).arrAt 9 cfg0.N = k0_pay2 (V c (Pipeline.arrRef spec0 2)) (V c (Pipeline.arrRef spec0 3)) :=
  (dat0 V c).arrAt_eq_of_cover 9 _ (fun t _ => flushed0_9 V c t) fun i => ⟨t0_0, flush0_9 _, mem_blk0_9 _ i⟩

set_option maxHeartbeats 4000000 in
/-- What the point writes back to window 10's array, for any function `P` the buffer's contents after the body are of
    the input blocks: `P` of the input arrays, read through the block. -/
theorem flushed0_10_of (P : Vec F S4096x64 .f32 → Vec F S4096x64 .f32 → Vec F S4096x64 .f32 → Vec F S4096x64 .f32 → Vec F S64x64 .f32 → Vec F S64x64 .f32 → Vec F S1x64 .f32 → Vec F S64x1 .f32 → Vec F S4096x64 .f32)
    (hP : ∀ x0 x1 x2 x3 x4 x5 x6 x7, out0_10 x0 x1 x2 x3 x4 x5 x6 x7 = P x0 x1 x2 x3 x4 x5 x6 x7) (c : Dev nD) (t : Fin cfg0.N) :
    (dat0 V c).flushed 10 t = ((cfg0.win 10).blk t).view.read (Elt F) (P (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) :=
  calc (dat0 V c).flushed 10 t = (dat0 V c).after 10 t := cut0_10 t _
    _ = out0_10 (iblk0 V c 0 t) (iblk0 V c 1 t) (iblk0 V c 2 t) (iblk0 V c 3 t) (iblk0 V c 4 t) (iblk0 V c 5 t) (iblk0 V c 6 t) (iblk0 V c 7 t) := after0_10 V c t
    _ = out0_10 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) := by rw [iblk0_0, iblk0_1, iblk0_2, iblk0_3, iblk0_4, iblk0_5, iblk0_6, iblk0_7]
    _ = P (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) := hP ..
    _ = _ := (read_blk0_10 t _).symm

set_option maxHeartbeats 2000000 in
/-- What the point writes back to window 10's array is the payload of the input arrays, read through the block. -/
theorem flushed0_10 (c : Dev nD) (t : Fin cfg0.N) :
    (dat0 V c).flushed 10 t = ((cfg0.win 10).blk t).view.read (Elt F) (k0_pay3 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) :=
  flushed0_10_of V k0_pay3 out0_10_eq c t

set_option maxHeartbeats 2000000 in
/-- Window 10's array after the run: the payload of the input arrays as the region finds them. -/
theorem arrAt0_10 (c : Dev nD) : (dat0 V c).arrAt 10 cfg0.N = k0_pay3 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) :=
  (dat0 V c).arrAt_eq_of_cover 10 _ (fun t _ => flushed0_10 V c t) fun i => ⟨t0_0, flush0_10 _, mem_blk0_10 _ i⟩

end Regions

end Cert.KernelIdeal.Hand

end
-- ==== Proof.LibDotNT.lean ====
/-
  A matrix product that contracts the SECOND axis of both operands, read at a row and a column.

  Dimension numbers of a product of an [M, K] array l and an [N, K] array r that contract the left operand's axis 1
  against the right operand's axis 1, keep the left operand's axis 0 and the right operand's axis 0 as the result's two
  axes in that order, and have no batch axis: the contraction shape has the one axis of extent K, at a result index
  (p, c) and a contraction position a the left operand is read at (p, a) and the right operand at (c, a), and so the
  product into a zero accumulator is, at (p, c), the sum over a < K of l(p, a) · r(c, a) — l times the transpose of r,
  with no transpose written.
-/
import Idealize.ShloMosaic.PureOps.Ideal.Laws
import Idealize.ShloMosaic.Lib.ValueIdx

noncomputable section

namespace Cert.LibDotNT

open Idealize.ShloMosaic Idealize.ShloMosaic.ValueIdx

variable {M K N : Nat} (d : DotDims ⟨2, ![M, K]⟩ ⟨2, ![N, K]⟩ ⟨2, ![M, N]⟩)

/-- The six lists of dimension numbers that contract axis 1 of both operands. -/
structure RowsByRows : Prop where
  lc : d.lhsContracting = [1]
  rc : d.rhsContracting = [1]
  ln : d.lhsNonContracting = [0]
  rn : d.rhsNonContracting = [0]
  lb : d.lhsBatch = []
  rb : d.rhsBatch = []

variable {d}

/-- One contracted axis. -/
theorem RowsByRows.rank (h : RowsByRows d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem RowsByRows.lhs0 (h : RowsByRows d) (i : (⟨2, ![M, N]⟩ : Shape).Idx) (q : d.contr.Idx) :
    (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem RowsByRows.lhs1 (h : RowsByRows d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the result's column. -/
theorem RowsByRows.rhs0 (h : RowsByRows d) (i : (⟨2, ![M, N]⟩ : Shape).Idx) (q : d.contr.Idx) :
    (d.rhsIdx i q 0).val = (i 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The right operand's column is the contraction position. -/
theorem RowsByRows.rhs1 (h : RowsByRows d) (i : (⟨2, ![M, N]⟩ : Shape).Idx) (q : d.contr.Idx) :
    (d.rhsIdx i q 1).val = (q ⟨0, by rw [h.rank]; exact Nat.one_pos⟩).val :=
  d.rhsIdx_val_of_single h.rc i q

/-- The contracted axis has the operands' shared extent. -/
theorem RowsByRows.size (h : RowsByRows d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

/-- The product into the zero accumulator at (p, c): the sum over the shared axis of l(p, a) · r(c, a). -/
theorem RowsByRows.matmul_zero_ix2 (h : RowsByRows d) {φ₁ φ₂ : FTy} (prec : Option ContractPrecision)
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ a : Fin K, l (ix2 p a) * r (ix2 c a) := by
  show FloatOps.matmul d prec l r (constant ⟨2, ![M, N]⟩ .f32 0x00000000#32) (ix2 p c) = _
  rw [Ideal.matmul_constant_zero_apply, ← Equiv.sum_comp (contrEquiv1 d K h.rank h.size).symm]
  refine Finset.sum_congr rfl fun a _ => ?_
  have hk := contrEquiv1_symm_val d K h.rank h.size a
  have el : d.lhsIdx (ix2 p c) ((contrEquiv1 d K h.rank h.size).symm a) = ix2 p a := funext fun x => Fin.ext (by
    match x with
    | ⟨0, _⟩ => exact h.lhs0 _ _
    | ⟨1, _⟩ => exact (h.lhs1 _ _).trans hk)
  have er : d.rhsIdx (ix2 p c) ((contrEquiv1 d K h.rank h.size).symm a) = ix2 c a := funext fun x => Fin.ext (by
    match x with
    | ⟨0, _⟩ => exact h.rhs0 _ _
    | ⟨1, _⟩ => exact (h.rhs1 _ _).trans hk)
  rw [el, er]

end Cert.LibDotNT

end
-- ==== Proof.KI.Decode.lean ====
/-
  The decode body at the ideal values, read at a row and a column.

  The body forms x · Wᵀ + (the bias row broadcast down the rows): a product contracting axis 1 of both operands into a
  zero accumulator, plus a broadcast of a [1, 1024] row. At the extended reals entry (p, q) of the [4096, 1024] result
  is the sum over k < 64 of x(p, k) · W(q, k), plus bias(0, q): it reads row q of W and column q of the bias row and
  nothing else of either.

  Also: a block filled out past its moved part reads, at a moved index, the filling-in and not the filler.
-/
import proofs.«151948_j17755394802209_2_alg».proof.Proof.Gen.KernelIdeal.Skeleton
import proofs.«151948_j17755394802209_2_alg».proof.Proof.LibDotNT
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem

/-- The zero offsets of a rank-2 access, as the constant function. -/
theorem hz2 : (![0, 0] : Fin 2 → Nat) = fun _ => 0 := funext fun a => by fin_cases a <;> rfl

/-- At an index the transfer moves, a filled-out block does not read its filler. -/
theorem fill_eq_of_moved {sig : RefSig} {G : Pipeline.Grid} (w : Pipeline.Window sig G) {α : Type} (i : G.Coords)
    (d d' : w.block.Idx → α) (g : (w.xblock i).Idx → α) {j : w.block.Idx} (h : w.moved i j = true) :
    w.fill i d g j = w.fill i d' g j := by
  unfold Pipeline.Window.fill; rw [dif_pos h, dif_pos h]

/-- The dimension numbers of the body's product contract axis 1 of both operands. -/
theorem dot_rows : Cert.LibDotNT.RowsByRows dot_S4096x64_S1024x64_S4096x1024_1_1_0_0_n_n :=
  ⟨rfl, rfl, rfl, rfl, rfl, rfl⟩

/-- The decode body's block at (p, q): Σ_k x(p, k) · W(q, k) + bias(0, q). -/
theorem k1_pay1_apply (x : Vec Ideal S4096x64 .f32) (W : Vec Ideal S1024x64 .f32) (b : Vec Ideal S1x1024 .f32)
    (p : Fin 4096) (q : Fin 1024) :
    k1_pay1 (F := Ideal) x W b (ix2 p q) = (∑ k : Fin 64, x (ix2 p k) * W (ix2 q k)) + b (ix2 0 q) := by
  show addf (F := Ideal) (matmul (F := Ideal) dot_S4096x64_S1024x64_S4096x1024_1_1_0_0_n_n (some .fp32) (shapeCast S4096x64 x shapeCasts_S4096x64_S4096x64) W
        (constant S4096x1024 .f32 0x00000000#32))
      (broadcastTo S4096x1024 (shapeCast S1x1024 b shapeCasts_S1x1024_S1x1024) broadcasts_S1x1024_S4096x1024) (ix2 p q) = _
  rw [addf_apply, shapeCast_self, shapeCast_self, dot_rows.matmul_zero_ix2,
    broadcastTo_apply b broadcasts_S1x1024_S4096x1024 (ix2 p q) (ix2 0 q) (fun a => by
      match a with
      | ⟨0, _⟩ => rfl
      | ⟨1, _⟩ => rfl)]

/-- The second decode body is the same function. -/
theorem k2_pay1_apply (x : Vec Ideal S4096x64 .f32) (W : Vec Ideal S1024x64 .f32) (b : Vec Ideal S1x1024 .f32)
    (p : Fin 4096) (q : Fin 1024) :
    k2_pay1 (F := Ideal) x W b (ix2 p q) = (∑ k : Fin 64, x (ix2 p k) * W (ix2 q k)) + b (ix2 0 q) :=
  k1_pay1_apply x W b p q

end Cert.KernelIdeal.Hand

end
-- ==== Proof.KI.Region1.lean ====
/-
  The decode region 1 at the ideal values: its proof data and the body obligation, stated on the part of each block
  inside its array.

  The pipeline runs over the column blocks of 1024: at each point the x block is the whole x, the W block is 1024 rows
  of W, the bias block is 1024 columns of the bias row, and the body leaves in the output block x · Wbᵀ + bias-row. The
  last block of W, of the bias row and of the output overhangs its array; what the staging buffers hold past the array's
  end is not named, and the part of the output block inside the array does not read it: entry (p, q) of the block reads
  row q of the W block and column q of the bias block only.
-/
import proofs.«151948_j17755394802209_2_alg».proof.Proof.Gen.KernelIdeal.Launch
import proofs.«151948_j17755394802209_2_alg».proof.Proof.Gen.KernelIdeal.Skeleton
import proofs.«151948_j17755394802209_2_alg».proof.Proof.Gen.KernelIdeal.Points
import proofs.«151948_j17755394802209_2_alg».proof.Proof.KI.Decode
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

section Region
variable (V : (c : Dev nD) → (b : Ref sig .tc) → Buf (Elt Ideal) ((c : Thread nD τ).loc b))

/-! ## The windows' blocks -/

/-- Window `w`'s block at point `t`, read off its array as the region finds it: the part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The x window's staging buffer holds the whole x at every point, fetched there or not. -/
theorem before1_0_of {c : Dev nD} (dat : Dat τ (Elt Ideal) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole staging buffer -/

abbrev r1_0 : Rect S4096x64 := Rect.unit (s := S4096x64) ![0, 0] S4096x64.size inb_S4096x64_S4096x64_0_0
abbrev r1_1 : Rect S1024x64 := Rect.unit (s := S1024x64) ![0, 0] S1024x64.size inb_S1024x64_S1024x64_0_0
abbrev r1_2 : Rect S1x1024 := Rect.unit (s := S1x1024) ![0, 0] S1x1024.size inb_S1x1024_S1x1024_0_0
abbrev r1_3 : Rect S4096x1024 := Rect.unit (s := S4096x1024) ![0, 0] S4096x1024.size inb_S4096x1024_S4096x1024_0_0

/-- The output staging buffer after the body, from what the three input buffers hold: its one store. -/
def out1_3 (x0 : Vec Ideal S4096x64 .f32) (x1 : Vec Ideal S1024x64 .f32) (x2 : Vec Ideal S1x1024 .f32) : Vec Ideal S4096x1024 .f32 :=
  View.canon [⟨r1_3, k1_pay1 (F := Ideal) (View.ld x0 r1_0) (View.ld x1 r1_1) (View.ld x2 r1_2)⟩]

/-- The store covers the buffer. -/
theorem cover1_3 (p0 : Vec Ideal S4096x1024 .f32) (y : S4096x1024.Idx) :
    ∃ pc ∈ ([⟨r1_3, p0⟩] : List (View.Piece (Elt Ideal) S4096x1024 .f32)), y ∈ pc.1.set :=
  ⟨_, List.mem_singleton_self _, View.mem_set_unit_zero hz2 inb_S4096x1024_S4096x1024_0_0 y⟩

/-- Whole loads read the contents and the whole store leaves the payload. -/
theorem out1_3_eq (x0 : Vec Ideal S4096x64 .f32) (x1 : Vec Ideal S1024x64 .f32) (x2 : Vec Ideal S1x1024 .f32) :
    out1_3 x0 x1 x2 = k1_pay1 (F := Ideal) x0 x1 x2 := by
  unfold out1_3
  rw [View.canon_unit_zero hz2, View.ld_unit_zero hz2, View.ld_unit_zero hz2, View.ld_unit_zero hz2]

/-! ## The body's triple -/

set_option maxHeartbeats 1000000 in
/-- The kernel body on whole staging memrefs, the three inputs' at contents `x0`, `x1`, `x2` and the output's at anything,
    runs to the continuation holding the inputs' as they were and the output's at the payload of the three. -/
theorem sound_kernel1 (c : Dev nD) (E : Set ℕ) (i : grid1.Coords) (arg1 : Memref sig .tc .vmem S4096x64 .f32) (harg1 : arg1.IsWhole)
    (arg2 : Memref sig .tc .vmem S1024x64 .f32) (harg2 : arg2.IsWhole) (arg3 : Memref sig .tc .vmem S1x1024 .f32) (harg3 : arg3.IsWhole)
    (arg4 : Memref sig .tc .vmem S4096x1024 .f32) (harg4 : arg4.IsWhole)
    (x0 : Vec Ideal S4096x64 .f32) (x1 : Vec Ideal S1024x64 .f32) (x2 : Vec Ideal S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 (F := Ideal) x0 x1 x2)) -∗ K ⟨⟩))
      ⊢ wp frame (wpE (defs₀ (F := Ideal)) Variants.none c none) E (cc1__decode_kernel i arg1 harg1 arg2 harg2 arg3 harg3 arg4 harg4) K := by
  rw [← out1_3_eq]
  simp only [cc1__decode_kernel_eq_skeleton]; unfold cc1__decode_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The W block at point `t`, filled out to the staging buffer's shape with zeros past the array's end. -/
def wblk1 (c : Dev nD) (t : Fin cfg1.N) : Vec Ideal S1024x64 .f32 :=
  (cfg1.win 1).fill (cfg1.grid.coords t) (fun _ => (0 : EReal)) (iblk1 V c 1 t)
/-- The bias block at point `t`, filled out likewise. -/
def bblk1 (c : Dev nD) (t : Fin cfg1.N) : Vec Ideal S1x1024 .f32 :=
  (cfg1.win 2).fill (cfg1.grid.coords t) (fun _ => (0 : EReal)) (iblk1 V c 2 t)

/-- The proof data of the pipeline on core `c`: the arrays as the region finds them; after the body at point `t` the x
    buffer at the whole x, the W and bias buffers at their blocks filled out with zeros, the output buffer at the payload
    of the three; the invariant the scoped rest and the generator register, untouched; nothing owed; full shares. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => wblk1 V c t
    | ⟨2, _⟩ => bblk1 V c t
    | ⟨3, _⟩ => k1_pay1 (F := Ideal) (iblk1 V c 0 t) (wblk1 V c t) (bblk1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wblk1 V c t := by dsimp only [dat1]
theorem after1_2 (c : Dev nD) (t : Fin cfg1.N) : (dat1 V c).after 2 t = bblk1 V c t := by dsimp only [dat1]
theorem after1_3 (c : Dev nD) (t : Fin cfg1.N) :
    (dat1 V c).after 3 t = k1_pay1 (F := Ideal) (iblk1 V c 0 t) (wblk1 V c t) (bblk1 V c t) := by dsimp only [dat1]

/-- The x buffer holds the whole x at every point. -/
theorem before1_0 (c : Dev nD) (t : Fin cfg1.N) (d) : (dat1 V c).before 0 t d = iblk1 V c 0 t :=
  before1_0_of V (dat1 V c) (A_eq1 V c 0) (after1_0 V c) t d
/-- The W and bias buffers are fetched at every point: the block on the part inside the array, `d` elsewhere. -/
theorem before1_1 (c : Dev nD) (t : Fin cfg1.N) (d) :
    (dat1 V c).before 1 t d = (cfg1.win 1).fill (cfg1.grid.coords t) d (iblk1 V c 1 t) := by
  unfold Dat.before; rw [if_pos (fetch1_1 t)]; unfold Dat.fetched Dat.blockOf iblk1; rw [A_eq1]
theorem before1_2 (c : Dev nD) (t : Fin cfg1.N) (d) :
    (dat1 V c).before 2 t d = (cfg1.win 2).fill (cfg1.grid.coords t) d (iblk1 V c 2 t) := by
  unfold Dat.before; rw [if_pos (fetch1_2 t)]; unfold Dat.fetched Dat.blockOf iblk1; rw [A_eq1]
/-- The output buffer, written back at every point, holds contents nothing names. -/
theorem before1_3 (c : Dev nD) (t : Fin cfg1.N) (d) : (dat1 V c).before 3 t d = d :=
  (dat1 V c).before_out_reset 3 rfl t (by
    by_cases h : t.val = 0
    · exact .inl h
    · exact .inr ⟨h, flush1_3 _⟩) d

/-! ## The part of the output block inside the array reads the parts of the W and bias blocks inside theirs -/

/-- Entry (p, q) of the payload reads row q of the W buffer and column q of the bias buffer; for (p, q) in the part of
    the output block the write-back moves, those lie in the parts the fetches fill. So that part of the payload does not
    depend on what filled the W and bias buffers out. -/
theorem cut_pay1 (i : grid1.Coords) (x : Vec Ideal S4096x64 .f32) (d1 d1' : Vec Ideal S1024x64 .f32)
    (B1 : ((cfg1.win 1).xblock i).Idx → EReal) (d2 d2' : Vec Ideal S1x1024 .f32) (B2 : ((cfg1.win 2).xblock i).Idx → EReal) :
    (cfg1.win 3).cut i (k1_pay1 (F := Ideal) x ((cfg1.win 1).fill i d1 B1) ((cfg1.win 2).fill i d2 B2))
      = (cfg1.win 3).cut i (k1_pay1 (F := Ideal) x ((cfg1.win 1).fill i d1' B1) ((cfg1.win 2).fill i d2' B2)) := by
  funext j
  have hp : (j 0).val < 4096 := lt_of_lt_of_le (j 0).isLt ((cfg1.win 3).xsize_le i 0)
  have hq : (j 1).val < 1024 := lt_of_lt_of_le (j 1).isLt ((cfg1.win 3).xsize_le i 1)
  have hj : (cfg1.win 3).xinj i j = ix2 (⟨(j 0).val, hp⟩ : Fin 4096) (⟨(j 1).val, hq⟩ : Fin 1024) := funext fun a => by
    match a with
    | ⟨0, _⟩ => rfl
    | ⟨1, _⟩ => rfl
  show k1_pay1 (F := Ideal) x ((cfg1.win 1).fill i d1 B1) ((cfg1.win 2).fill i d2 B2) ((cfg1.win 3).xinj i j)
    = k1_pay1 (F := Ideal) x ((cfg1.win 1).fill i d1' B1) ((cfg1.win 2).fill i d2' B2) ((cfg1.win 3).xinj i j)
  rw [hj, k1_pay1_apply, k1_pay1_apply]
  have h1 : ∀ k : Fin 64, (cfg1.win 1).moved i (ix2 (⟨(j 1).val, hq⟩ : Fin 1024) k) = true := fun k =>
    ((cfg1.win 1).moved_iff i _).mpr fun a => by
      match a with
      | ⟨0, _⟩ => exact (j 1).isLt
      | ⟨1, _⟩ => exact k.isLt
  have h2 : (cfg1.win 2).moved i (ix2 (0 : Fin 1) (⟨(j 1).val, hq⟩ : Fin 1024)) = true :=
    ((cfg1.win 2).moved_iff i _).mpr fun a => by
      match a with
      | ⟨0, _⟩ => exact Nat.one_pos
      | ⟨1, _⟩ => exact (j 1).isLt
  rw [fill_eq_of_moved (cfg1.win 2) i d2 d2' B2 h2]
  refine congrArg (· + _) (Finset.sum_congr rfl fun k _ => ?_)
  rw [fill_eq_of_moved (cfg1.win 1) i d1 d1' B1 (h1 k)]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the x buffer as it was; the W, bias and output buffers stated on the part their transfers move. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ d, owns (c : Thread nD τ) (st1_3 t) fullShare ((cfg1.win 3).fill (cfg1.grid.coords t) d ((cfg1.win 3).cut (cfg1.grid.coords t) ((dat1 V c).after 3 t)))))

/-- The body at any point: the buffers hold the whole x, the W and bias blocks filled out with anything, and anything;
    the body leaves the payload of the three, whose part inside the array is that of the proof data's. -/
theorem sound_body1 (c : Dev nD) (t : Fin cfg1.N) :
    bodyPre1 V c t ⊢ wp frame (wpE (defs₀ (F := Ideal)) Variants.none c none) Set.univ (bodyAt1 (F := Ideal) t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) ((cfg1.win 1).fill (cfg1.grid.coords t) d1 (iblk1 V c 1 t))
    ((cfg1.win 2).fill (cfg1.grid.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have hw : (cfg1.win 1).cut (cfg1.grid.coords t) (wblk1 V c t) = iblk1 V c 1 t := (cfg1.win 1).cut_fill _ _ _
  have hb : (cfg1.win 2).cut (cfg1.grid.coords t) (bblk1 V c t) = iblk1 V c 2 t := (cfg1.win 2).cut_fill _ _ _
  isplitl [H1]
  · iexists d1; rw [hw]; iexact H1
  isplitl [H2]
  · iexists d2; rw [hb]; iexact H2
  · iexists k1_pay1 (F := Ideal) (iblk1 V c 0 t) ((cfg1.win 1).fill (cfg1.grid.coords t) d1 (iblk1 V c 1 t))
      ((cfg1.win 2).fill (cfg1.grid.coords t) d2 (iblk1 V c 2 t))
    have hc : (cfg1.win 3).cut (cfg1.grid.coords t) (k1_pay1 (F := Ideal) (iblk1 V c 0 t) ((cfg1.win 1).fill (cfg1.grid.coords t) d1 (iblk1 V c 1 t))
          ((cfg1.win 2).fill (cfg1.grid.coords t) d2 (iblk1 V c 2 t)))
        = (cfg1.win 3).cut (cfg1.grid.coords t) (k1_pay1 (F := Ideal) (iblk1 V c 0 t) (wblk1 V c t) (bblk1 V c t)) :=
      cut_pay1 (cfg1.grid.coords t) (iblk1 V c 0 t) d1 (fun _ => (0 : EReal)) (iblk1 V c 1 t) d2 (fun _ => (0 : EReal)) (iblk1 V c 2 t)
    rw [(cfg1.win 3).fill_congr_cut (cfg1.grid.coords t) hc]
    iexact H3

/-- The pipeline's body obligation, at every point. -/
theorem body_obligation1 (c : Dev nD) : BodyObligationLoose (dat1 V c) (defs₀ (F := Ideal)) Variants.none () Set.univ := fun t => by
  rw [bigSep_W1, bigSep_W1]
  exact sound_body1 V c t

end Region

end Cert.KernelIdeal.Hand

end
-- ==== Proof.KI.Region2.lean ====
/-
  The decode region 2 at the ideal values: its proof data and the body obligation, stated on the part of each block
  inside its array.

  The pipeline runs over the column blocks of 1024: at each point the x block is the whole x, the W block is 1024 rows
  of W, the bias block is 1024 columns of the bias row, and the body leaves in the output block x · Wbᵀ + bias-row. The
  last block of W, of the bias row and of the output overhangs its array; what the staging buffers hold past the array's
  end is not named, and the part of the output block inside the array does not read it: entry (p, q) of the block reads
  row q of the W block and column q of the bias block only.
-/
import proofs.«151948_j17755394802209_2_alg».proof.Proof.Gen.KernelIdeal.Launch
import proofs.«151948_j17755394802209_2_alg».proof.Proof.Gen.KernelIdeal.Skeleton
import proofs.«151948_j17755394802209_2_alg».proof.Proof.Gen.KernelIdeal.Points
import proofs.«151948_j17755394802209_2_alg».proof.Proof.KI.Decode
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

section Region
variable (V : (c : Dev nD) → (b : Ref sig .tc) → Buf (Elt Ideal) ((c : Thread nD τ).loc b))

/-! ## The windows' blocks -/

/-- Window `w`'s block at point `t`, read off its array as the region finds it: the part inside the array. -/
def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The x window's staging buffer holds the whole x at every point, fetched there or not. -/
theorem before2_0_of {c : Dev nD} (dat : Dat τ (Elt Ideal) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole staging buffer -/

abbrev r2_0 : Rect S4096x64 := Rect.unit (s := S4096x64) ![0, 0] S4096x64.size inb_S4096x64_S4096x64_0_0
abbrev r2_1 : Rect S1024x64 := Rect.unit (s := S1024x64) ![0, 0] S1024x64.size inb_S1024x64_S1024x64_0_0
abbrev r2_2 : Rect S1x1024 := Rect.unit (s := S1x1024) ![0, 0] S1x1024.size inb_S1x1024_S1x1024_0_0
abbrev r2_3 : Rect S4096x1024 := Rect.unit (s := S4096x1024) ![0, 0] S4096x1024.size inb_S4096x1024_S4096x1024_0_0

/-- The output staging buffer after the body, from what the three input buffers hold: its one store. -/
def out2_3 (x0 : Vec Ideal S4096x64 .f32) (x1 : Vec Ideal S1024x64 .f32) (x2 : Vec Ideal S1x1024 .f32) : Vec Ideal S4096x1024 .f32 :=
  View.canon [⟨r2_3, k2_pay1 (F := Ideal) (View.ld x0 r2_0) (View.ld x1 r2_1) (View.ld x2 r2_2)⟩]

/-- The store covers the buffer. -/
theorem cover2_3 (p0 : Vec Ideal S4096x1024 .f32) (y : S4096x1024.Idx) :
    ∃ pc ∈ ([⟨r2_3, p0⟩] : List (View.Piece (Elt Ideal) S4096x1024 .f32)), y ∈ pc.1.set :=
  ⟨_, List.mem_singleton_self _, View.mem_set_unit_zero hz2 inb_S4096x1024_S4096x1024_0_0 y⟩

/-- Whole loads read the contents and the whole store leaves the payload. -/
theorem out2_3_eq (x0 : Vec Ideal S4096x64 .f32) (x1 : Vec Ideal S1024x64 .f32) (x2 : Vec Ideal S1x1024 .f32) :
    out2_3 x0 x1 x2 = k2_pay1 (F := Ideal) x0 x1 x2 := by
  unfold out2_3
  rw [View.canon_unit_zero hz2, View.ld_unit_zero hz2, View.ld_unit_zero hz2, View.ld_unit_zero hz2]

/-! ## The body's triple -/

set_option maxHeartbeats 1000000 in
/-- The kernel body on whole staging memrefs, the three inputs' at contents `x0`, `x1`, `x2` and the output's at anything,
    runs to the continuation holding the inputs' as they were and the output's at the payload of the three. -/
theorem sound_kernel2 (c : Dev nD) (E : Set ℕ) (i : grid2.Coords) (arg1 : Memref sig .tc .vmem S4096x64 .f32) (harg1 : arg1.IsWhole)
    (arg2 : Memref sig .tc .vmem S1024x64 .f32) (harg2 : arg2.IsWhole) (arg3 : Memref sig .tc .vmem S1x1024 .f32) (harg3 : arg3.IsWhole)
    (arg4 : Memref sig .tc .vmem S4096x1024 .f32) (harg4 : arg4.IsWhole)
    (x0 : Vec Ideal S4096x64 .f32) (x1 : Vec Ideal S1024x64 .f32) (x2 : Vec Ideal S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 (F := Ideal) x0 x1 x2)) -∗ K ⟨⟩))
      ⊢ wp frame (wpE (defs₀ (F := Ideal)) Variants.none c none) E (cc2__decode_kernel i arg1 harg1 arg2 harg2 arg3 harg3 arg4 harg4) K := by
  rw [← out2_3_eq]
  simp only [cc2__decode_kernel_eq_skeleton]; unfold cc2__decode_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The W block at point `t`, filled out to the staging buffer's shape with zeros past the array's end. -/
def wblk2 (c : Dev nD) (t : Fin cfg2.N) : Vec Ideal S1024x64 .f32 :=
  (cfg2.win 1).fill (cfg2.grid.coords t) (fun _ => (0 : EReal)) (iblk2 V c 1 t)
/-- The bias block at point `t`, filled out likewise. -/
def bblk2 (c : Dev nD) (t : Fin cfg2.N) : Vec Ideal S1x1024 .f32 :=
  (cfg2.win 2).fill (cfg2.grid.coords t) (fun _ => (0 : EReal)) (iblk2 V c 2 t)

/-- The proof data of the pipeline on core `c`: the arrays as the region finds them; after the body at point `t` the x
    buffer at the whole x, the W and bias buffers at their blocks filled out with zeros, the output buffer at the payload
    of the three; the invariant the scoped rest and the generator register, untouched; nothing owed; full shares. -/
def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => k2_pay1 (F := Ideal) (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = k2_pay1 (F := Ideal) (iblk2 V c 0 t) (wblk2 V c t) (bblk2 V c t) := by dsimp only [dat2]

/-- The x buffer holds the whole x at every point. -/
theorem before2_0 (c : Dev nD) (t : Fin cfg2.N) (d) : (dat2 V c).before 0 t d = iblk2 V c 0 t :=
  before2_0_of V (dat2 V c) (A_eq2 V c 0) (after2_0 V c) t d
/-- The W and bias buffers are fetched at every point: the block on the part inside the array, `d` elsewhere. -/
theorem before2_1 (c : Dev nD) (t : Fin cfg2.N) (d) :
    (dat2 V c).before 1 t d = (cfg2.win 1).fill (cfg2.grid.coords t) d (iblk2 V c 1 t) := by
  unfold Dat.before; rw [if_pos (fetch2_1 t)]; unfold Dat.fetched Dat.blockOf iblk2; rw [A_eq2]
theorem before2_2 (c : Dev nD) (t : Fin cfg2.N) (d) :
    (dat2 V c).before 2 t d = (cfg2.win 2).fill (cfg2.grid.coords t) d (iblk2 V c 2 t) := by
  unfold Dat.before; rw [if_pos (fetch2_2 t)]; unfold Dat.fetched Dat.blockOf iblk2; rw [A_eq2]
/-- The output buffer, written back at every point, holds contents nothing names. -/
theorem before2_3 (c : Dev nD) (t : Fin cfg2.N) (d) : (dat2 V c).before 3 t d = d :=
  (dat2 V c).before_out_reset 3 rfl t (by
    by_cases h : t.val = 0
    · exact .inl h
    · exact .inr ⟨h, flush2_3 _⟩) d

/-! ## The part of the output block inside the array reads the parts of the W and bias blocks inside theirs -/

/-- Entry (p, q) of the payload reads row q of the W buffer and column q of the bias buffer; for (p, q) in the part of
    the output block the write-back moves, those lie in the parts the fetches fill. So that part of the payload does not
    depend on what filled the W and bias buffers out. -/
theorem cut_pay2 (i : grid2.Coords) (x : Vec Ideal S4096x64 .f32) (d1 d1' : Vec Ideal S1024x64 .f32)
    (B1 : ((cfg2.win 1).xblock i).Idx → EReal) (d2 d2' : Vec Ideal S1x1024 .f32) (B2 : ((cfg2.win 2).xblock i).Idx → EReal) :
    (cfg2.win 3).cut i (k2_pay1 (F := Ideal) x ((cfg2.win 1).fill i d1 B1) ((cfg2.win 2).fill i d2 B2))
      = (cfg2.win 3).cut i (k2_pay1 (F := Ideal) x ((cfg2.win 1).fill i d1' B1) ((cfg2.win 2).fill i d2' B2)) := by
  funext j
  have hp : (j 0).val < 4096 := lt_of_lt_of_le (j 0).isLt ((cfg2.win 3).xsize_le i 0)
  have hq : (j 1).val < 1024 := lt_of_lt_of_le (j 1).isLt ((cfg2.win 3).xsize_le i 1)
  have hj : (cfg2.win 3).xinj i j = ix2 (⟨(j 0).val, hp⟩ : Fin 4096) (⟨(j 1).val, hq⟩ : Fin 1024) := funext fun a => by
    match a with
    | ⟨0, _⟩ => rfl
    | ⟨1, _⟩ => rfl
  show k2_pay1 (F := Ideal) x ((cfg2.win 1).fill i d1 B1) ((cfg2.win 2).fill i d2 B2) ((cfg2.win 3).xinj i j)
    = k2_pay1 (F := Ideal) x ((cfg2.win 1).fill i d1' B1) ((cfg2.win 2).fill i d2' B2) ((cfg2.win 3).xinj i j)
  rw [hj, k2_pay1_apply, k2_pay1_apply]
  have h1 : ∀ k : Fin 64, (cfg2.win 1).moved i (ix2 (⟨(j 1).val, hq⟩ : Fin 1024) k) = true := fun k =>
    ((cfg2.win 1).moved_iff i _).mpr fun a => by
      match a with
      | ⟨0, _⟩ => exact (j 1).isLt
      | ⟨1, _⟩ => exact k.isLt
  have h2 : (cfg2.win 2).moved i (ix2 (0 : Fin 1) (⟨(j 1).val, hq⟩ : Fin 1024)) = true :=
    ((cfg2.win 2).moved_iff i _).mpr fun a => by
      match a with
      | ⟨0, _⟩ => exact Nat.one_pos
      | ⟨1, _⟩ => exact (j 1).isLt
  rw [fill_eq_of_moved (cfg2.win 2) i d2 d2' B2 h2]
  refine congrArg (· + _) (Finset.sum_congr rfl fun k _ => ?_)
  rw [fill_eq_of_moved (cfg2.win 1) i d1 d1' B1 (h1 k)]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the x buffer as it was; the W, bias and output buffers stated on the part their transfers move. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ d, owns (c : Thread nD τ) (st2_3 t) fullShare ((cfg2.win 3).fill (cfg2.grid.coords t) d ((cfg2.win 3).cut (cfg2.grid.coords t) ((dat2 V c).after 3 t)))))

/-- The body at any point: the buffers hold the whole x, the W and bias blocks filled out with anything, and anything;
    the body leaves the payload of the three, whose part inside the array is that of the proof data's. -/
theorem sound_body2 (c : Dev nD) (t : Fin cfg2.N) :
    bodyPre2 V c t ⊢ wp frame (wpE (defs₀ (F := Ideal)) Variants.none c none) Set.univ (bodyAt2 (F := Ideal) t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) ((cfg2.win 1).fill (cfg2.grid.coords t) d1 (iblk2 V c 1 t))
    ((cfg2.win 2).fill (cfg2.grid.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have hw : (cfg2.win 1).cut (cfg2.grid.coords t) (wblk2 V c t) = iblk2 V c 1 t := (cfg2.win 1).cut_fill _ _ _
  have hb : (cfg2.win 2).cut (cfg2.grid.coords t) (bblk2 V c t) = iblk2 V c 2 t := (cfg2.win 2).cut_fill _ _ _
  isplitl [H1]
  · iexists d1; rw [hw]; iexact H1
  isplitl [H2]
  · iexists d2; rw [hb]; iexact H2
  · iexists k2_pay1 (F := Ideal) (iblk2 V c 0 t) ((cfg2.win 1).fill (cfg2.grid.coords t) d1 (iblk2 V c 1 t))
      ((cfg2.win 2).fill (cfg2.grid.coords t) d2 (iblk2 V c 2 t))
    have hc : (cfg2.win 3).cut (cfg2.grid.coords t) (k2_pay1 (F := Ideal) (iblk2 V c 0 t) ((cfg2.win 1).fill (cfg2.grid.coords t) d1 (iblk2 V c 1 t))
          ((cfg2.win 2).fill (cfg2.grid.coords t) d2 (iblk2 V c 2 t)))
        = (cfg2.win 3).cut (cfg2.grid.coords t) (k2_pay1 (F := Ideal) (iblk2 V c 0 t) (wblk2 V c t) (bblk2 V c t)) :=
      cut_pay2 (cfg2.grid.coords t) (iblk2 V c 0 t) d1 (fun _ => (0 : EReal)) (iblk2 V c 1 t) d2 (fun _ => (0 : EReal)) (iblk2 V c 2 t)
    rw [(cfg2.win 3).fill_congr_cut (cfg2.grid.coords t) hc]
    iexact H3

/-- The pipeline's body obligation, at every point. -/
theorem body_obligation2 (c : Dev nD) : BodyObligationLoose (dat2 V c) (defs₀ (F := Ideal)) Variants.none () Set.univ := fun t => by
  rw [bigSep_W2, bigSep_W2]
  exact sound_body2 V c t

end Region

end Cert.KernelIdeal.Hand

end
-- ==== Proof.KI.Run.lean ====
import proofs.«151948_j17755394802209_2_alg».proof.Proof.Gen.KernelIdeal.Launch
import proofs.«151948_j17755394802209_2_alg».proof.Proof.Gen.KernelIdeal.Skeleton
import proofs.«151948_j17755394802209_2_alg».proof.Proof.Gen.KernelIdeal.Points
import proofs.«151948_j17755394802209_2_alg».proof.Proof.KI.Region0
import proofs.«151948_j17755394802209_2_alg».proof.Proof.KI.Region1
import proofs.«151948_j17755394802209_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal

/-! The run of @main at the ideal instance: the buffer contents at every segment boundary as a fold from the launch
    memory, the three pipelines' proof data at their regions' entry contents, @main as seven segments (two host
    stretches, region 0, a reshape, region 1, a reshape, region 2), and the launch over them: every unscoped buffer ends
    at the last boundary's contents. Then the fold read back at the arguments and at the results. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! # The buffer contents at each segment boundary: a fold through @main -/

/-- Core `c`'s buffers at launch. -/
abbrev W0 : Dev nD → Valuation τ sig (Elt Ideal) := fun c b => (s₀ m ρ).mem ((c : Dev nD), b)
/-- After the first 60 host operations. -/
abbrev W1 : Dev nD → Valuation τ sig (Elt Ideal) := fun c => StableHlo.after main_part0_ops0 (W0 m ρ c)
/-- After the next 26 host operations (region 0's entry). -/
abbrev W2 : Dev nD → Valuation τ sig (Elt Ideal) := fun c => StableHlo.after main_part1_ops0 (W1 m ρ c)
/-- The same read at the TensorCore's references (what region 0's proof data take). -/
abbrev V2 : (c : Dev nD) → (b : Ref sig .tc) → Buf (Elt Ideal) ((c : Thread nD τ).loc b) := fun c b => W2 m ρ c b
/-- At region 0's exit: its arrays at what the pipeline leaves, every other buffer as entered. -/
def W3 (c : Dev nD) : Valuation τ sig (Elt Ideal) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt Ideal) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the reshape before region 1 (region 1's entry). -/
abbrev W4 : Dev nD → Valuation τ sig (Elt Ideal) := fun c => StableHlo.after main_part1_ops1 (W3 m ρ c)
abbrev V4 : (c : Dev nD) → (b : Ref sig .tc) → Buf (Elt Ideal) ((c : Thread nD τ).loc b) := fun c b => W4 m ρ c b
/-- At region 1's exit. -/
def W5 (c : Dev nD) : Valuation τ sig (Elt Ideal) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt Ideal) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the reshape before region 2 (region 2's entry). -/
abbrev W6 : Dev nD → Valuation τ sig (Elt Ideal) := fun c => StableHlo.after main_part1_ops2 (W5 m ρ c)
abbrev V6 : (c : Dev nD) → (b : Ref sig .tc) → Buf (Elt Ideal) ((c : Thread nD τ).loc b) := fun c b => W6 m ρ c b
/-- At region 2's exit: what the launch reads at the end. -/
def W7 (c : Dev nD) : Valuation τ sig (Elt Ideal) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt Ideal) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! # The proof data family and the thread state -/

/-- The prefetched tables' admissible contents: no pipeline has a table. -/
abbrev adm : (p : Fin 3) → (pcfgs (F := Ideal) p).Adm := fun p => (cfgs p).toPCfg_adm
/-- Every pipeline's proof data, each at its region's entry contents. -/
def pdats : (p : Fin 3) → (c : Dev nD) → Dat τ (Elt Ideal) Unit ℕ (UR sig nD τ) ℕ (Pipeline.pin (pcfgs (F := Ideal)) adm p) c
  | ⟨0, _⟩ => fun c => dat0 (V2 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    tallies at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretches allocates a buffer. -/
theorem main_part0_ops0_fresh : (main_part0_ops0 : List (HloOp τ sig (Elt Ideal))).Forall fun op => op.fresh = ∅ := by
  simp only [List.Forall]; repeat' constructor
theorem main_part1_ops0_fresh : (main_part1_ops0 : List (HloOp τ sig (Elt Ideal))).Forall fun op => op.fresh = ∅ := by
  simp only [List.Forall]; repeat' constructor
theorem main_part1_ops1_fresh : (main_part1_ops1 : List (HloOp τ sig (Elt Ideal))).Forall fun op => op.fresh = ∅ := by
  simp only [List.Forall]; repeat' constructor
theorem main_part1_ops2_fresh : (main_part1_ops2 : List (HloOp τ sig (Elt Ideal))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! # The regions as segments -/

set_option backward.isDefEq.respectTransparency.types false in
/-- Region 0 over the thread state: entered from every unscoped buffer at `W2`, left at `W3`. Its arrays
    split out of the unscoped buffers and put back at the exit contents; the generator register into the invariant
    and out; nothing owed; no semaphore of the kernel's own. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays
    split out of the unscoped buffers and put back at the exit contents; the generator register into the invariant
    and out; nothing owed; no semaphore of the kernel's own. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V4 m ρ) c
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays
    split out of the unscoped buffers and put back at the exit contents; the generator register into the invariant
    and out; nothing owed; no semaphore of the kernel's own. -/
def reg2 : Pipeline.RegionSeg (pcfgs (F := Ideal)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V6 m ρ) c
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := Ideal)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 7 segments in order. -/
abbrev segs : List (Pipeline.Seg (pcfgs (F := Ideal)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .region (reg0 m ρ),
    .host (hseg main_part1_ops1 main_part1_ops1_sub main_part1_ops1_fresh (W3 m ρ)),
    .region (reg1 m ρ),
    .host (hseg main_part1_ops2 main_part1_ops2_sub main_part1_ops2_fresh (W5 m ρ)),
    .region (reg2 m ρ) ]
/-- @main is the run of the segments. -/
theorem main_run (c : Dev nD) : main (F := Ideal) c = Pipeline.Seg.run (segs m ρ) := (main_chain_windows c).trans (by chain_rfl)

set_option backward.isDefEq.respectTransparency.types false in
/-- The run: at the compiled mesh, from any memory with zero counters, every weakly fair execution of @main on the
    TensorCores terminates, nothing faulting, and every final state has every unscoped buffer at the last boundary's
    contents `W7`. -/
theorem run_main : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! # The fold read back

No host operation and no region writes an argument; a region reads one through an input window, whose array it
leaves as entered. -/

/-- The buffers the operations of the stretch write, in order. -/
abbrev wr0 : List (Ref sig .tc) := [main_v0, main_c, main_v1, main_v2, main_c_0, main_v3, main_v4, main_v5, main_v6, main_v7, main_v8, main_v9, main_v10, main_cst, main_v11, main_v12, main_v13, main_v14, main_v15, main_v16, main_v17, main_v18, main_v19, main_c_1, main_v20, main_v21, main_c_2, main_v22, main_v23, main_v24, main_v25, main_v26, main_v27, main_v28, main_v29, main_cst_3, main_v30, main_v31, main_v32, main_v33, main_v34, main_v35, main_v36, main_v37, main_c_4, main_v38, main_v39, main_c_5, main_v40, main_v41, main_v42, main_v43, main_v44, main_c_6, main_v45, main_v46, main_c_7, main_v47, main_v48, main_v49]
/-- A buffer the stretch does not write is as before it. -/
theorem W1_of_not_mem (c : Dev nD) (b : Ref sig .tc) (hb : b ∉ wr0) :
    W1 m ρ c (Proc.devRef .tc b) = W0 m ρ c (Proc.devRef .tc b) := by
  refine StableHlo.after_of_forall_not_mem (b := Proc.devRef .tc b) _ _ (List.forall_iff_forall_mem.mp ?_)
  simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

/-- The buffers the operations of the stretch write, in order. -/
abbrev wr1 : List (Ref sig .tc) := [main_v50, main_v51, main_c_8, main_v52, main_v53, main_c_9, main_v54, main_v55, main_v56, main_v57, main_v58, main_c_10, main_v59, main_v60, main_c_11, main_v61, main_v62, main_v63, main_v64, main_v65, main_v66, main_v67, main_v68, main_v69, main_v70, main_v71]
/-- A buffer the stretch does not write is as before it. -/
theorem W2_of_not_mem (c : Dev nD) (b : Ref sig .tc) (hb : b ∉ wr1) :
    W2 m ρ c (Proc.devRef .tc b) = W1 m ρ c (Proc.devRef .tc b) := by
  refine StableHlo.after_of_forall_not_mem (b := Proc.devRef .tc b) _ _ (List.forall_iff_forall_mem.mp ?_)
  simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

/-- The buffers the operations of the stretch write, in order. -/
abbrev wr2 : List (Ref sig .tc) := [main_v73]
/-- A buffer the stretch does not write is as before it. -/
theorem W4_of_not_mem (c : Dev nD) (b : Ref sig .tc) (hb : b ∉ wr2) :
    W4 m ρ c (Proc.devRef .tc b) = W3 m ρ c (Proc.devRef .tc b) := by
  refine StableHlo.after_of_forall_not_mem (b := Proc.devRef .tc b) _ _ (List.forall_iff_forall_mem.mp ?_)
  simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

/-- The buffers the operations of the stretch write, in order. -/
abbrev wr3 : List (Ref sig .tc) := [main_v75]
/-- A buffer the stretch does not write is as before it. -/
theorem W6_of_not_mem (c : Dev nD) (b : Ref sig .tc) (hb : b ∉ wr3) :
    W6 m ρ c (Proc.devRef .tc b) = W5 m ρ c (Proc.devRef .tc b) := by
  refine StableHlo.after_of_forall_not_mem (b := Proc.devRef .tc b) _ _ (List.forall_iff_forall_mem.mp ?_)
  simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (apply StableHlo.devRef_ne_of_ne; intro e; subst e; exact hb (by decide))

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_not_mem m ρ c main_arg0 (by decide)
    _ = W4 m ρ c (Proc.devRef .tc main_arg0) := W5_of_ne m ρ c main_arg0 (by decide)
    _ = W3 m ρ c (Proc.devRef .tc main_arg0) := W4_of_not_mem m ρ c main_arg0 (by decide)
    _ = W2 m ρ c (Proc.devRef .tc main_arg0) := W3_of_ne m ρ c main_arg0 (by decide)
    _ = W1 m ρ c (Proc.devRef .tc main_arg0) := W2_of_not_mem m ρ c main_arg0 (by decide)
    _ = W0 m ρ c (Proc.devRef .tc main_arg0) := W1_of_not_mem m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_not_mem m ρ c main_arg1 (by decide)
    _ = W4 m ρ c (Proc.devRef .tc main_arg1) := W5_of_ne m ρ c main_arg1 (by decide)
    _ = W3 m ρ c (Proc.devRef .tc main_arg1) := W4_of_not_mem m ρ c main_arg1 (by decide)
    _ = W2 m ρ c (Proc.devRef .tc main_arg1) := W3_of_ne m ρ c main_arg1 (by decide)
    _ = W1 m ρ c (Proc.devRef .tc main_arg1) := W2_of_not_mem m ρ c main_arg1 (by decide)
    _ = W0 m ρ c (Proc.devRef .tc main_arg1) := W1_of_not_mem m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_not_mem m ρ c main_arg2 (by decide)
    _ = W4 m ρ c (Proc.devRef .tc main_arg2) := W5_of_ne m ρ c main_arg2 (by decide)
    _ = W3 m ρ c (Proc.devRef .tc main_arg2) := W4_of_not_mem m ρ c main_arg2 (by decide)
    _ = W2 m ρ c (Proc.devRef .tc main_arg2) := W3_of_ne m ρ c main_arg2 (by decide)
    _ = W1 m ρ c (Proc.devRef .tc main_arg2) := W2_of_not_mem m ρ c main_arg2 (by decide)
    _ = W0 m ρ c (Proc.devRef .tc main_arg2) := W1_of_not_mem m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_not_mem m ρ c main_arg3 (by decide)
    _ = W4 m ρ c (Proc.devRef .tc main_arg3) := W5_of_ne m ρ c main_arg3 (by decide)
    _ = W3 m ρ c (Proc.devRef .tc main_arg3) := W4_of_not_mem m ρ c main_arg3 (by decide)
    _ = W2 m ρ c (Proc.devRef .tc main_arg3) := W3_of_ne m ρ c main_arg3 (by decide)
    _ = W1 m ρ c (Proc.devRef .tc main_arg3) := W2_of_not_mem m ρ c main_arg3 (by decide)
    _ = W0 m ρ c (Proc.devRef .tc main_arg3) := W1_of_not_mem m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_not_mem m ρ c main_arg4 (by decide)
    _ = W4 m ρ c (Proc.devRef .tc main_arg4) := W5_of_ne m ρ c main_arg4 (by decide)
    _ = W3 m ρ c (Proc.devRef .tc main_arg4) := W4_of_not_mem m ρ c main_arg4 (by decide)
    _ = W2 m ρ c (Proc.devRef .tc main_arg4) := W3_of_ne m ρ c main_arg4 (by decide)
    _ = W1 m ρ c (Proc.devRef .tc main_arg4) := W2_of_not_mem m ρ c main_arg4 (by decide)
    _ = W0 m ρ c (Proc.devRef .tc main_arg4) := W1_of_not_mem m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_not_mem m ρ c main_arg5 (by decide)
    _ = W4 m ρ c (Proc.devRef .tc main_arg5) := W5_of_ne m ρ c main_arg5 (by decide)
    _ = W3 m ρ c (Proc.devRef .tc main_arg5) := W4_of_not_mem m ρ c main_arg5 (by decide)
    _ = W2 m ρ c (Proc.devRef .tc main_arg5) := W3_of_ne m ρ c main_arg5 (by decide)
    _ = W1 m ρ c (Proc.devRef .tc main_arg5) := W2_of_not_mem m ρ c main_arg5 (by decide)
    _ = W0 m ρ c (Proc.devRef .tc main_arg5) := W1_of_not_mem m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_not_mem m ρ c main_arg6 (by decide)
    _ = W4 m ρ c (Proc.devRef .tc main_arg6) := W5_of_ne m ρ c main_arg6 (by decide)
    _ = W3 m ρ c (Proc.devRef .tc main_arg6) := W4_of_not_mem m ρ c main_arg6 (by decide)
    _ = W2 m ρ c (Proc.devRef .tc main_arg6) := W3_of_ne m ρ c main_arg6 (by decide)
    _ = W1 m ρ c (Proc.devRef .tc main_arg6) := W2_of_not_mem m ρ c main_arg6 (by decide)
    _ = W0 m ρ c (Proc.devRef .tc main_arg6) := W1_of_not_mem m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_not_mem m ρ c main_arg7 (by decide)
    _ = W4 m ρ c (Proc.devRef .tc main_arg7) := W5_of_ne m ρ c main_arg7 (by decide)
    _ = W3 m ρ c (Proc.devRef .tc main_arg7) := W4_of_not_mem m ρ c main_arg7 (by decide)
    _ = W2 m ρ c (Proc.devRef .tc main_arg7) := W3_of_ne m ρ c main_arg7 (by decide)
    _ = W1 m ρ c (Proc.devRef .tc main_arg7) := W2_of_not_mem m ρ c main_arg7 (by decide)
    _ = W0 m ρ c (Proc.devRef .tc main_arg7) := W1_of_not_mem m ρ c main_arg7 (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_not_mem m ρ c main_arg8 (by decide)
    _ = W4 m ρ c (Proc.devRef .tc main_arg8) := W5_of_ne m ρ c main_arg8 (by decide)
    _ = W3 m ρ c (Proc.devRef .tc main_arg8) := W4_of_not_mem m ρ c main_arg8 (by decide)
    _ = W2 m ρ c (Proc.devRef .tc main_arg8) := W3_of_ne m ρ c main_arg8 (by decide)
    _ = W1 m ρ c (Proc.devRef .tc main_arg8) := W2_of_not_mem m ρ c main_arg8 (by decide)
    _ = W0 m ρ c (Proc.devRef .tc main_arg8) := W1_of_not_mem m ρ c main_arg8 (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of_not_mem m ρ c main_arg9 (by decide)
    _ = W4 m ρ c (Proc.devRef .tc main_arg9) := W5_of_ne m ρ c main_arg9 (by decide)
    _ = W3 m ρ c (Proc.devRef .tc main_arg9) := W4_of_not_mem m ρ c main_arg9 (by decide)
    _ = W2 m ρ c (Proc.devRef .tc main_arg9) := W3_of_ne m ρ c main_arg9 (by decide)
    _ = W1 m ρ c (Proc.devRef .tc main_arg9) := W2_of_not_mem m ρ c main_arg9 (by decide)
    _ = W0 m ρ c (Proc.devRef .tc main_arg9) := W1_of_not_mem m ρ c main_arg9 (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of_not_mem m ρ c main_arg10 (by decide)
    _ = W4 m ρ c (Proc.devRef .tc main_arg10) := W5_of_ne m ρ c main_arg10 (by decide)
    _ = W3 m ρ c (Proc.devRef .tc main_arg10) := W4_of_not_mem m ρ c main_arg10 (by decide)
    _ = W2 m ρ c (Proc.devRef .tc main_arg10) := W3_of_ne m ρ c main_arg10 (by decide)
    _ = W1 m ρ c (Proc.devRef .tc main_arg10) := W2_of_not_mem m ρ c main_arg10 (by decide)
    _ = W0 m ρ c (Proc.devRef .tc main_arg10) := W1_of_not_mem m ρ c main_arg10 (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = W5 m ρ c (Proc.devRef .tc main_arg11) := W6_of_not_mem m ρ c main_arg11 (by decide)
    _ = W4 m ρ c (Proc.devRef .tc main_arg11) := W5_of_ne m ρ c main_arg11 (by decide)
    _ = W3 m ρ c (Proc.devRef .tc main_arg11) := W4_of_not_mem m ρ c main_arg11 (by decide)
    _ = W2 m ρ c (Proc.devRef .tc main_arg11) := W3_of_ne m ρ c main_arg11 (by decide)
    _ = W1 m ρ c (Proc.devRef .tc main_arg11) := W2_of_not_mem m ρ c main_arg11 (by decide)
    _ = W0 m ρ c (Proc.devRef .tc main_arg11) := W1_of_not_mem m ρ c main_arg11 (by decide)
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := W6_of_not_mem m ρ c main_arg12 (by decide)
    _ = W4 m ρ c (Proc.devRef .tc main_arg12) := W5_of_ne m ρ c main_arg12 (by decide)
    _ = W3 m ρ c (Proc.devRef .tc main_arg12) := W4_of_not_mem m ρ c main_arg12 (by decide)
    _ = W2 m ρ c (Proc.devRef .tc main_arg12) := W3_of_ne m ρ c main_arg12 (by decide)
    _ = W1 m ρ c (Proc.devRef .tc main_arg12) := W2_of_not_mem m ρ c main_arg12 (by decide)
    _ = W0 m ρ c (Proc.devRef .tc main_arg12) := W1_of_not_mem m ρ c main_arg12 (by decide)
    _ = m ((c : Thread nD τ).loc main_arg12) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := W6_of_not_mem m ρ c main_arg13 (by decide)
    _ = W4 m ρ c (Proc.devRef .tc main_arg13) := W5_of_ne m ρ c main_arg13 (by decide)
    _ = W3 m ρ c (Proc.devRef .tc main_arg13) := W4_of_not_mem m ρ c main_arg13 (by decide)
    _ = W2 m ρ c (Proc.devRef .tc main_arg13) := W3_of_ne m ρ c main_arg13 (by decide)
    _ = W1 m ρ c (Proc.devRef .tc main_arg13) := W2_of_not_mem m ρ c main_arg13 (by decide)
    _ = W0 m ρ c (Proc.devRef .tc main_arg13) := W1_of_not_mem m ρ c main_arg13 (by decide)
    _ = m ((c : Thread nD τ).loc main_arg13) := rfl

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := W6_of_not_mem m ρ c main_arg14 (by decide)
    _ = W4 m ρ c (Proc.devRef .tc main_arg14) := (W5_arr m ρ c 1).trans (((dat1 (V4 m ρ) c).arrAt_in 1 rfl _).trans (A_eq1 (V4 m ρ) c 1))
    _ = W3 m ρ c (Proc.devRef .tc main_arg14) := W4_of_not_mem m ρ c main_arg14 (by decide)
    _ = W2 m ρ c (Proc.devRef .tc main_arg14) := W3_of_ne m ρ c main_arg14 (by decide)
    _ = W1 m ρ c (Proc.devRef .tc main_arg14) := W2_of_not_mem m ρ c main_arg14 (by decide)
    _ = W0 m ρ c (Proc.devRef .tc main_arg14) := W1_of_not_mem m ρ c main_arg14 (by decide)
    _ = m ((c : Thread nD τ).loc main_arg14) := rfl

theorem W7_main_arg15 (c : Dev nD) : W7 m ρ c (Proc.devRef .tc main_arg15) = m ((c : Thread nD τ).loc main_arg15) :=
  calc W7 m ρ c (Proc.devRef .tc main_arg15)
    _ = W6 m ρ c (Proc.devRef .tc main_arg15) := W7_of_ne m ρ c main_arg15 (by decide)
    _ = W5 m ρ c (Proc.devRef .tc main_arg15) := W6_of_not_mem m ρ c main_arg15 (by decide)
    _ = W4 m ρ c (Proc.devRef .tc main_arg15) := W5_of_ne m ρ c main_arg15 (by decide)
    _ = W3 m ρ c (Proc.devRef .tc main_arg15) := W4_of_not_mem m ρ c main_arg15 (by decide)
    _ = W2 m ρ c (Proc.devRef .tc main_arg15) := W3_of_ne m ρ c main_arg15 (by decide)
    _ = W1 m ρ c (Proc.devRef .tc main_arg15) := W2_of_not_mem m ρ c main_arg15 (by decide)
    _ = W0 m ρ c (Proc.devRef .tc main_arg15) := W1_of_not_mem m ρ c main_arg15 (by decide)
    _ = m ((c : Thread nD τ).loc main_arg15) := rfl

theorem W7_main_arg16 (c : Dev nD) : W7 m ρ c (Proc.devRef .tc main_arg16) = m ((c : Thread nD τ).loc main_arg16) :=
  calc W7 m ρ c (Proc.devRef .tc main_arg16)
    _ = W6 m ρ c (Proc.devRef .tc main_arg16) := (W7_arr m ρ c 1).trans (((dat2 (V6 m ρ) c).arrAt_in 1 rfl _).trans (A_eq2 (V6 m ρ) c 1))
    _ = W5 m ρ c (Proc.devRef .tc main_arg16) := W6_of_not_mem m ρ c main_arg16 (by decide)
    _ = W4 m ρ c (Proc.devRef .tc main_arg16) := W5_of_ne m ρ c main_arg16 (by decide)
    _ = W3 m ρ c (Proc.devRef .tc main_arg16) := W4_of_not_mem m ρ c main_arg16 (by decide)
    _ = W2 m ρ c (Proc.devRef .tc main_arg16) := W3_of_ne m ρ c main_arg16 (by decide)
    _ = W1 m ρ c (Proc.devRef .tc main_arg16) := W2_of_not_mem m ρ c main_arg16 (by decide)
    _ = W0 m ρ c (Proc.devRef .tc main_arg16) := W1_of_not_mem m ρ c main_arg16 (by decide)
    _ = m ((c : Thread nD τ).loc main_arg16) := rfl

theorem W7_main_arg17 (c : Dev nD) : W7 m ρ c (Proc.devRef .tc main_arg17) = m ((c : Thread nD τ).loc main_arg17) :=
  calc W7 m ρ c (Proc.devRef .tc main_arg17)
    _ = W6 m ρ c (Proc.devRef .tc main_arg17) := W7_of_ne m ρ c main_arg17 (by decide)
    _ = W5 m ρ c (Proc.devRef .tc main_arg17) := W6_of_not_mem m ρ c main_arg17 (by decide)
    _ = W4 m ρ c (Proc.devRef .tc main_arg17) := W5_of_ne m ρ c main_arg17 (by decide)
    _ = W3 m ρ c (Proc.devRef .tc main_arg17) := W4_of_not_mem m ρ c main_arg17 (by decide)
    _ = W2 m ρ c (Proc.devRef .tc main_arg17) := W3_of_ne m ρ c main_arg17 (by decide)
    _ = W1 m ρ c (Proc.devRef .tc main_arg17) := W2_of_not_mem m ρ c main_arg17 (by decide)
    _ = W0 m ρ c (Proc.devRef .tc main_arg17) := W1_of_not_mem m ρ c main_arg17 (by decide)
    _ = m ((c : Thread nD τ).loc main_arg17) := rfl

/-! ## The results -/

/-- Region 2's output array is what its pipeline leaves. -/
theorem W7_main_v76 (c : Dev nD) : W7 m ρ c (Proc.devRef .tc main_v76) = (dat2 (V6 m ρ) c).arrAt 3 cfg2.N :=
  W7_arr m ρ c 3
/-- Region 1's output array is what its pipeline leaves: nothing later writes it. -/
theorem W7_main_v74 (c : Dev nD) : W7 m ρ c (Proc.devRef .tc main_v74) = (dat1 (V4 m ρ) c).arrAt 3 cfg1.N :=
  calc W7 m ρ c (Proc.devRef .tc main_v74)
    _ = W6 m ρ c (Proc.devRef .tc main_v74) := W7_of_ne m ρ c main_v74 (by decide)
    _ = W5 m ρ c (Proc.devRef .tc main_v74) := W6_of_not_mem m ρ c main_v74 (by decide)
    _ = (dat1 (V4 m ρ) c).arrAt 3 cfg1.N := W5_arr m ρ c 3
/-- Region 0's first output: no later segment touches it. -/
theorem W7_main_v72_0 (c : Dev nD) : W7 m ρ c (Proc.devRef .tc main_v72_0) = (dat0 (V2 m ρ) c).arrAt 8 cfg0.N :=
  calc W7 m ρ c (Proc.devRef .tc main_v72_0)
    _ = W6 m ρ c (Proc.devRef .tc main_v72_0) := W7_of_ne m ρ c main_v72_0 (by decide)
    _ = W5 m ρ c (Proc.devRef .tc main_v72_0) := W6_of_not_mem m ρ c main_v72_0 (by decide)
    _ = W4 m ρ c (Proc.devRef .tc main_v72_0) := W5_of_ne m ρ c main_v72_0 (by decide)
    _ = W3 m ρ c (Proc.devRef .tc main_v72_0) := W4_of_not_mem m ρ c main_v72_0 (by decide)
    _ = (dat0 (V2 m ρ) c).arrAt 8 cfg0.N := W3_arr m ρ c 8
/-- Region 0's second output: region 2 reads it through an input window and leaves it as entered. -/
theorem W7_main_v72_1 (c : Dev nD) : W7 m ρ c (Proc.devRef .tc main_v72_1) = (dat0 (V2 m ρ) c).arrAt 9 cfg0.N :=
  calc W7 m ρ c (Proc.devRef .tc main_v72_1)
    _ = W6 m ρ c (Proc.devRef .tc main_v72_1) := (W7_arr m ρ c 0).trans (((dat2 (V6 m ρ) c).arrAt_in 0 rfl _).trans (A_eq2 (V6 m ρ) c 0))
    _ = W5 m ρ c (Proc.devRef .tc main_v72_1) := W6_of_not_mem m ρ c main_v72_1 (by decide)
    _ = W4 m ρ c (Proc.devRef .tc main_v72_1) := W5_of_ne m ρ c main_v72_1 (by decide)
    _ = W3 m ρ c (Proc.devRef .tc main_v72_1) := W4_of_not_mem m ρ c main_v72_1 (by decide)
    _ = (dat0 (V2 m ρ) c).arrAt 9 cfg0.N := W3_arr m ρ c 9

/-- The four host results are written in the first stretch and by nothing later. -/
theorem W7_main_v17 (c : Dev nD) : W7 m ρ c (Proc.devRef .tc main_v17) = W1 m ρ c (Proc.devRef .tc main_v17) :=
  calc W7 m ρ c (Proc.devRef .tc main_v17)
    _ = W6 m ρ c (Proc.devRef .tc main_v17) := W7_of_ne m ρ c main_v17 (by decide)
    _ = W5 m ρ c (Proc.devRef .tc main_v17) := W6_of_not_mem m ρ c main_v17 (by decide)
    _ = W4 m ρ c (Proc.devRef .tc main_v17) := W5_of_ne m ρ c main_v17 (by decide)
    _ = W3 m ρ c (Proc.devRef .tc main_v17) := W4_of_not_mem m ρ c main_v17 (by decide)
    _ = W2 m ρ c (Proc.devRef .tc main_v17) := W3_of_ne m ρ c main_v17 (by decide)
    _ = W1 m ρ c (Proc.devRef .tc main_v17) := W2_of_not_mem m ρ c main_v17 (by decide)

theorem W7_main_v18 (c : Dev nD) : W7 m ρ c (Proc.devRef .tc main_v18) = W1 m ρ c (Proc.devRef .tc main_v18) :=
  calc W7 m ρ c (Proc.devRef .tc main_v18)
    _ = W6 m ρ c (Proc.devRef .tc main_v18) := W7_of_ne m ρ c main_v18 (by decide)
    _ = W5 m ρ c (Proc.devRef .tc main_v18) := W6_of_not_mem m ρ c main_v18 (by decide)
    _ = W4 m ρ c (Proc.devRef .tc main_v18) := W5_of_ne m ρ c main_v18 (by decide)
    _ = W3 m ρ c (Proc.devRef .tc main_v18) := W4_of_not_mem m ρ c main_v18 (by decide)
    _ = W2 m ρ c (Proc.devRef .tc main_v18) := W3_of_ne m ρ c main_v18 (by decide)
    _ = W1 m ρ c (Proc.devRef .tc main_v18) := W2_of_not_mem m ρ c main_v18 (by decide)

theorem W7_main_v36 (c : Dev nD) : W7 m ρ c (Proc.devRef .tc main_v36) = W1 m ρ c (Proc.devRef .tc main_v36) :=
  calc W7 m ρ c (Proc.devRef .tc main_v36)
    _ = W6 m ρ c (Proc.devRef .tc main_v36) := W7_of_ne m ρ c main_v36 (by decide)
    _ = W5 m ρ c (Proc.devRef .tc main_v36) := W6_of_not_mem m ρ c main_v36 (by decide)
    _ = W4 m ρ c (Proc.devRef .tc main_v36) := W5_of_ne m ρ c main_v36 (by decide)
    _ = W3 m ρ c (Proc.devRef .tc main_v36) := W4_of_not_mem m ρ c main_v36 (by decide)
    _ = W2 m ρ c (Proc.devRef .tc main_v36) := W3_of_ne m ρ c main_v36 (by decide)
    _ = W1 m ρ c (Proc.devRef .tc main_v36) := W2_of_not_mem m ρ c main_v36 (by decide)

theorem W7_main_v37 (c : Dev nD) : W7 m ρ c (Proc.devRef .tc main_v37) = W1 m ρ c (Proc.devRef .tc main_v37) :=
  calc W7 m ρ c (Proc.devRef .tc main_v37)
    _ = W6 m ρ c (Proc.devRef .tc main_v37) := W7_of_ne m ρ c main_v37 (by decide)
    _ = W5 m ρ c (Proc.devRef .tc main_v37) := W6_of_not_mem m ρ c main_v37 (by decide)
    _ = W4 m ρ c (Proc.devRef .tc main_v37) := W5_of_ne m ρ c main_v37 (by decide)
    _ = W3 m ρ c (Proc.devRef .tc main_v37) := W4_of_not_mem m ρ c main_v37 (by decide)
    _ = W2 m ρ c (Proc.devRef .tc main_v37) := W3_of_ne m ρ c main_v37 (by decide)
    _ = W1 m ρ c (Proc.devRef .tc main_v37) := W2_of_not_mem m ρ c main_v37 (by decide)

/-! ## Each of those buffers is among the unscoped references the last thread state holds -/
theorem mem_uc_main_arg0 : Proc.devRef .tc main_arg0 ∈ Pipeline.ucRefs τ sig := mem_uc main_arg0 (by decide)
theorem mem_uc_main_arg1 : Proc.devRef .tc main_arg1 ∈ Pipeline.ucRefs τ sig := mem_uc main_arg1 (by decide)
theorem mem_uc_main_arg2 : Proc.devRef .tc main_arg2 ∈ Pipeline.ucRefs τ sig := mem_uc main_arg2 (by decide)
theorem mem_uc_main_arg3 : Proc.devRef .tc main_arg3 ∈ Pipeline.ucRefs τ sig := mem_uc main_arg3 (by decide)
theorem mem_uc_main_arg4 : Proc.devRef .tc main_arg4 ∈ Pipeline.ucRefs τ sig := mem_uc main_arg4 (by decide)
theorem mem_uc_main_arg5 : Proc.devRef .tc main_arg5 ∈ Pipeline.ucRefs τ sig := mem_uc main_arg5 (by decide)
theorem mem_uc_main_arg6 : Proc.devRef .tc main_arg6 ∈ Pipeline.ucRefs τ sig := mem_uc main_arg6 (by decide)
theorem mem_uc_main_arg7 : Proc.devRef .tc main_arg7 ∈ Pipeline.ucRefs τ sig := mem_uc main_arg7 (by decide)
theorem mem_uc_main_arg8 : Proc.devRef .tc main_arg8 ∈ Pipeline.ucRefs τ sig := mem_uc main_arg8 (by decide)
theorem mem_uc_main_arg9 : Proc.devRef .tc main_arg9 ∈ Pipeline.ucRefs τ sig := mem_uc main_arg9 (by decide)
theorem mem_uc_main_arg10 : Proc.devRef .tc main_arg10 ∈ Pipeline.ucRefs τ sig := mem_uc main_arg10 (by decide)
theorem mem_uc_main_arg11 : Proc.devRef .tc main_arg11 ∈ Pipeline.ucRefs τ sig := mem_uc main_arg11 (by decide)
theorem mem_uc_main_arg12 : Proc.devRef .tc main_arg12 ∈ Pipeline.ucRefs τ sig := mem_uc main_arg12 (by decide)
theorem mem_uc_main_arg13 : Proc.devRef .tc main_arg13 ∈ Pipeline.ucRefs τ sig := mem_uc main_arg13 (by decide)
theorem mem_uc_main_arg14 : Proc.devRef .tc main_arg14 ∈ Pipeline.ucRefs τ sig := mem_uc main_arg14 (by decide)
theorem mem_uc_main_arg15 : Proc.devRef .tc main_arg15 ∈ Pipeline.ucRefs τ sig := mem_uc main_arg15 (by decide)
theorem mem_uc_main_arg16 : Proc.devRef .tc main_arg16 ∈ Pipeline.ucRefs τ sig := mem_uc main_arg16 (by decide)
theorem mem_uc_main_arg17 : Proc.devRef .tc main_arg17 ∈ Pipeline.ucRefs τ sig := mem_uc main_arg17 (by decide)
theorem mem_uc_main_v74 : Proc.devRef .tc main_v74 ∈ Pipeline.ucRefs τ sig := mem_uc main_v74 (by decide)
theorem mem_uc_main_v76 : Proc.devRef .tc main_v76 ∈ Pipeline.ucRefs τ sig := mem_uc main_v76 (by decide)
theorem mem_uc_main_v17 : Proc.devRef .tc main_v17 ∈ Pipeline.ucRefs τ sig := mem_uc main_v17 (by decide)
theorem mem_uc_main_v18 : Proc.devRef .tc main_v18 ∈ Pipeline.ucRefs τ sig := mem_uc main_v18 (by decide)
theorem mem_uc_main_v36 : Proc.devRef .tc main_v36 ∈ Pipeline.ucRefs τ sig := mem_uc main_v36 (by decide)
theorem mem_uc_main_v37 : Proc.devRef .tc main_v37 ∈ Pipeline.ucRefs τ sig := mem_uc main_v37 (by decide)
theorem mem_uc_main_v72_0 : Proc.devRef .tc main_v72_0 ∈ Pipeline.ucRefs τ sig := mem_uc main_v72_0 (by decide)
theorem mem_uc_main_v72_1 : Proc.devRef .tc main_v72_1 ∈ Pipeline.ucRefs τ sig := mem_uc main_v72_1 (by decide)

/-! ## What the decode regions find in their input arrays

Region 1 reads region 0's third output, the argument W and the reshaped argument bias; region 2 reads region 0's second
output, its W and its reshaped bias. -/

theorem W3_main_arg15 (c : Dev nD) : W3 m ρ c (Proc.devRef .tc main_arg15) = m ((c : Thread nD τ).loc main_arg15) :=
  calc W3 m ρ c (Proc.devRef .tc main_arg15)
    _ = W2 m ρ c (Proc.devRef .tc main_arg15) := W3_of_ne m ρ c main_arg15 (by decide)
    _ = W1 m ρ c (Proc.devRef .tc main_arg15) := W2_of_not_mem m ρ c main_arg15 (by decide)
    _ = W0 m ρ c (Proc.devRef .tc main_arg15) := W1_of_not_mem m ρ c main_arg15 (by decide)
    _ = m ((c : Thread nD τ).loc main_arg15) := rfl

theorem W3_main_arg14 (c : Dev nD) : W3 m ρ c (Proc.devRef .tc main_arg14) = m ((c : Thread nD τ).loc main_arg14) :=
  calc W3 m ρ c (Proc.devRef .tc main_arg14)
    _ = W2 m ρ c (Proc.devRef .tc main_arg14) := W3_of_ne m ρ c main_arg14 (by decide)
    _ = W1 m ρ c (Proc.devRef .tc main_arg14) := W2_of_not_mem m ρ c main_arg14 (by decide)
    _ = W0 m ρ c (Proc.devRef .tc main_arg14) := W1_of_not_mem m ρ c main_arg14 (by decide)
    _ = m ((c : Thread nD τ).loc main_arg14) := rfl

theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := W5_of_ne m ρ c main_arg17 (by decide)
    _ = W3 m ρ c (Proc.devRef .tc main_arg17) := W4_of_not_mem m ρ c main_arg17 (by decide)
    _ = W2 m ρ c (Proc.devRef .tc main_arg17) := W3_of_ne m ρ c main_arg17 (by decide)
    _ = W1 m ρ c (Proc.devRef .tc main_arg17) := W2_of_not_mem m ρ c main_arg17 (by decide)
    _ = W0 m ρ c (Proc.devRef .tc main_arg17) := W1_of_not_mem m ρ c main_arg17 (by decide)
    _ = m ((c : Thread nD τ).loc main_arg17) := rfl

theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = W3 m ρ c (Proc.devRef .tc main_arg16) := W4_of_not_mem m ρ c main_arg16 (by decide)
    _ = W2 m ρ c (Proc.devRef .tc main_arg16) := W3_of_ne m ρ c main_arg16 (by decide)
    _ = W1 m ρ c (Proc.devRef .tc main_arg16) := W2_of_not_mem m ρ c main_arg16 (by decide)
    _ = W0 m ρ c (Proc.devRef .tc main_arg16) := W1_of_not_mem m ρ c main_arg16 (by decide)
    _ = m ((c : Thread nD τ).loc main_arg16) := rfl

theorem W4_main_v72_2 (c : Dev nD) : W4 m ρ c (Proc.devRef .tc main_v72_2) = (dat0 (V2 m ρ) c).arrAt 10 cfg0.N :=
  (W4_of_not_mem m ρ c main_v72_2 (by decide)).trans (W3_arr m ρ c 10)
theorem W4_main_arg14 (c : Dev nD) : W4 m ρ c (Proc.devRef .tc main_arg14) = m ((c : Thread nD τ).loc main_arg14) :=
  (W4_of_not_mem m ρ c main_arg14 (by decide)).trans (W3_main_arg14 m ρ c)
theorem W4_main_v73 (c : Dev nD) : W4 m ρ c (Proc.devRef .tc main_v73)
    = fun i => shapeCast S1x20000 (m ((c : Thread nD τ).loc main_arg15)) shapeCasts_S20000_S1x20000 i := by
  show StableHlo.after main_part1_ops1 (W3 m ρ c) (Proc.devRef .tc main_v73) = _
  simp only [main_part1_ops1, StableHlo.after_cons, StableHlo.after_nil]
  rw [StableHlo.reshape_result, W3_main_arg15]
  rfl
theorem W6_main_v72_1 (c : Dev nD) : W6 m ρ c (Proc.devRef .tc main_v72_1) = (dat0 (V2 m ρ) c).arrAt 9 cfg0.N :=
  calc W6 m ρ c (Proc.devRef .tc main_v72_1)
    _ = W5 m ρ c (Proc.devRef .tc main_v72_1) := W6_of_not_mem m ρ c main_v72_1 (by decide)
    _ = W4 m ρ c (Proc.devRef .tc main_v72_1) := W5_of_ne m ρ c main_v72_1 (by decide)
    _ = W3 m ρ c (Proc.devRef .tc main_v72_1) := W4_of_not_mem m ρ c main_v72_1 (by decide)
    _ = (dat0 (V2 m ρ) c).arrAt 9 cfg0.N := W3_arr m ρ c 9
theorem W6_main_arg16 (c : Dev nD) : W6 m ρ c (Proc.devRef .tc main_arg16) = m ((c : Thread nD τ).loc main_arg16) :=
  (W6_of_not_mem m ρ c main_arg16 (by decide)).trans (W5_main_arg16 m ρ c)
theorem W6_main_v75 (c : Dev nD) : W6 m ρ c (Proc.devRef .tc main_v75)
    = fun i => shapeCast S1x30000 (m ((c : Thread nD τ).loc main_arg17)) shapeCasts_S30000_S1x30000 i := by
  show StableHlo.after main_part1_ops2 (W5 m ρ c) (Proc.devRef .tc main_v75) = _
  simp only [main_part1_ops2, StableHlo.after_cons, StableHlo.after_nil]
  rw [StableHlo.reshape_result, W5_main_arg17]
  rfl

end Cert.KernelIdeal.Hand

end
-- ==== Proof.KI.HostTerms.lean ====
import proofs.«151948_j17755394802209_2_alg».proof.Proof.Gen.KernelIdeal.Skeleton
import Idealize.ShloMosaic.Lib.Pipeline.Value
import Idealize.ShloMosaic.PureOps.Ideal

/-! The values the host stretches and region 0's first two outputs compute, as named functions of the argument arrays,
    and the algebra that joins the program's spelling to the reference's. -/

set_option maxRecDepth 16384

noncomputable section

namespace Cert.KernelIdeal.Hand

open Cert.KernelIdeal Cert.KernelIdeal.Gen
open Idealize.ShloMosaic Idealize.SL.Sem

/-! # The host results as functions of the arguments

Each of the four host results is a column half of a segment sum: rows of a table gathered at wrapped indices, scaled by
a weight per row, summed into their segments, a bias added. The program multiplies rows by weights, the reference
weights by rows: at the ideal instance the product of extended reals commutes. -/

/-- Elementwise multiplication of extended reals commutes. -/
theorem mulf_comm_ideal {s : Shape} (x y : FVec Ideal s .f32) : mulf x y = mulf y x := by
  funext i; exact mul_comm (x i) (y i)

/-- The rows of the transposed table read at the wrapped indices (a negative index counts from the end). -/
def rowsA (tbl : FVec Ideal S128x20000 .f32) (idx : IVec S960000 32) : FVec Ideal S960000x128 .f32 :=
  Host.gather gather_S20000x128_S960000x1_S960000x128_1_0_n_n_0_1_1128 (transpose S20000x128 [1, 0] tbl transposes_S128x20000_S20000x128_1_0)
    (broadcastInDim S960000x1 ![0] bcast_S960000_S960000x1_0
      (select (cmpi .slt idx (broadcastInDim S960000 ![] bcast_S_S960000 (constantI S_ 32 0#32)))
        (addi idx (broadcastInDim S960000 ![] bcast_S_S960000 (constantI S_ 32 20000#32))) idx))

/-- The rows of the transposed table read at the wrapped indices (a negative index counts from the end). -/
def rowsS (tbl : FVec Ideal S128x30000 .f32) (idx : IVec S960000 32) : FVec Ideal S960000x128 .f32 :=
  Host.gather gather_S30000x128_S960000x1_S960000x128_1_0_n_n_0_1_1128 (transpose S30000x128 [1, 0] tbl transposes_S128x30000_S30000x128_1_0)
    (broadcastInDim S960000x1 ![0] bcast_S960000_S960000x1_0
      (select (cmpi .slt idx (broadcastInDim S960000 ![] bcast_S_S960000 (constantI S_ 32 0#32)))
        (addi idx (broadcastInDim S960000 ![] bcast_S_S960000 (constantI S_ 32 30000#32))) idx))

/-- A weight per row, spread along the row. -/
def wts (val : FVec Ideal S960000 .f32) : FVec Ideal S960000x128 .f32 :=
  broadcastInDim S960000x128 ![0, 1] bcast_S960000x1_S960000x128_0_1 (broadcastInDim S960000x1 ![0] bcast_S960000_S960000x1_0 val)

/-- The segment sum of the products `p`, the bias added to every row. -/
def segSum (seg : IVec S960000 32) (p : FVec Ideal S960000x128 .f32) (bias : FVec Ideal S128 .f32) : FVec Ideal S30000x128 .f32 :=
  addf (Host.scatterAdd scatter_S30000x128_S960000x1_S960000x128_1_0_0_1
      (broadcastInDim S30000x128 ![] bcast_S_S30000x128 (constant S_ .f32 0x00000000#32))
      (broadcastInDim S960000x1 ![0] bcast_S960000_S960000x1_0 seg) p)
    (broadcastInDim S30000x128 ![0, 1] bcast_S1x128_S30000x128_0_1 (broadcastInDim S1x128 ![1] bcast_S128_S1x128_1 bias))

/-- The left and the right half of the columns. -/
def colsL (x : FVec Ideal S30000x128 .f32) : FVec Ideal S30000x64 .f32 :=
  extractStridedSlice S30000x64 ![0, 0] x slices_S30000x128_S30000x64_0_0
def colsR (x : FVec Ideal S30000x128 .f32) : FVec Ideal S30000x64 .f32 :=
  extractStridedSlice S30000x64 ![0, 64] x slices_S30000x128_S30000x64_0_64

/-- The aggregate as the program computes it (rows times weights) and as the reference does (weights times rows). -/
def aggK_A (a1 : IVec S960000 32) (a2 : IVec S960000 32) (a3 : FVec Ideal S960000 .f32) (a7 : FVec Ideal S128x20000 .f32) (a8 : FVec Ideal S128 .f32) : FVec Ideal S30000x128 .f32 :=
  segSum a1 (mulf (rowsA a7 a2) (wts a3)) a8
def aggR_A (a1 : IVec S960000 32) (a2 : IVec S960000 32) (a3 : FVec Ideal S960000 .f32) (a7 : FVec Ideal S128x20000 .f32) (a8 : FVec Ideal S128 .f32) : FVec Ideal S30000x128 .f32 :=
  segSum a1 (mulf (wts a3) (rowsA a7 a2)) a8
def aggK_S (a4 : IVec S960000 32) (a5 : IVec S960000 32) (a6 : FVec Ideal S960000 .f32) (a9 : FVec Ideal S128x30000 .f32) (a10 : FVec Ideal S128 .f32) : FVec Ideal S30000x128 .f32 :=
  segSum a4 (mulf (rowsS a9 a5) (wts a6)) a10
def aggR_S (a4 : IVec S960000 32) (a5 : IVec S960000 32) (a6 : FVec Ideal S960000 .f32) (a9 : FVec Ideal S128x30000 .f32) (a10 : FVec Ideal S128 .f32) : FVec Ideal S30000x128 .f32 :=
  segSum a4 (mulf (wts a6) (rowsS a9 a5)) a10
theorem aggK_A_eq (a1 a2 a3 a7 a8) : aggK_A a1 a2 a3 a7 a8 = aggR_A a1 a2 a3 a7 a8 := by
  unfold aggK_A aggR_A; rw [mulf_comm_ideal]
theorem aggK_S_eq (a4 a5 a6 a9 a10) : aggK_S a4 a5 a6 a9 a10 = aggR_S a4 a5 a6 a9 a10 := by
  unfold aggK_S aggR_S; rw [mulf_comm_ideal]

/-! # The sampled latents: region 0's first two outputs

Each is `mean + exp (0.5 · logvar)` of rows of two host results picked at the wrapped user indices. -/

/-- The user indices, a negative one counting from the end. -/
def wrapSel (a0 : IVec S4096 32) : IVec S4096 32 :=
  select (cmpi .slt a0 (broadcastInDim S4096 ![] bcast_S_S4096 (constantI S_ 32 0#32)))
    (addi a0 (broadcastInDim S4096 ![] bcast_S_S4096 (constantI S_ 32 30000#32))) a0
/-- The rows of `x` at the wrapped user indices. -/
def pick (x : FVec Ideal S30000x64 .f32) (a0 : IVec S4096 32) : FVec Ideal S4096x64 .f32 :=
  Host.gather gather_S30000x64_S4096x1_S4096x64_1_0_n_n_0_1_164 x (broadcastInDim S4096x1 ![0] bcast_S4096_S4096x1_0 (wrapSel a0))

/-- `mean + exp (0.5 · logvar)`, as the reference spells it. -/
def sample (mu lv : FVec Ideal S4096x64 .f32) : FVec Ideal S4096x64 .f32 :=
  addf mu (Host.exp (mulf (broadcastInDim S4096x64 ![] (by decide : S_.BroadcastsInDim S4096x64 (![] : Fin 0 → Fin S4096x64.rank)) (constant S_ .f32 0x3F000000#32)) lv))

/-- The body's first payload is that sample: a cast to the same shape is the identity, the two exponentials are one
    function of an extended real, and the two constants read the same word. -/
theorem k0_pay1_eq (x y : FVec Ideal S4096x64 .f32) : k0_pay1 x y = sample x y := by
  unfold k0_pay1 sample
  simp only [shapeCast_self]
  rfl
theorem k0_pay2_eq (x y : FVec Ideal S4096x64 .f32) : k0_pay2 x y = sample x y := by
  unfold k0_pay2 sample
  simp only [shapeCast_self]
  rfl

end Cert.KernelIdeal.Hand

end
-- ==== Proof.KI.Values.lean ====
import proofs.«151948_j17755394802209_2_alg».proof.Proof.KI.Run
import proofs.«151948_j17755394802209_2_alg».proof.Proof.KI.HostTerms
import proofs.«151948_j17755394802209_2_alg».proof.ReferenceIdeal
import Idealize.ShloMosaic.Lib.StableHlo.Run

/-! The program's host stretches read at the four host results and at region 0's first four input arrays, over the
    named functions; then each of those results, and the two sampled latents, against the reference's spelling. -/

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## The program's side: the first host stretch read at the four results -/

set_option maxHeartbeats 4000000 in
theorem W1_main_v17 (c : Dev nD) : W1 m ρ c (Proc.devRef .tc main_v17) = colsL (aggK_A (m ((c : Thread nD τ).loc main_arg1)) (m ((c : Thread nD τ).loc main_arg2)) (m ((c : Thread nD τ).loc main_arg3)) (m ((c : Thread nD τ).loc main_arg7)) (m ((c : Thread nD τ).loc main_arg8))) := by
  show StableHlo.after main_part0_ops0 (W0 m ρ c) (Proc.devRef .tc main_v17) = _
  after_results_simp <;> rfl
theorem W7_main_v17_eq (c : Dev nD) : W7 m ρ c (Proc.devRef .tc main_v17) = colsL (aggK_A (m ((c : Thread nD τ).loc main_arg1)) (m ((c : Thread nD τ).loc main_arg2)) (m ((c : Thread nD τ).loc main_arg3)) (m ((c : Thread nD τ).loc main_arg7)) (m ((c : Thread nD τ).loc main_arg8))) :=
  (W7_main_v17 m ρ c).trans (W1_main_v17 m ρ c)

set_option maxHeartbeats 4000000 in
theorem W1_main_v18 (c : Dev nD) : W1 m ρ c (Proc.devRef .tc main_v18) = colsR (aggK_A (m ((c : Thread nD τ).loc main_arg1)) (m ((c : Thread nD τ).loc main_arg2)) (m ((c : Thread nD τ).loc main_arg3)) (m ((c : Thread nD τ).loc main_arg7)) (m ((c : Thread nD τ).loc main_arg8))) := by
  show StableHlo.after main_part0_ops0 (W0 m ρ c) (Proc.devRef .tc main_v18) = _
  after_results_simp <;> rfl
theorem W7_main_v18_eq (c : Dev nD) : W7 m ρ c (Proc.devRef .tc main_v18) = colsR (aggK_A (m ((c : Thread nD τ).loc main_arg1)) (m ((c : Thread nD τ).loc main_arg2)) (m ((c : Thread nD τ).loc main_arg3)) (m ((c : Thread nD τ).loc main_arg7)) (m ((c : Thread nD τ).loc main_arg8))) :=
  (W7_main_v18 m ρ c).trans (W1_main_v18 m ρ c)

set_option maxHeartbeats 4000000 in
theorem W1_main_v36 (c : Dev nD) : W1 m ρ c (Proc.devRef .tc main_v36) = colsL (aggK_S (m ((c : Thread nD τ).loc main_arg4)) (m ((c : Thread nD τ).loc main_arg5)) (m ((c : Thread nD τ).loc main_arg6)) (m ((c : Thread nD τ).loc main_arg9)) (m ((c : Thread nD τ).loc main_arg10))) := by
  show StableHlo.after main_part0_ops0 (W0 m ρ c) (Proc.devRef .tc main_v36) = _
  after_results_simp <;> rfl
theorem W7_main_v36_eq (c : Dev nD) : W7 m ρ c (Proc.devRef .tc main_v36) = colsL (aggK_S (m ((c : Thread nD τ).loc main_arg4)) (m ((c : Thread nD τ).loc main_arg5)) (m ((c : Thread nD τ).loc main_arg6)) (m ((c : Thread nD τ).loc main_arg9)) (m ((c : Thread nD τ).loc main_arg10))) :=
  (W7_main_v36 m ρ c).trans (W1_main_v36 m ρ c)

set_option maxHeartbeats 4000000 in
theorem W1_main_v37 (c : Dev nD) : W1 m ρ c (Proc.devRef .tc main_v37) = colsR (aggK_S (m ((c : Thread nD τ).loc main_arg4)) (m ((c : Thread nD τ).loc main_arg5)) (m ((c : Thread nD τ).loc main_arg6)) (m ((c : Thread nD τ).loc main_arg9)) (m ((c : Thread nD τ).loc main_arg10))) := by
  show StableHlo.after main_part0_ops0 (W0 m ρ c) (Proc.devRef .tc main_v37) = _
  after_results_simp <;> rfl
theorem W7_main_v37_eq (c : Dev nD) : W7 m ρ c (Proc.devRef .tc main_v37) = colsR (aggK_S (m ((c : Thread nD τ).loc main_arg4)) (m ((c : Thread nD τ).loc main_arg5)) (m ((c : Thread nD τ).loc main_arg6)) (m ((c : Thread nD τ).loc main_arg9)) (m ((c : Thread nD τ).loc main_arg10))) :=
  (W7_main_v37 m ρ c).trans (W1_main_v37 m ρ c)
/-! ## Region 0's first four input arrays -/

set_option maxHeartbeats 4000000 in
theorem W1_main_v44 (c : Dev nD) : W1 m ρ c (Proc.devRef .tc main_v44) = pick (colsL (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0)) := by
  show StableHlo.after main_part0_ops0 (W0 m ρ c) (Proc.devRef .tc main_v44) = _
  after_results_simp <;> rfl
set_option maxHeartbeats 4000000 in
theorem W1_main_v49 (c : Dev nD) : W1 m ρ c (Proc.devRef .tc main_v49) = wrapSel (m ((c : Thread nD τ).loc main_arg0)) := by
  show StableHlo.after main_part0_ops0 (W0 m ρ c) (Proc.devRef .tc main_v49) = _
  after_results_simp <;> rfl
theorem W1_main_arg0 (c : Dev nD) : W1 m ρ c (Proc.devRef .tc main_arg0) = (m ((c : Thread nD τ).loc main_arg0)) :=
  W1_of_not_mem m ρ c main_arg0 (by decide)

/-- The second stretch at its three gathers, from any contents before it. -/
theorem part1_main_v51 (V1 : Valuation τ sig (Elt Ideal)) : StableHlo.after main_part1_ops0 V1 (Proc.devRef .tc main_v51)
    = Host.gather gather_S30000x64_S4096x1_S4096x64_1_0_n_n_0_1_164 (V1 (Proc.devRef .tc main_v18))
        (broadcastInDim S4096x1 ![0] bcast_S4096_S4096x1_0 (V1 (Proc.devRef .tc main_v49))) := by
  after_results_simp <;> rfl
theorem part1_main_v58 (V1 : Valuation τ sig (Elt Ideal)) : StableHlo.after main_part1_ops0 V1 (Proc.devRef .tc main_v58)
    = pick (V1 (Proc.devRef .tc main_v36)) (V1 (Proc.devRef .tc main_arg0)) := by
  after_results_simp <;> rfl
theorem part1_main_v65 (V1 : Valuation τ sig (Elt Ideal)) : StableHlo.after main_part1_ops0 V1 (Proc.devRef .tc main_v65)
    = pick (V1 (Proc.devRef .tc main_v37)) (V1 (Proc.devRef .tc main_arg0)) := by
  after_results_simp <;> rfl

theorem W2_main_v44 (c : Dev nD) : W2 m ρ c (Proc.devRef .tc main_v44) = pick (colsL (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0)) :=
  (W2_of_not_mem m ρ c main_v44 (by decide)).trans (W1_main_v44 m ρ c)
theorem W2_main_v51 (c : Dev nD) : W2 m ρ c (Proc.devRef .tc main_v51) = pick (colsR (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0)) :=
  (part1_main_v51 (W1 m ρ c)).trans (by rw [W1_main_v18, W1_main_v49]; rfl)
theorem W2_main_v58 (c : Dev nD) : W2 m ρ c (Proc.devRef .tc main_v58) = pick (colsL (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0)) :=
  (part1_main_v58 (W1 m ρ c)).trans (by rw [W1_main_v36, W1_main_arg0])
theorem W2_main_v65 (c : Dev nD) : W2 m ρ c (Proc.devRef .tc main_v65) = pick (colsR (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0)) :=
  (part1_main_v65 (W1 m ρ c)).trans (by rw [W1_main_v37, W1_main_arg0])

/-! # Against the reference

`m'` is the reference's launch memory, agreeing with `m` on the arguments the result reads. -/

section Bridge
variable (m' : (ℓ : Loc Cert.ReferenceIdeal.nD Cert.ReferenceIdeal.τ Cert.ReferenceIdeal.sig) → Buf (Elt Ideal) ℓ)

theorem ref_eq_main_v17 (c : Dev nD) (h1 : m' ((c.tc : Thread Cert.ReferenceIdeal.nD Cert.ReferenceIdeal.τ).loc Cert.ReferenceIdeal.main_arg1) = m ((c : Thread nD τ).loc main_arg1)) (h2 : m' ((c.tc : Thread Cert.ReferenceIdeal.nD Cert.ReferenceIdeal.τ).loc Cert.ReferenceIdeal.main_arg2) = m ((c : Thread nD τ).loc main_arg2)) (h3 : m' ((c.tc : Thread Cert.ReferenceIdeal.nD Cert.ReferenceIdeal.τ).loc Cert.ReferenceIdeal.main_arg3) = m ((c : Thread nD τ).loc main_arg3)) (h7 : m' ((c.tc : Thread Cert.ReferenceIdeal.nD Cert.ReferenceIdeal.τ).loc Cert.ReferenceIdeal.main_arg7) = m ((c : Thread nD τ).loc main_arg7)) (h8 : m' ((c.tc : Thread Cert.ReferenceIdeal.nD Cert.ReferenceIdeal.τ).loc Cert.ReferenceIdeal.main_arg8) = m ((c : Thread nD τ).loc main_arg8)) :
    colsL (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) = W7 m ρ c (Proc.devRef .tc main_v17) := by
  rw [h1, h2, h3, h7, h8, ← aggK_A_eq]; exact (W7_main_v17_eq m ρ c).symm

theorem ref_eq_main_v18 (c : Dev nD) (h1 : m' ((c.tc : Thread Cert.ReferenceIdeal.nD Cert.ReferenceIdeal.τ).loc Cert.ReferenceIdeal.main_arg1) = m ((c : Thread nD τ).loc main_arg1)) (h2 : m' ((c.tc : Thread Cert.ReferenceIdeal.nD Cert.ReferenceIdeal.τ).loc Cert.ReferenceIdeal.main_arg2) = m ((c : Thread nD τ).loc main_arg2)) (h3 : m' ((c.tc : Thread Cert.ReferenceIdeal.nD Cert.ReferenceIdeal.τ).loc Cert.ReferenceIdeal.main_arg3) = m ((c : Thread nD τ).loc main_arg3)) (h7 : m' ((c.tc : Thread Cert.ReferenceIdeal.nD Cert.ReferenceIdeal.τ).loc Cert.ReferenceIdeal.main_arg7) = m ((c : Thread nD τ).loc main_arg7)) (h8 : m' ((c.tc : Thread Cert.ReferenceIdeal.nD Cert.ReferenceIdeal.τ).loc Cert.ReferenceIdeal.main_arg8) = m ((c : Thread nD τ).loc main_arg8)) :
    colsR (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) = W7 m ρ c (Proc.devRef .tc main_v18) := by
  rw [h1, h2, h3, h7, h8, ← aggK_A_eq]; exact (W7_main_v18_eq m ρ c).symm

theorem ref_eq_main_v36 (c : Dev nD) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) :
    colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))) = W7 m ρ c (Proc.devRef .tc main_v36) := by
  rw [h4, h5, h6, h9, h10, ← aggK_S_eq]; exact (W7_main_v36_eq m ρ c).symm

theorem ref_eq_main_v37 (c : Dev nD) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) :
    colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))) = W7 m ρ c (Proc.devRef .tc main_v37) := by
  rw [h4, h5, h6, h9, h10, ← aggK_S_eq]; exact (W7_main_v37_eq m ρ c).symm

/-- Region 0's first output is the first sampled latent. -/
theorem W7_main_v72_0_eq (c : Dev nD) : W7 m ρ c (Proc.devRef .tc main_v72_0)
    = sample (pick (colsL (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0))) (pick (colsR (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0))) := by
  rw [W7_main_v72_0, arrAt0_8 (V2 m ρ) c, k0_pay1_eq]
  exact congrArg₂ sample (W2_main_v44 m ρ c) (W2_main_v51 m ρ c)
/-- Region 0's second output is the second sampled latent. -/
theorem W7_main_v72_1_eq (c : Dev nD) : W7 m ρ c (Proc.devRef .tc main_v72_1)
    = sample (pick (colsL (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0))) (pick (colsR (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0))) := by
  rw [W7_main_v72_1, arrAt0_9 (V2 m ρ) c, k0_pay2_eq]
  exact congrArg₂ sample (W2_main_v58 m ρ c) (W2_main_v65 m ρ c)

theorem ref_eq_main_v72_0 (c : Dev nD) (h0 : m' ((c.tc : Thread Cert.ReferenceIdeal.nD Cert.ReferenceIdeal.τ).loc Cert.ReferenceIdeal.main_arg0) = m ((c : Thread nD τ).loc main_arg0)) (h1 : m' ((c.tc : Thread Cert.ReferenceIdeal.nD Cert.ReferenceIdeal.τ).loc Cert.ReferenceIdeal.main_arg1) = m ((c : Thread nD τ).loc main_arg1)) (h2 : m' ((c.tc : Thread Cert.ReferenceIdeal.nD Cert.ReferenceIdeal.τ).loc Cert.ReferenceIdeal.main_arg2) = m ((c : Thread nD τ).loc main_arg2)) (h3 : m' ((c.tc : Thread Cert.ReferenceIdeal.nD Cert.ReferenceIdeal.τ).loc Cert.ReferenceIdeal.main_arg3) = m ((c : Thread nD τ).loc main_arg3)) (h7 : m' ((c.tc : Thread Cert.ReferenceIdeal.nD Cert.ReferenceIdeal.τ).loc Cert.ReferenceIdeal.main_arg7) = m ((c : Thread nD τ).loc main_arg7)) (h8 : m' ((c.tc : Thread Cert.ReferenceIdeal.nD Cert.ReferenceIdeal.τ).loc Cert.ReferenceIdeal.main_arg8) = m ((c : Thread nD τ).loc main_arg8)) :
    sample (pick (colsL (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0))) (pick (colsR (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0))) = W7 m ρ c (Proc.devRef .tc main_v72_0) := by
  rw [h0, h1, h2, h3, h7, h8, ← aggK_A_eq]; exact (W7_main_v72_0_eq m ρ c).symm
theorem ref_eq_main_v72_1 (c : Dev nD) (h0 : m' ((c.tc : Thread Cert.ReferenceIdeal.nD Cert.ReferenceIdeal.τ).loc Cert.ReferenceIdeal.main_arg0) = m ((c : Thread nD τ).loc main_arg0)) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) :
    sample (pick (colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) (pick (colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) = W7 m ρ c (Proc.devRef .tc main_v72_1) := by
  rw [h0, h4, h5, h6, h9, h10, ← aggK_S_eq]; exact (W7_main_v72_1_eq m ρ c).symm
end Bridge

end Cert.KernelIdeal.Hand

end
-- ==== Proof.KI.Fuse.lean ====
import proofs.«151948_j17755394802209_2_alg».proof.Proof.KI.HostTerms
import proofs.«151948_j17755394802209_2_alg».proof.Proof.Gen.ReferenceIdeal
import Idealize.ShloMosaic.Lib.Pipeline.Value
import Idealize.ShloMosaic.Lib.ValueIdx
import Idealize.ShloMosaic.PureOps.Ideal.Laws

/-! The fused latent: a score per row, `tanh` of an affine map of the two sampled latents side by side contracted
    against a vector, mixes the two latents, `score · uz + (1 − score) · sz`. The reference contracts the 128 joined
    columns against the transposed weight; the body contracts each latent's 64 columns against the transposed column
    half of the weight and adds. -/

set_option maxRecDepth 16384

noncomputable section

namespace Cert.KernelIdeal.Hand

open Cert.KernelIdeal Cert.KernelIdeal.Gen
open Idealize.ShloMosaic Idealize.ShloMosaic.ValueIdx Idealize.SL.Sem

/-! ## The two spellings -/

/-- The score as the reference spells it. -/
def scoreR (uz sz : FVec Ideal S4096x64 .f32) (a11 : FVec Ideal S64x128 .f32) (a12 : FVec Ideal S64 .f32) (a13 : FVec Ideal S1x64 .f32) :
    FVec Ideal S4096x1 .f32 :=
  Host.dotGeneral Cert.ReferenceIdeal.dot_S4096x64_S64x1_S4096x1_1_0_0_1_n_n none
    (Host.tanh (addf
      (Host.dotGeneral Cert.ReferenceIdeal.dot_S4096x128_S128x64_S4096x64_1_0_0_1_n_n none
        (concatenate Cert.ReferenceIdeal.S4096x128 1 [⟨Cert.ReferenceIdeal.S4096x64, uz⟩, ⟨Cert.ReferenceIdeal.S4096x64, sz⟩] Cert.ReferenceIdeal.Gen.concatenates_S4096x64_S4096x64_S4096x128_d1)
        (transpose Cert.ReferenceIdeal.S128x64 [1, 0] a11 Cert.ReferenceIdeal.Gen.transposes_S64x128_S128x64_1_0))
      (broadcastInDim Cert.ReferenceIdeal.S4096x64 ![0, 1] Cert.ReferenceIdeal.Gen.bcast_S1x64_S4096x64_0_1 (broadcastInDim Cert.ReferenceIdeal.S1x64 ![1] Cert.ReferenceIdeal.Gen.bcast_S64_S1x64_1 a12))))
    (transpose Cert.ReferenceIdeal.S64x1 [1, 0] a13 Cert.ReferenceIdeal.Gen.transposes_S1x64_S64x1_1_0)

/-- The fused latent as the reference spells it. -/
def fuseR (uz sz : FVec Ideal S4096x64 .f32) (a11 : FVec Ideal S64x128 .f32) (a12 : FVec Ideal S64 .f32) (a13 : FVec Ideal S1x64 .f32) :
    FVec Ideal S4096x64 .f32 :=
  addf (mulf (broadcastInDim Cert.ReferenceIdeal.S4096x64 ![0, 1] Cert.ReferenceIdeal.Gen.bcast_S4096x1_S4096x64_0_1 (scoreR uz sz a11 a12 a13)) uz)
    (mulf (broadcastInDim Cert.ReferenceIdeal.S4096x64 ![0, 1] Cert.ReferenceIdeal.Gen.bcast_S4096x1_S4096x64_0_1
      (subf (broadcastInDim Cert.ReferenceIdeal.S4096x1 ![] Cert.ReferenceIdeal.Gen.bcast_S_S4096x1 (constant Cert.ReferenceIdeal.S_ .f32 0x3F800000#32)) (scoreR uz sz a11 a12 a13))) sz)

/-- The score as the body computes it, from the two latents, the two transposed weight halves, the bias row and the
    contracted vector. -/
def scoreK (uz sz : FVec Ideal S4096x64 .f32) (w1 w2 : FVec Ideal S64x64 .f32) (b : FVec Ideal S1x64 .f32) (v : FVec Ideal S64x1 .f32) :
    FVec Ideal S4096x1 .f32 :=
  matmul dot_S4096x64_S64x1_S4096x1_1_0_0_1_n_n (some .fp32)
    (tanh (addf
      (addf (matmul dot_S4096x64_S64x64_S4096x64_1_0_0_1_n_n (some .fp32) uz (shapeCast S64x64 w1 shapeCasts_S64x64_S64x64) (constant S4096x64 .f32 0x00000000#32))
        (matmul dot_S4096x64_S64x64_S4096x64_1_0_0_1_n_n (some .fp32) sz (shapeCast S64x64 w2 shapeCasts_S64x64_S64x64) (constant S4096x64 .f32 0x00000000#32)))
      (broadcastTo S4096x64 (shapeCast S1x64 b shapeCasts_S1x64_S1x64) broadcasts_S1x64_S4096x64)))
    (shapeCast S64x1 v shapeCasts_S64x1_S64x1) (constant S4096x1 .f32 0x00000000#32)

/-- The fused latent as the body computes it. -/
def fuseK (uz sz : FVec Ideal S4096x64 .f32) (w1 w2 : FVec Ideal S64x64 .f32) (b : FVec Ideal S1x64 .f32) (v : FVec Ideal S64x1 .f32) :
    FVec Ideal S4096x64 .f32 :=
  addf (mulf (broadcastTo S4096x64 (scoreK uz sz w1 w2 b v) broadcasts_S4096x1_S4096x64) uz)
    (mulf (broadcastTo S4096x64 (subf (broadcast S4096x1 (Scalar.ofBits .f32 0x3F800000#32)) (scoreK uz sz w1 w2 b v)) broadcasts_S4096x1_S4096x64) sz)

/-- The body's third payload is the fused latent of its first two. -/
theorem k0_pay3_eq (v0 v2 v8 v10 : FVec Ideal S4096x64 .f32) (v16 v19 : FVec Ideal S64x64 .f32) (v23 : FVec Ideal S1x64 .f32) (v28 : FVec Ideal S64x1 .f32) :
    k0_pay3 v0 v2 v8 v10 v16 v19 v23 v28 = fuseK (k0_pay1 v0 v2) (k0_pay2 v8 v10) v16 v19 v23 v28 := rfl

/-! ## The pieces that differ only in spelling -/

/-- The bias spread down the rows: through two `broadcast_in_dim`s, or reshaped to a row and broadcast. -/
theorem bias_rows_eq (a12 : FVec Ideal S64 .f32) :
    broadcastInDim Cert.ReferenceIdeal.S4096x64 ![0, 1] Cert.ReferenceIdeal.Gen.bcast_S1x64_S4096x64_0_1 (broadcastInDim Cert.ReferenceIdeal.S1x64 ![1] Cert.ReferenceIdeal.Gen.bcast_S64_S1x64_1 a12)
      = broadcastTo S4096x64 (shapeCast S1x64 (fun i => shapeCast S1x64 a12 shapeCasts_S64_S1x64 i) shapeCasts_S1x64_S1x64) broadcasts_S1x64_S4096x64 := by
  funext j
  obtain ⟨p, q, rfl⟩ : ∃ (p : Fin 4096) (q : Fin 64), j = ix2 p q := ⟨j 0, j 1, eq_ix2 j⟩
  rw [shapeCast_self]
  refine (broadcastInDim_apply (![0, 1] : Fin 2 → Fin 2) Cert.ReferenceIdeal.Gen.bcast_S1x64_S4096x64_0_1 _ (ix2 p q) (ix2 (0 : Fin 1) q) (fun a => by
      match a with
      | ⟨0, _⟩ => rfl
      | ⟨1, _⟩ => rfl)).trans ?_
  refine (broadcastInDim_apply (![1] : Fin 1 → Fin 2) Cert.ReferenceIdeal.Gen.bcast_S64_S1x64_1 a12 (ix2 (0 : Fin 1) q) (ix1 q) (fun a => by
      match a with
      | ⟨0, _⟩ => rfl)).trans ?_
  refine Eq.symm ((broadcastTo_apply _ broadcasts_S1x64_S4096x64 (ix2 p q) (ix2 (0 : Fin 1) q) (fun a => by
      match a with
      | ⟨0, _⟩ => rfl
      | ⟨1, _⟩ => rfl)).trans ?_)
  exact shapeCast_apply a12 shapeCasts_S64_S1x64 (ix2 (0 : Fin 1) q) (ix1 q) (by
    rw [Shape.rowMajor_val_one, Shape.rowMajor_val_two]; simp)

/-- A column spread along the rows: by `broadcast_in_dim` or by `broadcast`. -/
theorem col_spread_eq (s : FVec Ideal S4096x1 .f32) :
    broadcastInDim Cert.ReferenceIdeal.S4096x64 ![0, 1] Cert.ReferenceIdeal.Gen.bcast_S4096x1_S4096x64_0_1 s = broadcastTo S4096x64 s broadcasts_S4096x1_S4096x64 := by
  funext j
  obtain ⟨p, q, rfl⟩ : ∃ (p : Fin 4096) (q : Fin 64), j = ix2 p q := ⟨j 0, j 1, eq_ix2 j⟩
  refine (broadcastInDim_apply (![0, 1] : Fin 2 → Fin 2) Cert.ReferenceIdeal.Gen.bcast_S4096x1_S4096x64_0_1 s (ix2 p q) (ix2 p (0 : Fin 1)) (fun a => by
      match a with
      | ⟨0, _⟩ => rfl
      | ⟨1, _⟩ => rfl)).trans ?_
  exact Eq.symm (broadcastTo_apply s broadcasts_S4096x1_S4096x64 (ix2 p q) (ix2 p (0 : Fin 1)) (fun a => by
      match a with
      | ⟨0, _⟩ => rfl
      | ⟨1, _⟩ => rfl))

/-- The constant one as a column. -/
theorem ones_eq : (broadcastInDim Cert.ReferenceIdeal.S4096x1 ![] Cert.ReferenceIdeal.Gen.bcast_S_S4096x1 (constant Cert.ReferenceIdeal.S_ .f32 0x3F800000#32) : FVec Ideal S4096x1 .f32)
    = broadcast S4096x1 (Scalar.ofBits .f32 0x3F800000#32) := rfl

/-- The host's contraction against the vector is the body's product into a zero accumulator. -/
theorem score_dot_eq (H : FVec Ideal S4096x64 .f32) (v : FVec Ideal S64x1 .f32) :
    Host.dotGeneral Cert.ReferenceIdeal.dot_S4096x64_S64x1_S4096x1_1_0_0_1_n_n none H v
      = matmul dot_S4096x64_S64x1_S4096x1_1_0_0_1_n_n (some .fp32) H (shapeCast S64x1 v shapeCasts_S64x1_S64x1) (constant S4096x1 .f32 0x00000000#32) := by
  funext j
  rw [shapeCast_self]
  show FloatOps.dotGeneral _ _ _ _ _ j = FloatOps.matmul _ _ _ _ _ j
  rw [Ideal.matmul_constant_zero_apply, Ideal.dotGeneral_apply]
  rfl

/-- The host's `tanh` is the body's. -/
theorem host_tanh_eq {s : Shape} (x : FVec Ideal s .f32) : Host.tanh x = tanh x := rfl

/-! ## The two spellings are one function

`hcat`: the contraction over the joined columns is the sum of the two contractions over each latent's columns. -/
theorem fuse_eq_of (uz sz : FVec Ideal S4096x64 .f32) (a11 : FVec Ideal S64x128 .f32) (a12 : FVec Ideal S64 .f32) (a13 : FVec Ideal S1x64 .f32)
    (w1 w2 : FVec Ideal S64x64 .f32)
    (hcat : Host.dotGeneral Cert.ReferenceIdeal.dot_S4096x128_S128x64_S4096x64_1_0_0_1_n_n none
        (concatenate Cert.ReferenceIdeal.S4096x128 1 [⟨Cert.ReferenceIdeal.S4096x64, uz⟩, ⟨Cert.ReferenceIdeal.S4096x64, sz⟩] Cert.ReferenceIdeal.Gen.concatenates_S4096x64_S4096x64_S4096x128_d1)
        (transpose Cert.ReferenceIdeal.S128x64 [1, 0] a11 Cert.ReferenceIdeal.Gen.transposes_S64x128_S128x64_1_0)
      = addf (matmul dot_S4096x64_S64x64_S4096x64_1_0_0_1_n_n (some .fp32) uz (shapeCast S64x64 w1 shapeCasts_S64x64_S64x64) (constant S4096x64 .f32 0x00000000#32))
          (matmul dot_S4096x64_S64x64_S4096x64_1_0_0_1_n_n (some .fp32) sz (shapeCast S64x64 w2 shapeCasts_S64x64_S64x64) (constant S4096x64 .f32 0x00000000#32))) :
    fuseR uz sz a11 a12 a13
      = fuseK uz sz w1 w2 (fun i => shapeCast S1x64 a12 shapeCasts_S64_S1x64 i) (transpose S64x1 [1, 0] a13 transposes_S1x64_S64x1_1_0) := by
  have hs : scoreR uz sz a11 a12 a13
      = scoreK uz sz w1 w2 (fun i => shapeCast S1x64 a12 shapeCasts_S64_S1x64 i) (transpose S64x1 [1, 0] a13 transposes_S1x64_S64x1_1_0) := by
    unfold scoreR scoreK
    rw [hcat, bias_rows_eq, host_tanh_eq, score_dot_eq]
  unfold fuseR fuseK
  rw [hs, col_spread_eq, col_spread_eq, ones_eq]

end Cert.KernelIdeal.Hand

end
-- ==== Proof.KI.ConcatDot.lean ====
/- A contraction over 128 columns joined side by side is the sum of the two contractions over 64 columns each: the
   reference's one host `dot_general` of the joined array against the transposed [64,128] weight, and the kernel's two
   `tpu.matmul`s against the transposed column halves of that weight, all read at one output element at the ideal
   values, where each is a plain sum of products. -/
import proofs.«151948_j17755394802209_2_alg».proof.Proof.Gen.ReferenceIdeal
import proofs.«151948_j17755394802209_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

/-- The reference's contraction record: [4096,128] × [128,64], contracting the joined columns. -/
abbrev DR : DotDims Cert.ReferenceIdeal.S4096x128 Cert.ReferenceIdeal.S128x64 Cert.ReferenceIdeal.S4096x64 :=
  Cert.ReferenceIdeal.dot_S4096x128_S128x64_S4096x64_1_0_0_1_n_n
/-- The kernel's: [4096,64] × [64,64]. -/
abbrev DK : DotDims S4096x64 S64x64 S4096x64 := dot_S4096x64_S64x64_S4096x64_1_0_0_1_n_n

/-- Column `k` of the first half and of the second half of the 128 joined columns. -/
abbrev colLo (k : Fin 64) : Fin 128 := ⟨k.val, Nat.lt_of_lt_of_le k.isLt (by decide)⟩
abbrev colHi (k : Fin 64) : Fin 128 := ⟨64 + k.val, by have := k.isLt; omega⟩

/-- A sum over the 128 columns is the sum over the first 64 plus the sum over the last 64. -/
theorem sum_lo_hi {M : Type} [AddCommMonoid M] (f : Fin 128 → M) : ∑ k, f k = ∑ k : Fin 64, f (colLo k) + ∑ k : Fin 64, f (colHi k) :=
  (Fin.sum_univ_add (a := 64) (b := 64) f).trans rfl

/-! ## The operand indices of the two contractions -/

theorem lhsR_0 (i : Cert.ReferenceIdeal.S4096x64.Idx) (q : DR.contr.Idx) : (DR.lhsIdx i q 0).val = (i 0).val := by
  unfold DotDims.lhsIdx
  rw [dif_neg (show ¬(0 : Fin Cert.ReferenceIdeal.S4096x128.rank) ∈ DR.lhsBatch by decide), dif_pos (show (0 : Fin Cert.ReferenceIdeal.S4096x128.rank) ∈ DR.lhsNonContracting by decide)]
  rfl
theorem lhsR_1 (i : Cert.ReferenceIdeal.S4096x64.Idx) (q : DR.contr.Idx) : (DR.lhsIdx i q 1).val = (q ⟨0, by decide⟩).val :=
  DR.lhsIdx_val_of_single rfl i q
theorem rhsR_0 (i : Cert.ReferenceIdeal.S4096x64.Idx) (q : DR.contr.Idx) : (DR.rhsIdx i q 0).val = (q ⟨0, by decide⟩).val :=
  DR.rhsIdx_val_of_single rfl i q
theorem rhsR_1 (i : Cert.ReferenceIdeal.S4096x64.Idx) (q : DR.contr.Idx) : (DR.rhsIdx i q 1).val = (i 1).val := by
  unfold DotDims.rhsIdx
  rw [dif_neg (show ¬(1 : Fin Cert.ReferenceIdeal.S128x64.rank) ∈ DR.rhsBatch by decide), dif_pos (show (1 : Fin Cert.ReferenceIdeal.S128x64.rank) ∈ DR.rhsNonContracting by decide)]
  rfl

theorem lhsK_0 (i : S4096x64.Idx) (q : DK.contr.Idx) : (DK.lhsIdx i q 0).val = (i 0).val := by
  unfold DotDims.lhsIdx
  rw [dif_neg (show ¬(0 : Fin S4096x64.rank) ∈ DK.lhsBatch by decide), dif_pos (show (0 : Fin S4096x64.rank) ∈ DK.lhsNonContracting by decide)]
  rfl
theorem lhsK_1 (i : S4096x64.Idx) (q : DK.contr.Idx) : (DK.lhsIdx i q 1).val = (q ⟨0, by decide⟩).val :=
  DK.lhsIdx_val_of_single rfl i q
theorem rhsK_0 (i : S4096x64.Idx) (q : DK.contr.Idx) : (DK.rhsIdx i q 0).val = (q ⟨0, by decide⟩).val :=
  DK.rhsIdx_val_of_single rfl i q
theorem rhsK_1 (i : S4096x64.Idx) (q : DK.contr.Idx) : (DK.rhsIdx i q 1).val = (i 1).val := by
  unfold DotDims.rhsIdx
  rw [dif_neg (show ¬(1 : Fin S64x64.rank) ∈ DK.rhsBatch by decide), dif_pos (show (1 : Fin S64x64.rank) ∈ DK.rhsNonContracting by decide)]
  rfl

/-! ## Each contraction at an output element, as a sum over its one contracted coordinate -/

/-- The host's `dot_general` at element (p, j): the sum over the 128 columns of row p of the left operand times column j of the right. -/
theorem hostDot_apply (l : FVec Ideal Cert.ReferenceIdeal.S4096x128 .f32) (r : FVec Ideal Cert.ReferenceIdeal.S128x64 .f32) (p : Fin 4096) (j : Fin 64) :
    Host.dotGeneral (F := Ideal) DR none l r (ix2 p j) = ∑ k : Fin 128, l (ix2 p k) * r (ix2 k j) := by
  simp only [Host.dotGeneral]
  rw [Ideal.dotGeneral_apply, ← Equiv.sum_comp (ValueIdx.contrEquiv1 DR 128 rfl rfl).symm]
  refine Finset.sum_congr rfl fun k _ => ?_
  have hk := ValueIdx.contrEquiv1_symm_val DR 128 rfl rfl k
  have el : DR.lhsIdx (ix2 p j) ((ValueIdx.contrEquiv1 DR 128 rfl rfl).symm k) = ix2 p k := funext fun a => Fin.ext (by
    match a with
    | ⟨0, _⟩ => exact lhsR_0 _ _
    | ⟨1, _⟩ => exact (lhsR_1 _ _).trans hk)
  have er : DR.rhsIdx (ix2 p j) ((ValueIdx.contrEquiv1 DR 128 rfl rfl).symm k) = ix2 k j := funext fun a => Fin.ext (by
    match a with
    | ⟨0, _⟩ => exact (rhsR_0 _ _).trans hk
    | ⟨1, _⟩ => exact rhsR_1 _ _)
  rw [el, er]

/-- The kernel's `tpu.matmul` into the zero splat at element (p, j): the sum over the 64 columns. -/
theorem matmulK_apply (prec : Option ContractPrecision) (l : FVec Ideal S4096x64 .f32) (r : FVec Ideal S64x64 .f32) (p : Fin 4096) (j : Fin 64) :
    matmul (F := Ideal) DK prec l r (constant S4096x64 .f32 0x00000000#32) (ix2 p j) = ∑ k : Fin 64, l (ix2 p k) * r (ix2 k j) := by
  simp only [matmul]
  rw [Ideal.matmul_constant_zero_apply, ← Equiv.sum_comp (ValueIdx.contrEquiv1 DK 64 rfl rfl).symm]
  refine Finset.sum_congr rfl fun k _ => ?_
  have hk := ValueIdx.contrEquiv1_symm_val DK 64 rfl rfl k
  have el : DK.lhsIdx (ix2 p j) ((ValueIdx.contrEquiv1 DK 64 rfl rfl).symm k) = ix2 p k := funext fun a => Fin.ext (by
    match a with
    | ⟨0, _⟩ => exact lhsK_0 _ _
    | ⟨1, _⟩ => exact (lhsK_1 _ _).trans hk)
  have er : DK.rhsIdx (ix2 p j) ((ValueIdx.contrEquiv1 DK 64 rfl rfl).symm k) = ix2 k j := funext fun a => Fin.ext (by
    match a with
    | ⟨0, _⟩ => exact (rhsK_0 _ _).trans hk
    | ⟨1, _⟩ => exact rhsK_1 _ _)
  rw [el, er]

/-! ## The layout operations at an element -/

/-- The joined array at a column of the first half is the first piece, -/
theorem cat_lo (u s : FVec Ideal S4096x64 .f32) (hcat : Shape.Concatenates [S4096x64, S4096x64] Cert.ReferenceIdeal.S4096x128 1) (p : Fin 4096) (k : Fin 64) :
    concatenate Cert.ReferenceIdeal.S4096x128 1 [⟨S4096x64, u⟩, ⟨S4096x64, s⟩] hcat (ix2 p (colLo k)) = u (ix2 p k) :=
  concatenate_pair_apply_left 1 u s hcat (ix2 p (colLo k)) rfl (ix2 p k) fun b => match b with
    | ⟨0, _⟩ => rfl
    | ⟨1, _⟩ => rfl
/-- and at a column of the second half the second piece. -/
theorem cat_hi (u s : FVec Ideal S4096x64 .f32) (hcat : Shape.Concatenates [S4096x64, S4096x64] Cert.ReferenceIdeal.S4096x128 1) (p : Fin 4096) (k : Fin 64) :
    concatenate Cert.ReferenceIdeal.S4096x128 1 [⟨S4096x64, u⟩, ⟨S4096x64, s⟩] hcat (ix2 p (colHi k)) = s (ix2 p k) :=
  concatenate_pair_apply_right 1 u s hcat (ix2 p (colHi k)) rfl rfl (ix2 p k) (fun b => match b with
    | ⟨0, _⟩ => fun _ => rfl
    | ⟨1, _⟩ => fun h => absurd rfl h) (by show k.val + 64 = 64 + k.val; omega)

/-- The transposed weight at (k, j) is the weight at (j, k). -/
theorem tr128_apply (A : FVec Ideal S64x128 .f32) (htr : S64x128.Transposes [1, 0] Cert.ReferenceIdeal.S128x64) (k : Fin 128) (j : Fin 64) :
    transpose Cert.ReferenceIdeal.S128x64 [1, 0] A htr (ix2 k j) = A (ix2 j k) :=
  transpose_apply [1, 0] A htr (ix2 k j) (ix2 j k) fun b => match b with
    | ⟨0, _⟩ => rfl
    | ⟨1, _⟩ => rfl

/-- The transposed column half of the weight at (k, j), through the body's shape cast to the same shape: the weight at
    (j, k) of the first half, -/
theorem half_lo_apply (A : FVec Ideal S64x128 .f32) (hs : S64x128.Slices ![0, 0] S64x64) (ht : S64x64.Transposes [1, 0] S64x64)
    (hc : S64x64.ShapeCasts S64x64) (k j : Fin 64) :
    shapeCast S64x64 (transpose S64x64 [1, 0] (extractStridedSlice S64x64 ![0, 0] A hs) ht) hc (ix2 k j) = A (ix2 j (colLo k)) := by
  rw [shapeCast_self]
  refine (transpose_apply [1, 0] _ ht (ix2 k j) (ix2 j k) fun b => match b with
    | ⟨0, _⟩ => rfl
    | ⟨1, _⟩ => rfl).trans ?_
  exact extractStridedSlice_apply ![0, 0] A hs (ix2 j k) (ix2 j (colLo k)) fun a => match a with
    | ⟨0, _⟩ => by show j.val = 0 + j.val; omega
    | ⟨1, _⟩ => by show k.val = 0 + k.val; omega
/-- and of the second half. -/
theorem half_hi_apply (A : FVec Ideal S64x128 .f32) (hs : S64x128.Slices ![0, 64] S64x64) (ht : S64x64.Transposes [1, 0] S64x64)
    (hc : S64x64.ShapeCasts S64x64) (k j : Fin 64) :
    shapeCast S64x64 (transpose S64x64 [1, 0] (extractStridedSlice S64x64 ![0, 64] A hs) ht) hc (ix2 k j) = A (ix2 j (colHi k)) := by
  rw [shapeCast_self]
  refine (transpose_apply [1, 0] _ ht (ix2 k j) (ix2 j k) fun b => match b with
    | ⟨0, _⟩ => rfl
    | ⟨1, _⟩ => rfl).trans ?_
  exact extractStridedSlice_apply ![0, 64] A hs (ix2 j k) (ix2 j (colHi k)) fun a => match a with
    | ⟨0, _⟩ => by show j.val = 0 + j.val; omega
    | ⟨1, _⟩ => rfl

/-! ## The two sides -/

/-- THE REFERENCE: the contraction of the two pieces joined along the columns against the transposed weight is the sum
    of the first piece's contraction against the weight's first 64 columns and the second's against its last 64. -/
theorem concat_dot (u s : FVec Ideal S4096x64 .f32) (A : FVec Ideal S64x128 .f32)
    (hcat : Shape.Concatenates [S4096x64, S4096x64] Cert.ReferenceIdeal.S4096x128 1) (htr : S64x128.Transposes [1, 0] Cert.ReferenceIdeal.S128x64)
    (p : Fin 4096) (j : Fin 64) :
    Host.dotGeneral (F := Ideal) Cert.ReferenceIdeal.dot_S4096x128_S128x64_S4096x64_1_0_0_1_n_n none
        (concatenate Cert.ReferenceIdeal.S4096x128 1 [⟨S4096x64, u⟩, ⟨S4096x64, s⟩] hcat) (transpose Cert.ReferenceIdeal.S128x64 [1, 0] A htr) (ix2 p j)
      = (∑ k : Fin 64, u (ix2 p k) * A (ix2 j (colLo k))) + (∑ k : Fin 64, s (ix2 p k) * A (ix2 j (colHi k))) := by
  rw [hostDot_apply, sum_lo_hi]
  refine congrArg₂ (· + ·) (Finset.sum_congr rfl fun k _ => ?_) (Finset.sum_congr rfl fun k _ => ?_)
  · rw [cat_lo, tr128_apply]
  · rw [cat_hi, tr128_apply]

/-- THE KERNEL, first half: the matmul of `u` against the transposed first 64 columns of the weight. -/
theorem matmul_lo (prec : Option ContractPrecision) (u : FVec Ideal S4096x64 .f32) (A : FVec Ideal S64x128 .f32)
    (hs : S64x128.Slices ![0, 0] S64x64) (ht : S64x64.Transposes [1, 0] S64x64) (hc : S64x64.ShapeCasts S64x64) (p : Fin 4096) (j : Fin 64) :
    matmul (F := Ideal) dot_S4096x64_S64x64_S4096x64_1_0_0_1_n_n prec u
        (shapeCast S64x64 (transpose S64x64 [1, 0] (extractStridedSlice S64x64 ![0, 0] A hs) ht) hc) (constant S4096x64 .f32 0x00000000#32) (ix2 p j)
      = ∑ k : Fin 64, u (ix2 p k) * A (ix2 j (colLo k)) := by
  rw [matmulK_apply]
  exact Finset.sum_congr rfl fun k _ => by rw [half_lo_apply]

/-- THE KERNEL, second half: the matmul of `s` against the transposed last 64 columns of the weight. -/
theorem matmul_hi (prec : Option ContractPrecision) (s : FVec Ideal S4096x64 .f32) (A : FVec Ideal S64x128 .f32)
    (hs : S64x128.Slices ![0, 64] S64x64) (ht : S64x64.Transposes [1, 0] S64x64) (hc : S64x64.ShapeCasts S64x64) (p : Fin 4096) (j : Fin 64) :
    matmul (F := Ideal) dot_S4096x64_S64x64_S4096x64_1_0_0_1_n_n prec s
        (shapeCast S64x64 (transpose S64x64 [1, 0] (extractStridedSlice S64x64 ![0, 64] A hs) ht) hc) (constant S4096x64 .f32 0x00000000#32) (ix2 p j)
      = ∑ k : Fin 64, s (ix2 p k) * A (ix2 j (colHi k)) := by
  rw [matmulK_apply]
  exact Finset.sum_congr rfl fun k _ => by rw [half_hi_apply]

/-- Together: the reference's one contraction is the sum of the kernel's two. -/
theorem concat_dot_eq_matmuls (prec : Option ContractPrecision) (u s : FVec Ideal S4096x64 .f32) (A : FVec Ideal S64x128 .f32)
    (hcat : Shape.Concatenates [S4096x64, S4096x64] Cert.ReferenceIdeal.S4096x128 1) (htr : S64x128.Transposes [1, 0] Cert.ReferenceIdeal.S128x64)
    (hs0 : S64x128.Slices ![0, 0] S64x64) (hs1 : S64x128.Slices ![0, 64] S64x64) (ht : S64x64.Transposes [1, 0] S64x64) (hc : S64x64.ShapeCasts S64x64)
    (p : Fin 4096) (j : Fin 64) :
    Host.dotGeneral (F := Ideal) Cert.ReferenceIdeal.dot_S4096x128_S128x64_S4096x64_1_0_0_1_n_n none
        (concatenate Cert.ReferenceIdeal.S4096x128 1 [⟨S4096x64, u⟩, ⟨S4096x64, s⟩] hcat) (transpose Cert.ReferenceIdeal.S128x64 [1, 0] A htr) (ix2 p j)
      = matmul (F := Ideal) dot_S4096x64_S64x64_S4096x64_1_0_0_1_n_n prec u
          (shapeCast S64x64 (transpose S64x64 [1, 0] (extractStridedSlice S64x64 ![0, 0] A hs0) ht) hc) (constant S4096x64 .f32 0x00000000#32) (ix2 p j)
        + matmul (F := Ideal) dot_S4096x64_S64x64_S4096x64_1_0_0_1_n_n prec s
          (shapeCast S64x64 (transpose S64x64 [1, 0] (extractStridedSlice S64x64 ![0, 64] A hs1) ht) hc) (constant S4096x64 .f32 0x00000000#32) (ix2 p j) := by
  rw [concat_dot, matmul_lo, matmul_hi]

end Cert.KernelIdeal.Hand

end
-- ==== Proof.KI.Fill.lean ====
/-
  A block filled out past the part a transfer moves, read at an index inside that part: the filling-in there.
-/
import Idealize.ShloMosaic.Lib.Pipeline

namespace Cert.KernelIdeal.Hand

open Idealize.ShloMosaic

/-- At an index the transfer moves, a filled-out block reads the filling-in at the same coordinates. -/
theorem fill_of_moved {sig : RefSig} {G : Pipeline.Grid} (w : Pipeline.Window sig G) {α : Type} (i : G.Coords)
    (d : w.block.Idx → α) (g : (w.xblock i).Idx → α) {j : w.block.Idx} (h : w.moved i j = true) :
    w.fill i d g j = g fun a => ⟨(j a).val, (w.moved_iff i j).mp h a⟩ := by
  unfold Pipeline.Window.fill; rw [dif_pos h]

end Cert.KernelIdeal.Hand
-- ==== Proof.KI.Value1.lean ====
/-
  The decode region 1 at the ideal values: the output array after the run.

  Every grid point writes back the part of its output block inside the array; entry (p, q) of that block is
  Σ_k x(p, k) · Wb(q, k) + biasb(0, q), where row q of the W block is row t · 1024 + q of W and column q of the bias block
  is column t · 1024 + q of the bias row. The blocks' parts inside the array cover it (column c lies in block c / 1024). So
  the array ends holding, at (p, c), Σ_k x(p, k) · W(c, k) + bias(0, c).
-/
import proofs.«151948_j17755394802209_2_alg».proof.Proof.KI.Region1
import proofs.«151948_j17755394802209_2_alg».proof.Proof.KI.Fill

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- x · Wᵀ + the bias row broadcast down the rows, over the whole arrays. -/
def decode1 (x : S4096x64.Idx → EReal) (W : S20000x64.Idx → EReal) (b : S1x20000.Idx → EReal) : S4096x20000.Idx → EReal :=
  fun j => (∑ k : Fin 64, x (ix2 (⟨(j 0).val, idx2_lt0 j⟩ : Fin 4096) k) * W (ix2 (⟨(j 1).val, idx2_lt1 j⟩ : Fin 20000) k))
    + b (ix2 (0 : Fin 1) (⟨(j 1).val, idx2_lt1 j⟩ : Fin 20000))

theorem decode1_apply (x : S4096x64.Idx → EReal) (W : S20000x64.Idx → EReal) (b : S1x20000.Idx → EReal) (p : Fin 4096) (q : Fin 20000) :
    decode1 x W b (ix2 p q) = (∑ k : Fin 64, x (ix2 p k) * W (ix2 q k)) + b (ix2 0 q) := rfl

/-- The windows' block indices and the output block's cut sizes at every point: the x block is the whole x; the W, bias
    and output blocks are number `t` along the column axis; the output block's part inside the array has all 4096 rows
    and the columns up to the array's end. -/
theorem idx1 : ∀ t : Fin cfg1.N,
    (cfg1.win 0).index t 0 = 0 ∧ (cfg1.win 0).index t 1 = 0
    ∧ (cfg1.win 1).index t 0 = t.val ∧ (cfg1.win 1).index t 1 = 0
    ∧ (cfg1.win 2).index t 0 = 0 ∧ (cfg1.win 2).index t 1 = t.val
    ∧ (cfg1.win 3).index t 0 = 0 ∧ (cfg1.win 3).index t 1 = t.val
    ∧ (cfg1.win 3).xsize (cfg1.grid.coords t) 0 = 4096
    ∧ t.val * 1024 + (cfg1.win 3).xsize (cfg1.grid.coords t) 1 = min 20000 ((t.val + 1) * 1024) :=
  (by decide +kernel : ∀ t : Fin grid1.N,
    win1_0.index t 0 = 0 ∧ win1_0.index t 1 = 0
    ∧ win1_1.index t 0 = t.val ∧ win1_1.index t 1 = 0
    ∧ win1_2.index t 0 = 0 ∧ win1_2.index t 1 = t.val
    ∧ win1_3.index t 0 = 0 ∧ win1_3.index t 1 = t.val
    ∧ win1_3.xsize (grid1.coords t) 0 = 4096
    ∧ t.val * 1024 + win1_3.xsize (grid1.coords t) 1 = min 20000 ((t.val + 1) * 1024))

/-- An index of the part of the output block a transfer moves, as a row and a column of the block. -/
theorem xinj1_3 (i : grid1.Coords) (j : ((cfg1.win 3).xblock i).Idx) (hp : (j 0).val < 4096) (hq : (j 1).val < 1024) :
    (cfg1.win 3).xinj i j = ix2 (⟨(j 0).val, hp⟩ : Fin 4096) (⟨(j 1).val, hq⟩ : Fin 1024) := funext fun a => by
  match a with
  | ⟨0, _⟩ => rfl
  | ⟨1, _⟩ => rfl

/-- A column the output's transfer moves is a row the W transfer moves, at every position along the row, -/
theorem moved1_1 (i : grid1.Coords) (j1 : Fin ((cfg1.win 3).xsize i 1)) (hq : j1.val < 1024) (k : Fin 64) :
    (cfg1.win 1).moved i (ix2 (⟨j1.val, hq⟩ : Fin 1024) k) = true :=
  ((cfg1.win 1).moved_iff i _).mpr fun a => by
    match a with
    | ⟨0, _⟩ => exact j1.isLt
    | ⟨1, _⟩ => exact k.isLt

/-- and a column the bias transfer moves. -/
theorem moved1_2 (i : grid1.Coords) (j1 : Fin ((cfg1.win 3).xsize i 1)) (hq : j1.val < 1024) :
    (cfg1.win 2).moved i (ix2 (0 : Fin 1) (⟨j1.val, hq⟩ : Fin 1024)) = true :=
  ((cfg1.win 2).moved_iff i _).mpr fun a => by
    match a with
    | ⟨0, _⟩ => exact Nat.one_pos
    | ⟨1, _⟩ => exact j1.isLt

section Region
variable (V : (c : Dev nD) → (b : Ref sig .tc) → Buf (Elt Ideal) ((c : Thread nD τ).loc b))

set_option maxHeartbeats 1000000 in
/-- What point `t` writes back is its block of the whole-array product. -/
theorem flushed1_3 (c : Dev nD) (t : Fin cfg1.N) :
    (dat1 V c).flushed 3 t = ((cfg1.win 3).blk t).view.read (Elt Ideal)
      (decode1 (V c (Pipeline.arrRef spec1 0)) (V c (Pipeline.arrRef spec1 1)) (V c (Pipeline.arrRef spec1 2))) := by
  obtain ⟨i00, i01, i10, i11, i20, i21, i30, i31, -, -⟩ := idx1 t
  rw [show (dat1 V c).flushed 3 t = (cfg1.win 3).cut (cfg1.grid.coords t) ((dat1 V c).after 3 t) from rfl, after1_3]
  funext j
  have hp : (j 0).val < 4096 := lt_of_lt_of_le (j 0).isLt ((cfg1.win 3).xsize_le (cfg1.grid.coords t) 0)
  have hq : (j 1).val < 1024 := lt_of_lt_of_le (j 1).isLt ((cfg1.win 3).xsize_le (cfg1.grid.coords t) 1)
  have hj := xinj1_3 (cfg1.grid.coords t) j hp hq
  have h1 := fun k : Fin 64 => moved1_1 (cfg1.grid.coords t) (j 1) hq k
  have h2 := moved1_2 (cfg1.grid.coords t) (j 1) hq
  have e0 : (((cfg1.win 3).rect t).emb j 0 : Nat) = (j 0).val := by
    rw [(cfg1.win 3).rect_emb_val t j 0, i30]; omega
  have e1 : (((cfg1.win 3).rect t).emb j 1 : Nat) = t.val * 1024 + (j 1).val := by
    rw [(cfg1.win 3).rect_emb_val t j 1, i31]; rfl
  show k1_pay1 (F := Ideal) (iblk1 V c 0 t) (wblk1 V c t) (bblk1 V c t) ((cfg1.win 3).xinj (cfg1.grid.coords t) j)
    = decode1 (V c (Pipeline.arrRef spec1 0)) (V c (Pipeline.arrRef spec1 1)) (V c (Pipeline.arrRef spec1 2)) (((cfg1.win 3).rect t).emb j)
  rw [hj, k1_pay1_apply]
  unfold decode1 wblk1 bblk1
  rw [fill_of_moved (cfg1.win 2) _ _ _ h2]
  refine congrArg₂ (· + ·) (Finset.sum_congr rfl fun k _ => ?_) ?_
  · rw [fill_of_moved (cfg1.win 1) _ _ _ (h1 k)]
    refine congrArg₂ (· * ·) ?_ ?_
    · show V c (Pipeline.arrRef spec1 0) (((cfg1.win 0).rect t).emb (ix2 (⟨(j 0).val, hp⟩ : Fin 4096) k)) = _
      refine congrArg (V c (Pipeline.arrRef spec1 0)) (funext fun a => Fin.ext ?_)
      match a with
      | ⟨0, _⟩ =>
        refine ((cfg1.win 0).rect_emb_val t _ _).trans ?_
        show (cfg1.win 0).index t 0 * _ + (j 0).val = (((cfg1.win 3).rect t).emb j 0 : Nat)
        rw [i00, e0]; omega
      | ⟨1, _⟩ =>
        refine ((cfg1.win 0).rect_emb_val t _ _).trans ?_
        show (cfg1.win 0).index t 1 * _ + k.val = k.val
        rw [i01]; omega
    · show V c (Pipeline.arrRef spec1 1) (((cfg1.win 1).rect t).emb _) = _
      refine congrArg (V c (Pipeline.arrRef spec1 1)) (funext fun a => Fin.ext ?_)
      match a with
      | ⟨0, _⟩ =>
        refine ((cfg1.win 1).rect_emb_val t _ _).trans ?_
        show (cfg1.win 1).index t 0 * 1024 + (j 1).val = (((cfg1.win 3).rect t).emb j 1 : Nat)
        rw [i10, e1]
      | ⟨1, _⟩ =>
        refine ((cfg1.win 1).rect_emb_val t _ _).trans ?_
        show (cfg1.win 1).index t 1 * _ + k.val = k.val
        rw [i11]; omega
  · show V c (Pipeline.arrRef spec1 2) (((cfg1.win 2).rect t).emb _) = _
    refine congrArg (V c (Pipeline.arrRef spec1 2)) (funext fun a => Fin.ext ?_)
    match a with
    | ⟨0, _⟩ =>
      refine ((cfg1.win 2).rect_emb_val t _ _).trans ?_
      show (cfg1.win 2).index t 0 * _ + 0 = 0
      rw [i20]; omega
    | ⟨1, _⟩ =>
      refine ((cfg1.win 2).rect_emb_val t _ _).trans ?_
      show (cfg1.win 2).index t 1 * 1024 + (j 1).val = (((cfg1.win 3).rect t).emb j 1 : Nat)
      rw [i21, e1]

/-- Every index of the output array lies in the part inside the array of the block of its column's number. -/
theorem cover1_arr (i : S4096x20000.Idx) :
    ∃ t : Fin cfg1.N, (cfg1.win 3).flush t = true ∧ i ∈ ((cfg1.win 3).blk t).view.set := by
  have hi0 : (i 0).val < 4096 := (i 0).isLt
  have hi1 : (i 1).val < 20000 := (i 1).isLt
  obtain ⟨t, ht⟩ : ∃ t : Fin cfg1.N, t.val = (i 1).val / 1024 :=
    ⟨⟨(i 1).val / 1024, by rw [show cfg1.N = 20 from N_1]; omega⟩, rfl⟩
  obtain ⟨-, -, -, -, -, -, i30, i31, x30, x31⟩ := idx1 t
  refine ⟨t, flush1_3 t, ?_⟩
  show i ∈ ((View.whole main_v74).slice ((cfg1.win 3).rect t)).set
  rw [View.set_slice_whole, Rect.mem_set_unit]
  intro a
  match a with
  | ⟨0, _⟩ =>
    show (cfg1.win 3).index t 0 * 4096 ≤ (i 0).val ∧ (i 0).val < (cfg1.win 3).index t 0 * 4096 + (cfg1.win 3).xsize (cfg1.grid.coords t) 0
    rw [i30, x30]; omega
  | ⟨1, _⟩ =>
    show (cfg1.win 3).index t 1 * 1024 ≤ (i 1).val ∧ (i 1).val < (cfg1.win 3).index t 1 * 1024 + (cfg1.win 3).xsize (cfg1.grid.coords t) 1
    rw [i31]; omega

/-- The output array after the run: the whole-array product. -/
theorem arrAt1_3 (c : Dev nD) :
    (dat1 V c).arrAt 3 cfg1.N
      = decode1 (V c (Pipeline.arrRef spec1 0)) (V c (Pipeline.arrRef spec1 1)) (V c (Pipeline.arrRef spec1 2)) :=
  (dat1 V c).arrAt_eq_of_cover 3 _ (fun t _ => flushed1_3 V c t) cover1_arr

end Region

end Cert.KernelIdeal.Hand

end
-- ==== Proof.KI.Value2.lean ====
/-
  The decode region 2 at the ideal values: the output array after the run.

  Every grid point writes back the part of its output block inside the array; entry (p, q) of that block is
  Σ_k x(p, k) · Wb(q, k) + biasb(0, q), where row q of the W block is row t · 1024 + q of W and column q of the bias block
  is column t · 1024 + q of the bias row. The blocks' parts inside the array cover it (column c lies in block c / 1024). So
  the array ends holding, at (p, c), Σ_k x(p, k) · W(c, k) + bias(0, c).
-/
import proofs.«151948_j17755394802209_2_alg».proof.Proof.KI.Region2
import proofs.«151948_j17755394802209_2_alg».proof.Proof.KI.Fill

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- x · Wᵀ + the bias row broadcast down the rows, over the whole arrays. -/
def decode2 (x : S4096x64.Idx → EReal) (W : S30000x64.Idx → EReal) (b : S1x30000.Idx → EReal) : S4096x30000.Idx → EReal :=
  fun j => (∑ k : Fin 64, x (ix2 (⟨(j 0).val, idx2_lt0 j⟩ : Fin 4096) k) * W (ix2 (⟨(j 1).val, idx2_lt1 j⟩ : Fin 30000) k))
    + b (ix2 (0 : Fin 1) (⟨(j 1).val, idx2_lt1 j⟩ : Fin 30000))

theorem decode2_apply (x : S4096x64.Idx → EReal) (W : S30000x64.Idx → EReal) (b : S1x30000.Idx → EReal) (p : Fin 4096) (q : Fin 30000) :
    decode2 x W b (ix2 p q) = (∑ k : Fin 64, x (ix2 p k) * W (ix2 q k)) + b (ix2 0 q) := rfl

/-- The windows' block indices and the output block's cut sizes at every point: the x block is the whole x; the W, bias
    and output blocks are number `t` along the column axis; the output block's part inside the array has all 4096 rows
    and the columns up to the array's end. -/
theorem idx2 : ∀ t : Fin cfg2.N,
    (cfg2.win 0).index t 0 = 0 ∧ (cfg2.win 0).index t 1 = 0
    ∧ (cfg2.win 1).index t 0 = t.val ∧ (cfg2.win 1).index t 1 = 0
    ∧ (cfg2.win 2).index t 0 = 0 ∧ (cfg2.win 2).index t 1 = t.val
    ∧ (cfg2.win 3).index t 0 = 0 ∧ (cfg2.win 3).index t 1 = t.val
    ∧ (cfg2.win 3).xsize (cfg2.grid.coords t) 0 = 4096
    ∧ t.val * 1024 + (cfg2.win 3).xsize (cfg2.grid.coords t) 1 = min 30000 ((t.val + 1) * 1024) :=
  (by decide +kernel : ∀ t : Fin grid2.N,
    win2_0.index t 0 = 0 ∧ win2_0.index t 1 = 0
    ∧ win2_1.index t 0 = t.val ∧ win2_1.index t 1 = 0
    ∧ win2_2.index t 0 = 0 ∧ win2_2.index t 1 = t.val
    ∧ win2_3.index t 0 = 0 ∧ win2_3.index t 1 = t.val
    ∧ win2_3.xsize (grid2.coords t) 0 = 4096
    ∧ t.val * 1024 + win2_3.xsize (grid2.coords t) 1 = min 30000 ((t.val + 1) * 1024))

/-- An index of the part of the output block a transfer moves, as a row and a column of the block. -/
theorem xinj2_3 (i : grid2.Coords) (j : ((cfg2.win 3).xblock i).Idx) (hp : (j 0).val < 4096) (hq : (j 1).val < 1024) :
    (cfg2.win 3).xinj i j = ix2 (⟨(j 0).val, hp⟩ : Fin 4096) (⟨(j 1).val, hq⟩ : Fin 1024) := funext fun a => by
  match a with
  | ⟨0, _⟩ => rfl
  | ⟨1, _⟩ => rfl

/-- A column the output's transfer moves is a row the W transfer moves, at every position along the row, -/
theorem moved2_1 (i : grid2.Coords) (j1 : Fin ((cfg2.win 3).xsize i 1)) (hq : j1.val < 1024) (k : Fin 64) :
    (cfg2.win 1).moved i (ix2 (⟨j1.val, hq⟩ : Fin 1024) k) = true :=
  ((cfg2.win 1).moved_iff i _).mpr fun a => by
    match a with
    | ⟨0, _⟩ => exact j1.isLt
    | ⟨1, _⟩ => exact k.isLt

/-- and a column the bias transfer moves. -/
theorem moved2_2 (i : grid2.Coords) (j1 : Fin ((cfg2.win 3).xsize i 1)) (hq : j1.val < 1024) :
    (cfg2.win 2).moved i (ix2 (0 : Fin 1) (⟨j1.val, hq⟩ : Fin 1024)) = true :=
  ((cfg2.win 2).moved_iff i _).mpr fun a => by
    match a with
    | ⟨0, _⟩ => exact Nat.one_pos
    | ⟨1, _⟩ => exact j1.isLt

section Region
variable (V : (c : Dev nD) → (b : Ref sig .tc) → Buf (Elt Ideal) ((c : Thread nD τ).loc b))

set_option maxHeartbeats 1000000 in
/-- What point `t` writes back is its block of the whole-array product. -/
theorem flushed2_3 (c : Dev nD) (t : Fin cfg2.N) :
    (dat2 V c).flushed 3 t = ((cfg2.win 3).blk t).view.read (Elt Ideal)
      (decode2 (V c (Pipeline.arrRef spec2 0)) (V c (Pipeline.arrRef spec2 1)) (V c (Pipeline.arrRef spec2 2))) := by
  obtain ⟨i00, i01, i10, i11, i20, i21, i30, i31, -, -⟩ := idx2 t
  rw [show (dat2 V c).flushed 3 t = (cfg2.win 3).cut (cfg2.grid.coords t) ((dat2 V c).after 3 t) from rfl, after2_3]
  funext j
  have hp : (j 0).val < 4096 := lt_of_lt_of_le (j 0).isLt ((cfg2.win 3).xsize_le (cfg2.grid.coords t) 0)
  have hq : (j 1).val < 1024 := lt_of_lt_of_le (j 1).isLt ((cfg2.win 3).xsize_le (cfg2.grid.coords t) 1)
  have hj := xinj2_3 (cfg2.grid.coords t) j hp hq
  have h1 := fun k : Fin 64 => moved2_1 (cfg2.grid.coords t) (j 1) hq k
  have h2 := moved2_2 (cfg2.grid.coords t) (j 1) hq
  have e0 : (((cfg2.win 3).rect t).emb j 0 : Nat) = (j 0).val := by
    rw [(cfg2.win 3).rect_emb_val t j 0, i30]; omega
  have e1 : (((cfg2.win 3).rect t).emb j 1 : Nat) = t.val * 1024 + (j 1).val := by
    rw [(cfg2.win 3).rect_emb_val t j 1, i31]; rfl
  show k2_pay1 (F := Ideal) (iblk2 V c 0 t) (wblk2 V c t) (bblk2 V c t) ((cfg2.win 3).xinj (cfg2.grid.coords t) j)
    = decode2 (V c (Pipeline.arrRef spec2 0)) (V c (Pipeline.arrRef spec2 1)) (V c (Pipeline.arrRef spec2 2)) (((cfg2.win 3).rect t).emb j)
  rw [hj, k2_pay1_apply]
  unfold decode2 wblk2 bblk2
  rw [fill_of_moved (cfg2.win 2) _ _ _ h2]
  refine congrArg₂ (· + ·) (Finset.sum_congr rfl fun k _ => ?_) ?_
  · rw [fill_of_moved (cfg2.win 1) _ _ _ (h1 k)]
    refine congrArg₂ (· * ·) ?_ ?_
    · show V c (Pipeline.arrRef spec2 0) (((cfg2.win 0).rect t).emb (ix2 (⟨(j 0).val, hp⟩ : Fin 4096) k)) = _
      refine congrArg (V c (Pipeline.arrRef spec2 0)) (funext fun a => Fin.ext ?_)
      match a with
      | ⟨0, _⟩ =>
        refine ((cfg2.win 0).rect_emb_val t _ _).trans ?_
        show (cfg2.win 0).index t 0 * _ + (j 0).val = (((cfg2.win 3).rect t).emb j 0 : Nat)
        rw [i00, e0]; omega
      | ⟨1, _⟩ =>
        refine ((cfg2.win 0).rect_emb_val t _ _).trans ?_
        show (cfg2.win 0).index t 1 * _ + k.val = k.val
        rw [i01]; omega
    · show V c (Pipeline.arrRef spec2 1) (((cfg2.win 1).rect t).emb _) = _
      refine congrArg (V c (Pipeline.arrRef spec2 1)) (funext fun a => Fin.ext ?_)
      match a with
      | ⟨0, _⟩ =>
        refine ((cfg2.win 1).rect_emb_val t _ _).trans ?_
        show (cfg2.win 1).index t 0 * 1024 + (j 1).val = (((cfg2.win 3).rect t).emb j 1 : Nat)
        rw [i10, e1]
      | ⟨1, _⟩ =>
        refine ((cfg2.win 1).rect_emb_val t _ _).trans ?_
        show (cfg2.win 1).index t 1 * _ + k.val = k.val
        rw [i11]; omega
  · show V c (Pipeline.arrRef spec2 2) (((cfg2.win 2).rect t).emb _) = _
    refine congrArg (V c (Pipeline.arrRef spec2 2)) (funext fun a => Fin.ext ?_)
    match a with
    | ⟨0, _⟩ =>
      refine ((cfg2.win 2).rect_emb_val t _ _).trans ?_
      show (cfg2.win 2).index t 0 * _ + 0 = 0
      rw [i20]; omega
    | ⟨1, _⟩ =>
      refine ((cfg2.win 2).rect_emb_val t _ _).trans ?_
      show (cfg2.win 2).index t 1 * 1024 + (j 1).val = (((cfg2.win 3).rect t).emb j 1 : Nat)
      rw [i21, e1]

/-- Every index of the output array lies in the part inside the array of the block of its column's number. -/
theorem cover2_arr (i : S4096x30000.Idx) :
    ∃ t : Fin cfg2.N, (cfg2.win 3).flush t = true ∧ i ∈ ((cfg2.win 3).blk t).view.set := by
  have hi0 : (i 0).val < 4096 := (i 0).isLt
  have hi1 : (i 1).val < 30000 := (i 1).isLt
  obtain ⟨t, ht⟩ : ∃ t : Fin cfg2.N, t.val = (i 1).val / 1024 :=
    ⟨⟨(i 1).val / 1024, by rw [show cfg2.N = 30 from N_2]; omega⟩, rfl⟩
  obtain ⟨-, -, -, -, -, -, i30, i31, x30, x31⟩ := idx2 t
  refine ⟨t, flush2_3 t, ?_⟩
  show i ∈ ((View.whole main_v76).slice ((cfg2.win 3).rect t)).set
  rw [View.set_slice_whole, Rect.mem_set_unit]
  intro a
  match a with
  | ⟨0, _⟩ =>
    show (cfg2.win 3).index t 0 * 4096 ≤ (i 0).val ∧ (i 0).val < (cfg2.win 3).index t 0 * 4096 + (cfg2.win 3).xsize (cfg2.grid.coords t) 0
    rw [i30, x30]; omega
  | ⟨1, _⟩ =>
    show (cfg2.win 3).index t 1 * 1024 ≤ (i 1).val ∧ (i 1).val < (cfg2.win 3).index t 1 * 1024 + (cfg2.win 3).xsize (cfg2.grid.coords t) 1
    rw [i31]; omega

/-- The output array after the run: the whole-array product. -/
theorem arrAt2_3 (c : Dev nD) :
    (dat2 V c).arrAt 3 cfg2.N
      = decode2 (V c (Pipeline.arrRef spec2 0)) (V c (Pipeline.arrRef spec2 1)) (V c (Pipeline.arrRef spec2 2)) :=
  (dat2 V c).arrAt_eq_of_cover 3 _ (fun t _ => flushed2_3 V c t) cover2_arr

end Region

end Cert.KernelIdeal.Hand

end
-- ==== Proof.LibRowOfVector.lean ====
/-
  A vector laid out as a one-row array, two spellings.

  A vector of N entries reshaped to a [1, N] array and the same vector broadcast into a [1, N] array along a new
  leading axis (the vector's one axis sent to axis 1) are the same array: entry (0, j) is the vector's entry j.
-/
import Idealize.ShloMosaic.Lib.Pipeline.Value

noncomputable section

namespace Cert.LibRowOfVector

open Idealize.ShloMosaic

/-- The reshape of a vector to one row is its broadcast along a new leading axis. -/
theorem reshape_eq_broadcast {α : Type} {N : Nat} (b : (⟨1, ![N]⟩ : Shape).Idx → α)
    (hs : (⟨1, ![N]⟩ : Shape).ShapeCasts ⟨2, ![1, N]⟩)
    (hb : (⟨1, ![N]⟩ : Shape).BroadcastsInDim ⟨2, ![1, N]⟩ ![1]) :
    shapeCast ⟨2, ![1, N]⟩ b hs = broadcastInDim ⟨2, ![1, N]⟩ ![1] hb b := by
  funext j
  rw [shapeCast_addUnit_apply ![N] b hs j, broadcastInDim_apply ![1] hb b j (fun a => j a.succ) ?_]
  intro a
  match a with
  | ⟨0, _⟩ =>
    show (j 1).val = if N = 1 then 0 else (j 1).val
    split
    · have h1 : (j 1).val < N := (j 1).isLt
      omega
    · rfl

end Cert.LibRowOfVector

end
-- ==== Proof.KI.HostDecode.lean ====
/-
  The host's spelling of the two decode products is the decode product.

  The host forms z · transpose(W) by a product contracting axis 1 of z against axis 0 of the transposed W, and adds the
  bias vector broadcast first to one row and then down the rows. At (p, q) that is Σ_k z(p, k) · W(q, k) + b(q): the
  transposed W at (k, q) is W at (q, k), and the twice-broadcast bias at (p, q) is b at q. The vector reshaped to one row
  is the vector broadcast to one row, so this is the decode product of z, W and the reshaped bias row.
-/
import proofs.«151948_j17755394802209_2_alg».proof.Proof.KI.Value1
import proofs.«151948_j17755394802209_2_alg».proof.Proof.KI.Value2
import proofs.«151948_j17755394802209_2_alg».proof.Proof.LibRowOfVector
import proofs.«151948_j17755394802209_2_alg».proof.Proof.Gen.ReferenceIdeal.Read

set_option maxRecDepth 16384

noncomputable section

namespace Cert.KernelIdeal.Hand

open Cert.KernelIdeal Cert.KernelIdeal.Gen
open Idealize.ShloMosaic Idealize.ShloMosaic.ValueIdx Idealize.SL.Sem

/-! ## The product with 20000 columns -/

/-- The host product's left operand is read at the result's row and the contraction position, -/
theorem hostDot1_lhs0 (i : Cert.ReferenceIdeal.S4096x20000.Idx) (q : Cert.ReferenceIdeal.dot_S4096x64_S64x20000_S4096x20000_1_0_0_1_n_n.contr.Idx) :
    (Cert.ReferenceIdeal.dot_S4096x64_S64x20000_S4096x20000_1_0_0_1_n_n.lhsIdx i q 0).val = (i 0).val := by
  unfold DotDims.lhsIdx
  rw [dif_neg (show ¬(0 : Fin Cert.ReferenceIdeal.S4096x64.rank) ∈ Cert.ReferenceIdeal.dot_S4096x64_S64x20000_S4096x20000_1_0_0_1_n_n.lhsBatch by decide),
    dif_pos (show (0 : Fin Cert.ReferenceIdeal.S4096x64.rank) ∈ Cert.ReferenceIdeal.dot_S4096x64_S64x20000_S4096x20000_1_0_0_1_n_n.lhsNonContracting by decide)]
  rfl
theorem hostDot1_lhs1 (i : Cert.ReferenceIdeal.S4096x20000.Idx) (q : Cert.ReferenceIdeal.dot_S4096x64_S64x20000_S4096x20000_1_0_0_1_n_n.contr.Idx) :
    (Cert.ReferenceIdeal.dot_S4096x64_S64x20000_S4096x20000_1_0_0_1_n_n.lhsIdx i q 1).val = (q ⟨0, by decide⟩).val :=
  Cert.ReferenceIdeal.dot_S4096x64_S64x20000_S4096x20000_1_0_0_1_n_n.lhsIdx_val_of_single rfl i q
/-- and its right operand at the contraction position and the result's column. -/
theorem hostDot1_rhs0 (i : Cert.ReferenceIdeal.S4096x20000.Idx) (q : Cert.ReferenceIdeal.dot_S4096x64_S64x20000_S4096x20000_1_0_0_1_n_n.contr.Idx) :
    (Cert.ReferenceIdeal.dot_S4096x64_S64x20000_S4096x20000_1_0_0_1_n_n.rhsIdx i q 0).val = (q ⟨0, by decide⟩).val :=
  Cert.ReferenceIdeal.dot_S4096x64_S64x20000_S4096x20000_1_0_0_1_n_n.rhsIdx_val_of_single rfl i q
theorem hostDot1_rhs1 (i : Cert.ReferenceIdeal.S4096x20000.Idx) (q : Cert.ReferenceIdeal.dot_S4096x64_S64x20000_S4096x20000_1_0_0_1_n_n.contr.Idx) :
    (Cert.ReferenceIdeal.dot_S4096x64_S64x20000_S4096x20000_1_0_0_1_n_n.rhsIdx i q 1).val = (i 1).val := by
  unfold DotDims.rhsIdx
  rw [dif_neg (show ¬(1 : Fin Cert.ReferenceIdeal.S64x20000.rank) ∈ Cert.ReferenceIdeal.dot_S4096x64_S64x20000_S4096x20000_1_0_0_1_n_n.rhsBatch by decide),
    dif_pos (show (1 : Fin Cert.ReferenceIdeal.S64x20000.rank) ∈ Cert.ReferenceIdeal.dot_S4096x64_S64x20000_S4096x20000_1_0_0_1_n_n.rhsNonContracting by decide)]
  rfl

/-- z times the transpose of W, plus the bias vector laid out as a row and broadcast down the rows, is the decode
    product of z, W and the bias vector reshaped to a row: at (p, q) both are Σ_k z(p, k) · W(q, k) + b(q). -/
theorem host_decode1 (z : FVec Ideal Cert.ReferenceIdeal.S4096x64 .f32) (W : FVec Ideal Cert.ReferenceIdeal.S20000x64 .f32) (b : FVec Ideal Cert.ReferenceIdeal.S20000 .f32) :
    addf (F := Ideal) (Host.dotGeneral Cert.ReferenceIdeal.dot_S4096x64_S64x20000_S4096x20000_1_0_0_1_n_n none z
          (transpose Cert.ReferenceIdeal.S64x20000 [1, 0] W Cert.ReferenceIdeal.Gen.transposes_S20000x64_S64x20000_1_0))
        (broadcastInDim Cert.ReferenceIdeal.S4096x20000 ![0, 1] Cert.ReferenceIdeal.Gen.bcast_S1x20000_S4096x20000_0_1 (broadcastInDim Cert.ReferenceIdeal.S1x20000 ![1] Cert.ReferenceIdeal.Gen.bcast_S20000_S1x20000_1 b))
      = decode1 z W (fun i => shapeCast S1x20000 b shapeCasts_S20000_S1x20000 i) := by
  have hb : (fun i => shapeCast S1x20000 b shapeCasts_S20000_S1x20000 i) = broadcastInDim Cert.ReferenceIdeal.S1x20000 ![1] Cert.ReferenceIdeal.Gen.bcast_S20000_S1x20000_1 b :=
    Cert.LibRowOfVector.reshape_eq_broadcast b _ _
  rw [hb]
  generalize broadcastInDim Cert.ReferenceIdeal.S1x20000 ![1] Cert.ReferenceIdeal.Gen.bcast_S20000_S1x20000_1 b = y
  funext i
  have hp : (i 0).val < 4096 := idx2_lt0 i
  have hq : (i 1).val < 20000 := idx2_lt1 i
  rw [addf_apply]
  unfold decode1
  refine congrArg₂ (· + ·) ?_ ?_
  · simp only [Host.dotGeneral]
    rw [Ideal.dotGeneral_apply, ← Equiv.sum_comp (contrEquiv1 Cert.ReferenceIdeal.dot_S4096x64_S64x20000_S4096x20000_1_0_0_1_n_n 64 rfl rfl).symm]
    refine Finset.sum_congr rfl fun k _ => ?_
    have hk := contrEquiv1_symm_val Cert.ReferenceIdeal.dot_S4096x64_S64x20000_S4096x20000_1_0_0_1_n_n 64 rfl rfl k
    have el : Cert.ReferenceIdeal.dot_S4096x64_S64x20000_S4096x20000_1_0_0_1_n_n.lhsIdx i ((contrEquiv1 Cert.ReferenceIdeal.dot_S4096x64_S64x20000_S4096x20000_1_0_0_1_n_n 64 rfl rfl).symm k)
        = ix2 (⟨(i 0).val, hp⟩ : Fin 4096) k := funext fun a => Fin.ext (by
      match a with
      | ⟨0, _⟩ => exact hostDot1_lhs0 _ _
      | ⟨1, _⟩ => exact (hostDot1_lhs1 _ _).trans hk)
    have er : Cert.ReferenceIdeal.dot_S4096x64_S64x20000_S4096x20000_1_0_0_1_n_n.rhsIdx i ((contrEquiv1 Cert.ReferenceIdeal.dot_S4096x64_S64x20000_S4096x20000_1_0_0_1_n_n 64 rfl rfl).symm k)
        = ix2 k (⟨(i 1).val, hq⟩ : Fin 20000) := funext fun a => Fin.ext (by
      match a with
      | ⟨0, _⟩ => exact (hostDot1_rhs0 _ _).trans hk
      | ⟨1, _⟩ => exact hostDot1_rhs1 _ _)
    rw [el, er, transpose_apply [1, 0] W Cert.ReferenceIdeal.Gen.transposes_S20000x64_S64x20000_1_0 (ix2 k (⟨(i 1).val, hq⟩ : Fin 20000))
      (ix2 (⟨(i 1).val, hq⟩ : Fin 20000) k) (fun b => match b with
        | ⟨0, _⟩ => rfl
        | ⟨1, _⟩ => rfl)]
  · exact broadcastInDim_apply _ Cert.ReferenceIdeal.Gen.bcast_S1x20000_S4096x20000_0_1 y i (ix2 (0 : Fin 1) (⟨(i 1).val, hq⟩ : Fin 20000)) (fun a => match a with
      | ⟨0, _⟩ => by show 0 = if (1 : Nat) = 1 then 0 else (i 0).val; rw [if_pos rfl]
      | ⟨1, _⟩ => by show (i 1).val = if (20000 : Nat) = 1 then 0 else (i 1).val; rw [if_neg (by decide)])

/-! ## The product with 30000 columns -/

/-- The host product's left operand is read at the result's row and the contraction position, -/
theorem hostDot2_lhs0 (i : Cert.ReferenceIdeal.S4096x30000.Idx) (q : Cert.ReferenceIdeal.dot_S4096x64_S64x30000_S4096x30000_1_0_0_1_n_n.contr.Idx) :
    (Cert.ReferenceIdeal.dot_S4096x64_S64x30000_S4096x30000_1_0_0_1_n_n.lhsIdx i q 0).val = (i 0).val := by
  unfold DotDims.lhsIdx
  rw [dif_neg (show ¬(0 : Fin Cert.ReferenceIdeal.S4096x64.rank) ∈ Cert.ReferenceIdeal.dot_S4096x64_S64x30000_S4096x30000_1_0_0_1_n_n.lhsBatch by decide),
    dif_pos (show (0 : Fin Cert.ReferenceIdeal.S4096x64.rank) ∈ Cert.ReferenceIdeal.dot_S4096x64_S64x30000_S4096x30000_1_0_0_1_n_n.lhsNonContracting by decide)]
  rfl
theorem hostDot2_lhs1 (i : Cert.ReferenceIdeal.S4096x30000.Idx) (q : Cert.ReferenceIdeal.dot_S4096x64_S64x30000_S4096x30000_1_0_0_1_n_n.contr.Idx) :
    (Cert.ReferenceIdeal.dot_S4096x64_S64x30000_S4096x30000_1_0_0_1_n_n.lhsIdx i q 1).val = (q ⟨0, by decide⟩).val :=
  Cert.ReferenceIdeal.dot_S4096x64_S64x30000_S4096x30000_1_0_0_1_n_n.lhsIdx_val_of_single rfl i q
/-- and its right operand at the contraction position and the result's column. -/
theorem hostDot2_rhs0 (i : Cert.ReferenceIdeal.S4096x30000.Idx) (q : Cert.ReferenceIdeal.dot_S4096x64_S64x30000_S4096x30000_1_0_0_1_n_n.contr.Idx) :
    (Cert.ReferenceIdeal.dot_S4096x64_S64x30000_S4096x30000_1_0_0_1_n_n.rhsIdx i q 0).val = (q ⟨0, by decide⟩).val :=
  Cert.ReferenceIdeal.dot_S4096x64_S64x30000_S4096x30000_1_0_0_1_n_n.rhsIdx_val_of_single rfl i q
theorem hostDot2_rhs1 (i : Cert.ReferenceIdeal.S4096x30000.Idx) (q : Cert.ReferenceIdeal.dot_S4096x64_S64x30000_S4096x30000_1_0_0_1_n_n.contr.Idx) :
    (Cert.ReferenceIdeal.dot_S4096x64_S64x30000_S4096x30000_1_0_0_1_n_n.rhsIdx i q 1).val = (i 1).val := by
  unfold DotDims.rhsIdx
  rw [dif_neg (show ¬(1 : Fin Cert.ReferenceIdeal.S64x30000.rank) ∈ Cert.ReferenceIdeal.dot_S4096x64_S64x30000_S4096x30000_1_0_0_1_n_n.rhsBatch by decide),
    dif_pos (show (1 : Fin Cert.ReferenceIdeal.S64x30000.rank) ∈ Cert.ReferenceIdeal.dot_S4096x64_S64x30000_S4096x30000_1_0_0_1_n_n.rhsNonContracting by decide)]
  rfl

/-- z times the transpose of W, plus the bias vector laid out as a row and broadcast down the rows, is the decode
    product of z, W and the bias vector reshaped to a row: at (p, q) both are Σ_k z(p, k) · W(q, k) + b(q). -/
theorem host_decode2 (z : FVec Ideal Cert.ReferenceIdeal.S4096x64 .f32) (W : FVec Ideal Cert.ReferenceIdeal.S30000x64 .f32) (b : FVec Ideal Cert.ReferenceIdeal.S30000 .f32) :
    addf (F := Ideal) (Host.dotGeneral Cert.ReferenceIdeal.dot_S4096x64_S64x30000_S4096x30000_1_0_0_1_n_n none z
          (transpose Cert.ReferenceIdeal.S64x30000 [1, 0] W Cert.ReferenceIdeal.Gen.transposes_S30000x64_S64x30000_1_0))
        (broadcastInDim Cert.ReferenceIdeal.S4096x30000 ![0, 1] Cert.ReferenceIdeal.Gen.bcast_S1x30000_S4096x30000_0_1 (broadcastInDim Cert.ReferenceIdeal.S1x30000 ![1] Cert.ReferenceIdeal.Gen.bcast_S30000_S1x30000_1 b))
      = decode2 z W (fun i => shapeCast S1x30000 b shapeCasts_S30000_S1x30000 i) := by
  have hb : (fun i => shapeCast S1x30000 b shapeCasts_S30000_S1x30000 i) = broadcastInDim Cert.ReferenceIdeal.S1x30000 ![1] Cert.ReferenceIdeal.Gen.bcast_S30000_S1x30000_1 b :=
    Cert.LibRowOfVector.reshape_eq_broadcast b _ _
  rw [hb]
  generalize broadcastInDim Cert.ReferenceIdeal.S1x30000 ![1] Cert.ReferenceIdeal.Gen.bcast_S30000_S1x30000_1 b = y
  funext i
  have hp : (i 0).val < 4096 := idx2_lt0 i
  have hq : (i 1).val < 30000 := idx2_lt1 i
  rw [addf_apply]
  unfold decode2
  refine congrArg₂ (· + ·) ?_ ?_
  · simp only [Host.dotGeneral]
    rw [Ideal.dotGeneral_apply, ← Equiv.sum_comp (contrEquiv1 Cert.ReferenceIdeal.dot_S4096x64_S64x30000_S4096x30000_1_0_0_1_n_n 64 rfl rfl).symm]
    refine Finset.sum_congr rfl fun k _ => ?_
    have hk := contrEquiv1_symm_val Cert.ReferenceIdeal.dot_S4096x64_S64x30000_S4096x30000_1_0_0_1_n_n 64 rfl rfl k
    have el : Cert.ReferenceIdeal.dot_S4096x64_S64x30000_S4096x30000_1_0_0_1_n_n.lhsIdx i ((contrEquiv1 Cert.ReferenceIdeal.dot_S4096x64_S64x30000_S4096x30000_1_0_0_1_n_n 64 rfl rfl).symm k)
        = ix2 (⟨(i 0).val, hp⟩ : Fin 4096) k := funext fun a => Fin.ext (by
      match a with
      | ⟨0, _⟩ => exact hostDot2_lhs0 _ _
      | ⟨1, _⟩ => exact (hostDot2_lhs1 _ _).trans hk)
    have er : Cert.ReferenceIdeal.dot_S4096x64_S64x30000_S4096x30000_1_0_0_1_n_n.rhsIdx i ((contrEquiv1 Cert.ReferenceIdeal.dot_S4096x64_S64x30000_S4096x30000_1_0_0_1_n_n 64 rfl rfl).symm k)
        = ix2 k (⟨(i 1).val, hq⟩ : Fin 30000) := funext fun a => Fin.ext (by
      match a with
      | ⟨0, _⟩ => exact (hostDot2_rhs0 _ _).trans hk
      | ⟨1, _⟩ => exact hostDot2_rhs1 _ _)
    rw [el, er, transpose_apply [1, 0] W Cert.ReferenceIdeal.Gen.transposes_S30000x64_S64x30000_1_0 (ix2 k (⟨(i 1).val, hq⟩ : Fin 30000))
      (ix2 (⟨(i 1).val, hq⟩ : Fin 30000) k) (fun b => match b with
        | ⟨0, _⟩ => rfl
        | ⟨1, _⟩ => rfl)]
  · exact broadcastInDim_apply _ Cert.ReferenceIdeal.Gen.bcast_S1x30000_S4096x30000_0_1 y i (ix2 (0 : Fin 1) (⟨(i 1).val, hq⟩ : Fin 30000)) (fun a => match a with
      | ⟨0, _⟩ => by show 0 = if (1 : Nat) = 1 then 0 else (i 0).val; rw [if_pos rfl]
      | ⟨1, _⟩ => by show (i 1).val = if (30000 : Nat) = 1 then 0 else (i 1).val; rw [if_neg (by decide)])

end Cert.KernelIdeal.Hand

end
-- ==== Proof.KI.Recon.lean ====
import proofs.«151948_j17755394802209_2_alg».proof.Proof.KI.Values
import proofs.«151948_j17755394802209_2_alg».proof.Proof.KI.Fuse
import proofs.«151948_j17755394802209_2_alg».proof.Proof.KI.ConcatDot
import proofs.«151948_j17755394802209_2_alg».proof.Proof.KI.HostDecode

/-! The two reconstructions: region 1 decodes the fused latent against the first weight, region 2 the second sampled
    latent against the second weight; each is the reference's contraction plus its bias row. -/

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

/-! # The fused latent, the two spellings joined -/

/-- The transposed column halves of the weight, as the second host stretch writes them. -/
def wLo (a11 : FVec Ideal S64x128 .f32) : FVec Ideal S64x64 .f32 :=
  transpose S64x64 [1, 0] (extractStridedSlice S64x64 ![0, 0] a11 slices_S64x128_S64x64_0_0) transposes_S64x64_S64x64_1_0
def wHi (a11 : FVec Ideal S64x128 .f32) : FVec Ideal S64x64 .f32 :=
  transpose S64x64 [1, 0] (extractStridedSlice S64x64 ![0, 64] a11 slices_S64x128_S64x64_0_64) transposes_S64x64_S64x64_1_0

theorem fuse_eq (uz sz : FVec Ideal S4096x64 .f32) (a11 : FVec Ideal S64x128 .f32) (a12 : FVec Ideal S64 .f32) (a13 : FVec Ideal S1x64 .f32) :
    fuseR uz sz a11 a12 a13
      = fuseK uz sz (wLo a11) (wHi a11) (fun i => shapeCast S1x64 a12 shapeCasts_S64_S1x64 i) (transpose S64x1 [1, 0] a13 transposes_S1x64_S64x1_1_0) :=
  fuse_eq_of uz sz a11 a12 a13 (wLo a11) (wHi a11) (by
    funext j
    obtain ⟨p, q, rfl⟩ : ∃ (p : Fin 4096) (q : Fin 64), j = ix2 p q := ⟨j 0, j 1, eq_ix2 j⟩
    exact concat_dot_eq_matmuls (some .fp32) uz sz a11 _ _ _ _ _ _ p q)

theorem fuseK_congr {uz uz' sz sz' : FVec Ideal S4096x64 .f32} {w1 w1' w2 w2' : FVec Ideal S64x64 .f32} {b b' : FVec Ideal S1x64 .f32} {v v' : FVec Ideal S64x1 .f32}
    (h1 : uz = uz') (h2 : sz = sz') (h3 : w1 = w1') (h4 : w2 = w2') (h5 : b = b') (h6 : v = v') :
    fuseK uz sz w1 w2 b v = fuseK uz' sz' w1' w2' b' v' := by subst h1 h2 h3 h4 h5 h6; rfl
theorem decode1_congr {x x' : S4096x64.Idx → EReal} {W W' : S20000x64.Idx → EReal} {b b' : S1x20000.Idx → EReal}
    (h1 : x = x') (h2 : W = W') (h3 : b = b') : decode1 x W b = decode1 x' W' b' := by subst h1 h2 h3; rfl
theorem decode2_congr {x x' : S4096x64.Idx → EReal} {W W' : S30000x64.Idx → EReal} {b b' : S1x30000.Idx → EReal}
    (h1 : x = x') (h2 : W = W') (h3 : b = b') : decode2 x W b = decode2 x' W' b' := by subst h1 h2 h3; rfl

variable (m : (ℓ : Loc nD τ sig) → Buf (Elt Ideal) ℓ) (ρ : Dev nD → PrngReg)

/-! # Region 0's last four input arrays -/

theorem W1_main_arg11 (c : Dev nD) : W1 m ρ c (Proc.devRef .tc main_arg11) = (m ((c : Thread nD τ).loc main_arg11)) := W1_of_not_mem m ρ c main_arg11 (by decide)
theorem W1_main_arg12 (c : Dev nD) : W1 m ρ c (Proc.devRef .tc main_arg12) = (m ((c : Thread nD τ).loc main_arg12)) := W1_of_not_mem m ρ c main_arg12 (by decide)
theorem W1_main_arg13 (c : Dev nD) : W1 m ρ c (Proc.devRef .tc main_arg13) = (m ((c : Thread nD τ).loc main_arg13)) := W1_of_not_mem m ρ c main_arg13 (by decide)

theorem part1_main_v67 (V1 : Valuation τ sig (Elt Ideal)) : StableHlo.after main_part1_ops0 V1 (Proc.devRef .tc main_v67) = wLo (V1 (Proc.devRef .tc main_arg11)) := by
  after_results_simp <;> rfl
theorem part1_main_v69 (V1 : Valuation τ sig (Elt Ideal)) : StableHlo.after main_part1_ops0 V1 (Proc.devRef .tc main_v69) = wHi (V1 (Proc.devRef .tc main_arg11)) := by
  after_results_simp <;> rfl
theorem part1_main_v70 (V1 : Valuation τ sig (Elt Ideal)) : StableHlo.after main_part1_ops0 V1 (Proc.devRef .tc main_v70)
    = fun i => shapeCast S1x64 (V1 (Proc.devRef .tc main_arg12)) shapeCasts_S64_S1x64 i := by
  after_results_simp <;> rfl
theorem part1_main_v71 (V1 : Valuation τ sig (Elt Ideal)) : StableHlo.after main_part1_ops0 V1 (Proc.devRef .tc main_v71)
    = transpose S64x1 [1, 0] (V1 (Proc.devRef .tc main_arg13)) transposes_S1x64_S64x1_1_0 := by
  after_results_simp <;> rfl

theorem W2_main_v67 (c : Dev nD) : W2 m ρ c (Proc.devRef .tc main_v67) = wLo (m ((c : Thread nD τ).loc main_arg11)) :=
  (part1_main_v67 (W1 m ρ c)).trans (by rw [W1_main_arg11])
theorem W2_main_v69 (c : Dev nD) : W2 m ρ c (Proc.devRef .tc main_v69) = wHi (m ((c : Thread nD τ).loc main_arg11)) :=
  (part1_main_v69 (W1 m ρ c)).trans (by rw [W1_main_arg11])
theorem W2_main_v70 (c : Dev nD) : W2 m ρ c (Proc.devRef .tc main_v70) = fun i => shapeCast S1x64 (m ((c : Thread nD τ).loc main_arg12)) shapeCasts_S64_S1x64 i :=
  (part1_main_v70 (W1 m ρ c)).trans (by rw [W1_main_arg12])
theorem W2_main_v71 (c : Dev nD) : W2 m ρ c (Proc.devRef .tc main_v71) = transpose S64x1 [1, 0] (m ((c : Thread nD τ).loc main_arg13)) transposes_S1x64_S64x1_1_0 :=
  (part1_main_v71 (W1 m ρ c)).trans (by rw [W1_main_arg13])

/-! # The program's two reconstructions -/

set_option maxHeartbeats 8000000 in
/-- Region 0's third output is the fused latent, in the reference's spelling. -/
theorem arrAt0_10_eq (c : Dev nD) : (dat0 (V2 m ρ) c).arrAt 10 cfg0.N
    = fuseR (sample (pick (colsL (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0))) (pick (colsR (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0)))) (sample (pick (colsL (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0))) (pick (colsR (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0)))) (m ((c : Thread nD τ).loc main_arg11)) (m ((c : Thread nD τ).loc main_arg12)) (m ((c : Thread nD τ).loc main_arg13)) := by
  rw [arrAt0_10 (V2 m ρ) c, k0_pay3_eq, k0_pay1_eq, k0_pay2_eq, fuse_eq]
  exact fuseK_congr (congrArg₂ sample (W2_main_v44 m ρ c) (W2_main_v51 m ρ c)) (congrArg₂ sample (W2_main_v58 m ρ c) (W2_main_v65 m ρ c))
    (W2_main_v67 m ρ c) (W2_main_v69 m ρ c) (W2_main_v70 m ρ c) (W2_main_v71 m ρ c)

set_option maxHeartbeats 4000000 in
theorem W7_main_v74_eq (c : Dev nD) : W7 m ρ c (Proc.devRef .tc main_v74)
    = decode1 (fuseR (sample (pick (colsL (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0))) (pick (colsR (aggK_A (m ((c : Thread nD τ).loc main_arg1)) (m ((c : Thread nD τ).loc main_arg2)) (m ((c : Thread nD τ).loc main_arg3)) (m ((c : Thread nD τ).loc main_arg7)) (m ((c : Thread nD τ).loc main_arg8)))) (m ((c : Thread nD τ).loc main_arg0)))) (sample (pick (colsL (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0))) (pick (colsR (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0)))) (m ((c : Thread nD τ).loc main_arg11)) (m ((c : Thread nD τ).loc main_arg12)) (m ((c : Thread nD τ).loc main_arg13))) (m ((c : Thread nD τ).loc main_arg14))
        (fun i => shapeCast S1x20000 (m ((c : Thread nD τ).loc main_arg15)) shapeCasts_S20000_S1x20000 i) := by
  rw [W7_main_v74, arrAt1_3 (V4 m ρ) c]
  exact decode1_congr ((W4_main_v72_2 m ρ c).trans (arrAt0_10_eq m ρ c)) (W4_main_arg14 m ρ c) (W4_main_v73 m ρ c)

set_option maxHeartbeats 4000000 in
theorem W7_main_v76_eq (c : Dev nD) : W7 m ρ c (Proc.devRef .tc main_v76)
    = decode2 (sample (pick (colsL (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0))) (pick (colsR (aggK_S (m ((c : Thread nD τ).loc main_arg4)) (m ((c : Thread nD τ).loc main_arg5)) (m ((c : Thread nD τ).loc main_arg6)) (m ((c : Thread nD τ).loc main_arg9)) (m ((c : Thread nD τ).loc main_arg10)))) (m ((c : Thread nD τ).loc main_arg0)))) (m ((c : Thread nD τ).loc main_arg16)) (fun i => shapeCast S1x30000 (m ((c : Thread nD τ).loc main_arg17)) shapeCasts_S30000_S1x30000 i) := by
  rw [W7_main_v76, arrAt2_3 (V6 m ρ) c]
  exact decode2_congr ((W6_main_v72_1 m ρ c).trans ((W7_main_v72_1 m ρ c).symm.trans (W7_main_v72_1_eq m ρ c))) (W6_main_arg16 m ρ c) (W6_main_v75 m ρ c)

/-! # Against the reference -/

section Bridge
variable (m' : (ℓ : Loc Cert.ReferenceIdeal.nD Cert.ReferenceIdeal.τ Cert.ReferenceIdeal.sig) → Buf (Elt Ideal) ℓ)

set_option maxHeartbeats 4000000 in
theorem ref_eq_main_v74 (c : Dev nD) (h0 : m' ((c.tc : Thread Cert.ReferenceIdeal.nD Cert.ReferenceIdeal.τ).loc Cert.ReferenceIdeal.main_arg0) = m ((c : Thread nD τ).loc main_arg0)) (h1 : m' ((c.tc : Thread Cert.ReferenceIdeal.nD Cert.ReferenceIdeal.τ).loc Cert.ReferenceIdeal.main_arg1) = m ((c : Thread nD τ).loc main_arg1)) (h2 : m' ((c.tc : Thread Cert.ReferenceIdeal.nD Cert.ReferenceIdeal.τ).loc Cert.ReferenceIdeal.main_arg2) = m ((c : Thread nD τ).loc main_arg2)) (h3 : m' ((c.tc : Thread Cert.ReferenceIdeal.nD Cert.ReferenceIdeal.τ).loc Cert.ReferenceIdeal.main_arg3) = m ((c : Thread nD τ).loc main_arg3)) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h7 : m' ((c.tc : Thread Cert.ReferenceIdeal.nD Cert.ReferenceIdeal.τ).loc Cert.ReferenceIdeal.main_arg7) = m ((c : Thread nD τ).loc main_arg7)) (h8 : m' ((c.tc : Thread Cert.ReferenceIdeal.nD Cert.ReferenceIdeal.τ).loc Cert.ReferenceIdeal.main_arg8) = m ((c : Thread nD τ).loc main_arg8)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) (h11 : m' ((c.tc : Thread Cert.ReferenceIdeal.nD Cert.ReferenceIdeal.τ).loc Cert.ReferenceIdeal.main_arg11) = m ((c : Thread nD τ).loc main_arg11)) (h12 : m' ((c.tc : Thread Cert.ReferenceIdeal.nD Cert.ReferenceIdeal.τ).loc Cert.ReferenceIdeal.main_arg12) = m ((c : Thread nD τ).loc main_arg12)) (h13 : m' ((c.tc : Thread Cert.ReferenceIdeal.nD Cert.ReferenceIdeal.τ).loc Cert.ReferenceIdeal.main_arg13) = m ((c : Thread nD τ).loc main_arg13)) (h14 : m' ((c.tc : Thread Cert.ReferenceIdeal.nD Cert.ReferenceIdeal.τ).loc Cert.ReferenceIdeal.main_arg14) = m ((c : Thread nD τ).loc main_arg14)) (h15 : m' ((c.tc : Thread Cert.ReferenceIdeal.nD Cert.ReferenceIdeal.τ).loc Cert.ReferenceIdeal.main_arg15) = m ((c : Thread nD τ).loc main_arg15)) :
    decode1 (fuseR (sample (pick (colsL (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0))) (pick (colsR (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0)))) (sample (pick (colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) (pick (colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0)))) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) (m' ((c.tc : Thread Cert.ReferenceIdeal.nD Cert.ReferenceIdeal.τ).loc Cert.ReferenceIdeal.main_arg14))
        (fun i => shapeCast S1x20000 (m' ((c.tc : Thread Cert.ReferenceIdeal.nD Cert.ReferenceIdeal.τ).loc Cert.ReferenceIdeal.main_arg15)) shapeCasts_S20000_S1x20000 i)
      = W7 m ρ c (Proc.devRef .tc main_v74) := by
  rw [h0, h1, h2, h3, h4, h5, h6, h7, h8, h9, h10, h11, h12, h13, h14, h15, ← aggK_A_eq, ← aggK_S_eq]; exact (W7_main_v74_eq m ρ c).symm

set_option maxHeartbeats 4000000 in
theorem ref_eq_main_v76 (c : Dev nD) (h0 : m' ((c.tc : Thread Cert.ReferenceIdeal.nD Cert.ReferenceIdeal.τ).loc Cert.ReferenceIdeal.main_arg0) = m ((c : Thread nD τ).loc main_arg0)) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) (h16 : m' ((c.tc : Thread Cert.ReferenceIdeal.nD Cert.ReferenceIdeal.τ).loc Cert.ReferenceIdeal.main_arg16) = m ((c : Thread nD τ).loc main_arg16)) (h17 : m' ((c.tc : Thread Cert.ReferenceIdeal.nD Cert.ReferenceIdeal.τ).loc Cert.ReferenceIdeal.main_arg17) = m ((c : Thread nD τ).loc main_arg17)) :
    decode2 (sample (pick (colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) (pick (colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0)))) (m' ((c.tc : Thread Cert.ReferenceIdeal.nD Cert.ReferenceIdeal.τ).loc Cert.ReferenceIdeal.main_arg16)) (fun i => shapeCast S1x30000 (m' ((c.tc : Thread Cert.ReferenceIdeal.nD Cert.ReferenceIdeal.τ).loc Cert.ReferenceIdeal.main_arg17)) shapeCasts_S30000_S1x30000 i)
      = W7 m ρ c (Proc.devRef .tc main_v76) := by
  rw [h0, h4, h5, h6, h9, h10, h16, h17, ← aggK_S_eq]; exact (W7_main_v76_eq m ρ c).symm
end Bridge

end Cert.KernelIdeal.Hand

end
-- ==== Proof.KI.Final.lean ====
import proofs.«151948_j17755394802209_2_alg».proof.Proof.KI.Recon
import proofs.«151948_j17755394802209_2_alg».proof.Proof.Gen.ReferenceIdeal.Run

/-! The reference's two reconstructions, as its run states them, against the program's. -/

set_option maxRecDepth 16384

noncomputable section

namespace Cert.KernelIdeal.Hand

open Cert.KernelIdeal Cert.KernelIdeal.Gen
open Idealize.ShloMosaic Idealize.ShloMosaic.TcCoe Idealize.SL.Sem

/-- A latent decoded against the first weight and bias, as the reference spells it. -/
def reconA_R (z : FVec Ideal S4096x64 .f32) (a14 : FVec Ideal S20000x64 .f32) (a15 : FVec Ideal S20000 .f32) : FVec Ideal S4096x20000 .f32 :=
  addf (Host.dotGeneral Cert.ReferenceIdeal.dot_S4096x64_S64x20000_S4096x20000_1_0_0_1_n_n none z
      (transpose Cert.ReferenceIdeal.S64x20000 [1, 0] a14 Cert.ReferenceIdeal.Gen.transposes_S20000x64_S64x20000_1_0))
    (broadcastInDim Cert.ReferenceIdeal.S4096x20000 ![0, 1] Cert.ReferenceIdeal.Gen.bcast_S1x20000_S4096x20000_0_1 (broadcastInDim Cert.ReferenceIdeal.S1x20000 ![1] Cert.ReferenceIdeal.Gen.bcast_S20000_S1x20000_1 a15))
/-- A latent decoded against the second weight and bias, as the reference spells it. -/
def reconS_R (z : FVec Ideal S4096x64 .f32) (a16 : FVec Ideal S30000x64 .f32) (a17 : FVec Ideal S30000 .f32) : FVec Ideal S4096x30000 .f32 :=
  addf (Host.dotGeneral Cert.ReferenceIdeal.dot_S4096x64_S64x30000_S4096x30000_1_0_0_1_n_n none z
      (transpose Cert.ReferenceIdeal.S64x30000 [1, 0] a16 Cert.ReferenceIdeal.Gen.transposes_S30000x64_S64x30000_1_0))
    (broadcastInDim Cert.ReferenceIdeal.S4096x30000 ![0, 1] Cert.ReferenceIdeal.Gen.bcast_S1x30000_S4096x30000_0_1 (broadcastInDim Cert.ReferenceIdeal.S1x30000 ![1] Cert.ReferenceIdeal.Gen.bcast_S30000_S1x30000_1 a17))

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in
/-- The reference's first reconstruction, over its named parts, is the program's. -/
theorem ref_eq_reconA (c : Dev nD) (h0 : m' ((c.tc : Thread Cert.ReferenceIdeal.nD Cert.ReferenceIdeal.τ).loc Cert.ReferenceIdeal.main_arg0) = m ((c : Thread nD τ).loc main_arg0)) (h1 : m' ((c.tc : Thread Cert.ReferenceIdeal.nD Cert.ReferenceIdeal.τ).loc Cert.ReferenceIdeal.main_arg1) = m ((c : Thread nD τ).loc main_arg1)) (h2 : m' ((c.tc : Thread Cert.ReferenceIdeal.nD Cert.ReferenceIdeal.τ).loc Cert.ReferenceIdeal.main_arg2) = m ((c : Thread nD τ).loc main_arg2)) (h3 : m' ((c.tc : Thread Cert.ReferenceIdeal.nD Cert.ReferenceIdeal.τ).loc Cert.ReferenceIdeal.main_arg3) = m ((c : Thread nD τ).loc main_arg3)) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h7 : m' ((c.tc : Thread Cert.ReferenceIdeal.nD Cert.ReferenceIdeal.τ).loc Cert.ReferenceIdeal.main_arg7) = m ((c : Thread nD τ).loc main_arg7)) (h8 : m' ((c.tc : Thread Cert.ReferenceIdeal.nD Cert.ReferenceIdeal.τ).loc Cert.ReferenceIdeal.main_arg8) = m ((c : Thread nD τ).loc main_arg8)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) (h11 : m' ((c.tc : Thread Cert.ReferenceIdeal.nD Cert.ReferenceIdeal.τ).loc Cert.ReferenceIdeal.main_arg11) = m ((c : Thread nD τ).loc main_arg11)) (h12 : m' ((c.tc : Thread Cert.ReferenceIdeal.nD Cert.ReferenceIdeal.τ).loc Cert.ReferenceIdeal.main_arg12) = m ((c : Thread nD τ).loc main_arg12)) (h13 : m' ((c.tc : Thread Cert.ReferenceIdeal.nD Cert.ReferenceIdeal.τ).loc Cert.ReferenceIdeal.main_arg13) = m ((c : Thread nD τ).loc main_arg13)) (h14 : m' ((c.tc : Thread Cert.ReferenceIdeal.nD Cert.ReferenceIdeal.τ).loc Cert.ReferenceIdeal.main_arg14) = m ((c : Thread nD τ).loc main_arg14)) (h15 : m' ((c.tc : Thread Cert.ReferenceIdeal.nD Cert.ReferenceIdeal.τ).loc Cert.ReferenceIdeal.main_arg15) = m ((c : Thread nD τ).loc main_arg15)) :
    reconA_R (fuseR (sample (pick (colsL (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0))) (pick (colsR (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0)))) (sample (pick (colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) (pick (colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0)))) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      = W7 m ρ c (Proc.devRef .tc main_v74) :=
  (host_decode1 _ _ _).trans (ref_eq_main_v74 m ρ m' c h0 h1 h2 h3 h4 h5 h6 h7 h8 h9 h10 h11 h12 h13 h14 h15)

set_option maxHeartbeats 4000000 in
/-- The reference's second reconstruction, over its named parts, is the program's. -/
theorem ref_eq_reconS (c : Dev nD) (h0 : m' ((c.tc : Thread Cert.ReferenceIdeal.nD Cert.ReferenceIdeal.τ).loc Cert.ReferenceIdeal.main_arg0) = m ((c : Thread nD τ).loc main_arg0)) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) (h16 : m' ((c.tc : Thread Cert.ReferenceIdeal.nD Cert.ReferenceIdeal.τ).loc Cert.ReferenceIdeal.main_arg16) = m ((c : Thread nD τ).loc main_arg16)) (h17 : m' ((c.tc : Thread Cert.ReferenceIdeal.nD Cert.ReferenceIdeal.τ).loc Cert.ReferenceIdeal.main_arg17) = m ((c : Thread nD τ).loc main_arg17)) :
    reconS_R (sample (pick (colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) (pick (colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0)))) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = W7 m ρ c (Proc.devRef .tc main_v76) :=
  (host_decode2 _ _ _).trans (ref_eq_main_v76 m ρ m' c h0 h4 h5 h6 h9 h10 h16 h17)

set_option maxHeartbeats 8000000 in
/-- The term the reference's run names for its first result is that reconstruction. -/
theorem res_main_v94_eq (c : Dev nD) : Cert.ReferenceIdeal.Value.res_main_v94 m' c
    = reconA_R (fuseR (sample (pick (colsL (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0))) (pick (colsR (aggR_A (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (m' ((c.tc : Thread Cert.ReferenceIdeal.nD Cert.ReferenceIdeal.τ).loc Cert.ReferenceIdeal.main_arg0)))) (sample (pick (colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) (pick (colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0)))) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) := rfl

set_option maxHeartbeats 4000000 in
theorem ref_eq_res_main_v94 (c : Dev nD) (h0 : m' ((c.tc : Thread Cert.ReferenceIdeal.nD Cert.ReferenceIdeal.τ).loc Cert.ReferenceIdeal.main_arg0) = m ((c : Thread nD τ).loc main_arg0)) (h1 : m' ((c.tc : Thread Cert.ReferenceIdeal.nD Cert.ReferenceIdeal.τ).loc Cert.ReferenceIdeal.main_arg1) = m ((c : Thread nD τ).loc main_arg1)) (h2 : m' ((c.tc : Thread Cert.ReferenceIdeal.nD Cert.ReferenceIdeal.τ).loc Cert.ReferenceIdeal.main_arg2) = m ((c : Thread nD τ).loc main_arg2)) (h3 : m' ((c.tc : Thread Cert.ReferenceIdeal.nD Cert.ReferenceIdeal.τ).loc Cert.ReferenceIdeal.main_arg3) = m ((c : Thread nD τ).loc main_arg3)) (h4 : m' ((c.tc : Thread Cert.ReferenceIdeal.nD Cert.ReferenceIdeal.τ).loc Cert.ReferenceIdeal.main_arg4) = m ((c : Thread nD τ).loc main_arg4)) (h5 : m' ((c.tc : Thread Cert.ReferenceIdeal.nD Cert.ReferenceIdeal.τ).loc Cert.ReferenceIdeal.main_arg5) = m ((c : Thread nD τ).loc main_arg5)) (h6 : m' ((c.tc : Thread Cert.ReferenceIdeal.nD Cert.ReferenceIdeal.τ).loc Cert.ReferenceIdeal.main_arg6) = m ((c : Thread nD τ).loc main_arg6)) (h7 : m' ((c.tc : Thread Cert.ReferenceIdeal.nD Cert.ReferenceIdeal.τ).loc Cert.ReferenceIdeal.main_arg7) = m ((c : Thread nD τ).loc main_arg7)) (h8 : m' ((c.tc : Thread Cert.ReferenceIdeal.nD Cert.ReferenceIdeal.τ).loc Cert.ReferenceIdeal.main_arg8) = m ((c : Thread nD τ).loc main_arg8)) (h9 : m' ((c.tc : Thread Cert.ReferenceIdeal.nD Cert.ReferenceIdeal.τ).loc Cert.ReferenceIdeal.main_arg9) = m ((c : Thread nD τ).loc main_arg9)) (h10 : m' ((c.tc : Thread Cert.ReferenceIdeal.nD Cert.ReferenceIdeal.τ).loc Cert.ReferenceIdeal.main_arg10) = m ((c : Thread nD τ).loc main_arg10)) (h11 : m' ((c.tc : Thread Cert.ReferenceIdeal.nD Cert.ReferenceIdeal.τ).loc Cert.ReferenceIdeal.main_arg11) = m ((c : Thread nD τ).loc main_arg11)) (h12 : m' ((c.tc : Thread Cert.ReferenceIdeal.nD Cert.ReferenceIdeal.τ).loc Cert.ReferenceIdeal.main_arg12) = m ((c : Thread nD τ).loc main_arg12)) (h13 : m' ((c.tc : Thread Cert.ReferenceIdeal.nD Cert.ReferenceIdeal.τ).loc Cert.ReferenceIdeal.main_arg13) = m ((c : Thread nD τ).loc main_arg13)) (h14 : m' ((c.tc : Thread Cert.ReferenceIdeal.nD Cert.ReferenceIdeal.τ).loc Cert.ReferenceIdeal.main_arg14) = m ((c : Thread nD τ).loc main_arg14)) (h15 : m' ((c.tc : Thread Cert.ReferenceIdeal.nD Cert.ReferenceIdeal.τ).loc Cert.ReferenceIdeal.main_arg15) = m ((c : Thread nD τ).loc main_arg15)) :
    Cert.ReferenceIdeal.Value.res_main_v94 m' c = W7 m ρ c (Proc.devRef .tc main_v74) :=
  (res_main_v94_eq m' c).trans (ref_eq_reconA m ρ m' c h0 h1 h2 h3 h4 h5 h6 h7 h8 h9 h10 h11 h12 h13 h14 h15)

set_option maxHeartbeats 4000000 in
/-- The reference's run at its second result, over the named parts. -/
theorem ref_run_main_v99 (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v99) = reconS_R (sample (pick (colsL (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0))) (pick (colsR (aggR_S (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))) (m' ((c.tc : Thread Cert.ReferenceIdeal.nD Cert.ReferenceIdeal.τ).loc Cert.ReferenceIdeal.main_arg0)))) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) :=
  (θ_run _ _ _).mono (fun r h c => (h c).2.1) (Cert.ReferenceIdeal.Value.run (F := Ideal) m' ρ')

end Cert.KernelIdeal.Hand

end
-- ==== Proof.lean ====
/- The five claims about the sparse-graph encoder / attention-fused decoder: its three pallas regions (one gridless
   attention kernel, two column-tiled decode products whose last tile overhangs the array) run to the end at both
   instances with the argument arrays unchanged, and at the exact instance every result equals the reference's:
   the four encoder outputs by commuting one product, the two sampled latents entry by entry, and the two
   decoded arrays because a tile of x·Wᵀ + b depends on the rows of W inside the array only, and the contraction
   over the joined 128 columns is the sum of the two 64-column contractions. -/
import proofs.«151948_j17755394802209_2_alg».proof.Defs
import proofs.«151948_j17755394802209_2_alg».proof.Proof.Gen.Kernel
import proofs.«151948_j17755394802209_2_alg».proof.Proof.Gen.KernelIdeal
import proofs.«151948_j17755394802209_2_alg».proof.Proof.Gen.ReferenceIdeal
import proofs.«151948_j17755394802209_2_alg».proof.Proof.Gen.Pre_finite_inputs
import proofs.«151948_j17755394802209_2_alg».proof.Proof.K.Run
import proofs.«151948_j17755394802209_2_alg».proof.Proof.KI.Final
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c => ⟨(h c _ Cert.KernelIdeal.Hand.mem_uc_main_arg0).trans (Cert.KernelIdeal.Hand.W7_main_arg0 m ρ c),
    (h c _ Cert.KernelIdeal.Hand.mem_uc_main_arg1).trans (Cert.KernelIdeal.Hand.W7_main_arg1 m ρ c),
    (h c _ Cert.KernelIdeal.Hand.mem_uc_main_arg2).trans (Cert.KernelIdeal.Hand.W7_main_arg2 m ρ c),
    (h c _ Cert.KernelIdeal.Hand.mem_uc_main_arg3).trans (Cert.KernelIdeal.Hand.W7_main_arg3 m ρ c),
    (h c _ Cert.KernelIdeal.Hand.mem_uc_main_arg4).trans (Cert.KernelIdeal.Hand.W7_main_arg4 m ρ c),
    (h c _ Cert.KernelIdeal.Hand.mem_uc_main_arg5).trans (Cert.KernelIdeal.Hand.W7_main_arg5 m ρ c),
    (h c _ Cert.KernelIdeal.Hand.mem_uc_main_arg6).trans (Cert.KernelIdeal.Hand.W7_main_arg6 m ρ c),
    (h c _ Cert.KernelIdeal.Hand.mem_uc_main_arg7).trans (Cert.KernelIdeal.Hand.W7_main_arg7 m ρ c),
    (h c _ Cert.KernelIdeal.Hand.mem_uc_main_arg8).trans (Cert.KernelIdeal.Hand.W7_main_arg8 m ρ c),
    (h c _ Cert.KernelIdeal.Hand.mem_uc_main_arg9).trans (Cert.KernelIdeal.Hand.W7_main_arg9 m ρ c),
    (h c _ Cert.KernelIdeal.Hand.mem_uc_main_arg10).trans (Cert.KernelIdeal.Hand.W7_main_arg10 m ρ c),
    (h c _ Cert.KernelIdeal.Hand.mem_uc_main_arg11).trans (Cert.KernelIdeal.Hand.W7_main_arg11 m ρ c),
    (h c _ Cert.KernelIdeal.Hand.mem_uc_main_arg12).trans (Cert.KernelIdeal.Hand.W7_main_arg12 m ρ c),
    (h c _ Cert.KernelIdeal.Hand.mem_uc_main_arg13).trans (Cert.KernelIdeal.Hand.W7_main_arg13 m ρ c),
    (h c _ Cert.KernelIdeal.Hand.mem_uc_main_arg14).trans (Cert.KernelIdeal.Hand.W7_main_arg14 m ρ c),
    (h c _ Cert.KernelIdeal.Hand.mem_uc_main_arg15).trans (Cert.KernelIdeal.Hand.W7_main_arg15 m ρ c),
    (h c _ Cert.KernelIdeal.Hand.mem_uc_main_arg16).trans (Cert.KernelIdeal.Hand.W7_main_arg16 m ρ c),
    (h c _ Cert.KernelIdeal.Hand.mem_uc_main_arg17).trans (Cert.KernelIdeal.Hand.W7_main_arg17 m ρ c)⟩)
    (Cert.KernelIdeal.Hand.run_main m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2.2.2)
    (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W7 m ρ c (Proc.devRef .tc Cert.KernelIdeal.main_v74), fun c => Cert.KernelIdeal.Hand.W7 m ρ c (Proc.devRef .tc Cert.KernelIdeal.main_v76),
    fun c => Cert.KernelIdeal.Hand.W7 m ρ c (Proc.devRef .tc Cert.KernelIdeal.main_v17), fun c => Cert.KernelIdeal.Hand.W7 m ρ c (Proc.devRef .tc Cert.KernelIdeal.main_v18),
    fun c => Cert.KernelIdeal.Hand.W7 m ρ c (Proc.devRef .tc Cert.KernelIdeal.main_v36), fun c => Cert.KernelIdeal.Hand.W7 m ρ c (Proc.devRef .tc Cert.KernelIdeal.main_v37),
    fun c => Cert.KernelIdeal.Hand.W7 m ρ c (Proc.devRef .tc Cert.KernelIdeal.main_v72_0), fun c => Cert.KernelIdeal.Hand.W7 m ρ c (Proc.devRef .tc Cert.KernelIdeal.main_v72_1), ?_, ?_⟩
  · exact (θ_run Cert.KernelIdeal.defs _ _).mono (fun r h c => ⟨h c _ Cert.KernelIdeal.Hand.mem_uc_main_v74, h c _ Cert.KernelIdeal.Hand.mem_uc_main_v76,
      h c _ Cert.KernelIdeal.Hand.mem_uc_main_v17, h c _ Cert.KernelIdeal.Hand.mem_uc_main_v18, h c _ Cert.KernelIdeal.Hand.mem_uc_main_v36, h c _ Cert.KernelIdeal.Hand.mem_uc_main_v37,
      h c _ Cert.KernelIdeal.Hand.mem_uc_main_v72_0, h c _ Cert.KernelIdeal.Hand.mem_uc_main_v72_1,
      (h c _ Cert.KernelIdeal.Hand.mem_uc_main_arg0).trans (Cert.KernelIdeal.Hand.W7_main_arg0 m ρ c),
      (h c _ Cert.KernelIdeal.Hand.mem_uc_main_arg1).trans (Cert.KernelIdeal.Hand.W7_main_arg1 m ρ c),
      (h c _ Cert.KernelIdeal.Hand.mem_uc_main_arg2).trans (Cert.KernelIdeal.Hand.W7_main_arg2 m ρ c),
      (h c _ Cert.KernelIdeal.Hand.mem_uc_main_arg3).trans (Cert.KernelIdeal.Hand.W7_main_arg3 m ρ c),
      (h c _ Cert.KernelIdeal.Hand.mem_uc_main_arg4).trans (Cert.KernelIdeal.Hand.W7_main_arg4 m ρ c),
      (h c _ Cert.KernelIdeal.Hand.mem_uc_main_arg5).trans (Cert.KernelIdeal.Hand.W7_main_arg5 m ρ c),
      (h c _ Cert.KernelIdeal.Hand.mem_uc_main_arg6).trans (Cert.KernelIdeal.Hand.W7_main_arg6 m ρ c),
      (h c _ Cert.KernelIdeal.Hand.mem_uc_main_arg7).trans (Cert.KernelIdeal.Hand.W7_main_arg7 m ρ c),
      (h c _ Cert.KernelIdeal.Hand.mem_uc_main_arg8).trans (Cert.KernelIdeal.Hand.W7_main_arg8 m ρ c),
      (h c _ Cert.KernelIdeal.Hand.mem_uc_main_arg9).trans (Cert.KernelIdeal.Hand.W7_main_arg9 m ρ c),
      (h c _ Cert.KernelIdeal.Hand.mem_uc_main_arg10).trans (Cert.KernelIdeal.Hand.W7_main_arg10 m ρ c),
      (h c _ Cert.KernelIdeal.Hand.mem_uc_main_arg11).trans (Cert.KernelIdeal.Hand.W7_main_arg11 m ρ c),
      (h c _ Cert.KernelIdeal.Hand.mem_uc_main_arg12).trans (Cert.KernelIdeal.Hand.W7_main_arg12 m ρ c),
      (h c _ Cert.KernelIdeal.Hand.mem_uc_main_arg13).trans (Cert.KernelIdeal.Hand.W7_main_arg13 m ρ c),
      (h c _ Cert.KernelIdeal.Hand.mem_uc_main_arg14).trans (Cert.KernelIdeal.Hand.W7_main_arg14 m ρ c),
      (h c _ Cert.KernelIdeal.Hand.mem_uc_main_arg15).trans (Cert.KernelIdeal.Hand.W7_main_arg15 m ρ c),
      (h c _ Cert.KernelIdeal.Hand.mem_uc_main_arg16).trans (Cert.KernelIdeal.Hand.W7_main_arg16 m ρ c),
      (h c _ Cert.KernelIdeal.Hand.mem_uc_main_arg17).trans (Cert.KernelIdeal.Hand.W7_main_arg17 m ρ c)⟩) (Cert.KernelIdeal.Hand.run_main m ρ)
  · refine (θ_run Cert.ReferenceIdeal.defs _ _).mono (fun r h c => ?_) (Cert.ReferenceIdeal.Value.run (F := Ideal) m' ρ')
    have h0 := (hagree c).1
    have h1 := (hagree c).2.1
    have h2 := (hagree c).2.2.1
    have h3 := (hagree c).2.2.2.1
    have h4 := (hagree c).2.2.2.2.1
    have h5 := (hagree c).2.2.2.2.2.1
    have h6 := (hagree c).2.2.2.2.2.2.1
    have h7 := (hagree c).2.2.2.2.2.2.2.1
    have h8 := (hagree c).2.2.2.2.2.2.2.2.1
    have h9 := (hagree c).2.2.2.2.2.2.2.2.2.1
    have h10 := (hagree c).2.2.2.2.2.2.2.2.2.2.1
    have h11 := (hagree c).2.2.2.2.2.2.2.2.2.2.2.1
    have h12 := (hagree c).2.2.2.2.2.2.2.2.2.2.2.2.1
    have h13 := (hagree c).2.2.2.2.2.2.2.2.2.2.2.2.2.1
    have h14 := (hagree c).2.2.2.2.2.2.2.2.2.2.2.2.2.2.1
    have h15 := (hagree c).2.2.2.2.2.2.2.2.2.2.2.2.2.2.2.1
    have h16 := (hagree c).2.2.2.2.2.2.2.2.2.2.2.2.2.2.2.2.1
    have h17 := (hagree c).2.2.2.2.2.2.2.2.2.2.2.2.2.2.2.2.2
    exact ⟨(h c).1.trans (Cert.KernelIdeal.Hand.ref_eq_res_main_v94 m ρ m' c h0 h1 h2 h3 h4 h5 h6 h7 h8 h9 h10 h11 h12 h13 h14 h15), (h c).2.1.trans (Cert.KernelIdeal.Hand.ref_eq_reconS m ρ m' c h0 h4 h5 h6 h9 h10 h16 h17),
      (h c).2.2.1.trans (Cert.KernelIdeal.Hand.ref_eq_main_v17 m ρ m' c h1 h2 h3 h7 h8), (h c).2.2.2.1.trans (Cert.KernelIdeal.Hand.ref_eq_main_v18 m ρ m' c h1 h2 h3 h7 h8),
      (h c).2.2.2.2.1.trans (Cert.KernelIdeal.Hand.ref_eq_main_v36 m ρ m' c h4 h5 h6 h9 h10), (h c).2.2.2.2.2.1.trans (Cert.KernelIdeal.Hand.ref_eq_main_v37 m ρ m' c h4 h5 h6 h9 h10),
      (h c).2.2.2.2.2.2.1.trans (Cert.KernelIdeal.Hand.ref_eq_main_v72_0 m ρ m' c h0 h1 h2 h3 h7 h8), (h c).2.2.2.2.2.2.2.1.trans (Cert.KernelIdeal.Hand.ref_eq_main_v72_1 m ρ m' c h0 h4 h5 h6 h9 h10),
      (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
